-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v214) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1200000 : Shape := ⟨2, ![2, 1200000]⟩
abbrev S1200000 : Shape := ⟨1, ![1200000]⟩
abbrev S1000 : Shape := ⟨1, ![1000]⟩
abbrev S256x128 : Shape := ⟨2, ![256, 128]⟩
abbrev S256 : Shape := ⟨1, ![256]⟩
abbrev S64x256 : Shape := ⟨2, ![64, 256]⟩
abbrev S64 : Shape := ⟨1, ![64]⟩
abbrev S192x64 : Shape := ⟨2, ![192, 64]⟩
abbrev S192 : Shape := ⟨1, ![192]⟩
abbrev S8 : Shape := ⟨1, ![8]⟩
abbrev S256x64 : Shape := ⟨2, ![256, 64]⟩
abbrev S2x256 : Shape := ⟨2, ![2, 256]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_
  bcast_S_S192x64 : S_.BroadcastsInDim S192x64 (![] : Fin 0 → Fin S192x64.rank)
  reducesTo_S192x64_S_d0_1 : S192x64.ReducesTo [0, 1] S_
  bcast_S_S192 : S_.BroadcastsInDim S192 (![] : Fin 0 → Fin S192.rank)
  reducesTo_S192_S_d0 : S192.ReducesTo [0] S_
  bcast_S_S8 : S_.BroadcastsInDim S8 (![] : Fin 0 → Fin S8.rank)
  reducesTo_S8_S_d0 : S8.ReducesTo [0] S_
  bcast_S_S256x64 : S_.BroadcastsInDim S256x64 (![] : Fin 0 → Fin S256x64.rank)
  reducesTo_S256x64_S_d0_1 : S256x64.ReducesTo [0, 1] S_
  bcast_S_S2x256 : S_.BroadcastsInDim S2x256 (![] : Fin 0 → Fin S2x256.rank)
  reducesTo_S2x256_S_d0_1 : S2x256.ReducesTo [0, 1] S_
  bcast_S_S2 : S_.BroadcastsInDim S2 (![] : Fin 0 → Fin S2.rank)
  reducesTo_S2_S_d0 : S2.ReducesTo [0] S_
  reducesTo_S_S_d : S_.ReducesTo [] S_

variable [Facts]

def fn_part4 {F : FTy → Type} [FloatOps F] (main_arg17 : FVec F S_ .f32) (main_v63 : IVec S_ 1) (main_v67 : IVec S_ 1) : IVec S_ 1 :=
  let main_v68 : IVec S_ 1 := andi main_v63 main_v67
  let main_v69 : FVec F S_ .f32 := Host.absf main_arg17
  let main_cst_26 : FVec F S_ .f32 := constant S_ .f32 0x7F800000#32
  let main_v70 : IVec S_ 1 := cmpf .olt main_v69 main_cst_26
  let main_c_27 : IVec S_ 1 := constantI S_ 1 1#1
  let main_v71 : IVec S_ 1 := (fun x v => Host.reduce IntOp.andi x v reducesTo_S_S_d h_S_) main_v70 main_c_27
  let main_v72 : IVec S_ 1 := andi main_v68 main_v71
  main_v72

def fn_part3 {F : FTy → Type} [FloatOps F] (main_arg14 : FVec F S256 .f32) (main_arg15 : FVec F S2x256 .f32) (main_arg16 : FVec F S2 .f32) (main_arg17 : FVec F S_ .f32) (main_v48 : IVec S_ 1) (main_v49 : FVec F S256x64 .f32) (main_v50 : FVec F S256x64 .f32) : IVec S_ 1 :=
  let main_v51 : IVec S256x64 1 := cmpf .olt main_v49 main_v50
  let main_c_19 : IVec S_ 1 := constantI S_ 1 1#1
  let main_v52 : IVec S_ 1 := (fun x v => Host.reduce IntOp.andi x v reducesTo_S256x64_S_d0_1 h_S_) main_v51 main_c_19
  let main_v53 : IVec S_ 1 := andi main_v48 main_v52
  let main_v54 : FVec F S256 .f32 := Host.absf main_arg14
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S2x256 .f32 := Host.absf main_arg15
  let main_cst_22 : FVec F S_ .f32 := constant S_ .f32 0x7F800000#32
  let main_v60 : FVec F S2x256 .f32 := broadcastInDim S2x256 ![] bcast_S_S2x256 main_cst_22
  let main_v61 : IVec S2x256 1 := cmpf .olt main_v59 main_v60
  let main_c_23 : IVec S_ 1 := constantI S_ 1 1#1
  let main_v62 : IVec S_ 1 := (fun x v => Host.reduce IntOp.andi x v reducesTo_S2x256_S_d0_1 h_S_) main_v61 main_c_23
  let main_v63 : IVec S_ 1 := andi main_v58 main_v62
  let main_v64 : FVec F S2 .f32 := Host.absf main_arg16
  let main_cst_24 : FVec F S_ .f32 := constant S_ .f32 0x7F800000#32
  let main_v65 : FVec F S2 .f32 := broadcastInDim S2 ![] bcast_S_S2 main_cst_24
  let main_v66 : IVec S2 1 := cmpf .olt main_v64 main_v65
  let main_c_25 : IVec S_ 1 := constantI S_ 1 1#1
  let main_v67 : IVec S_ 1 := (fun x v => Host.reduce IntOp.andi x v reducesTo_S2_S_d0 h_S_) main_v66 main_c_25
  fn_part4 (F := F) main_arg17 main_v63 main_v67

def fn_part2 {F : FTy → Type} [FloatOps F] (main_arg10 : FVec F S192 .f32) (main_arg11 : FVec F S192 .f32) (main_arg12 : FVec F S8 .f32) (main_arg13 : FVec F S256x64 .f32) (main_arg14 : FVec F S256 .f32) (main_arg15 : FVec F S2x256 .f32) (main_arg16 : FVec F S2 .f32) (main_arg17 : FVec F S_ .f32) (main_v33 : IVec S_ 1) : IVec S_ 1 :=
  let main_v34 : FVec F S192 .f32 := Host.absf main_arg10
  let main_cst_12 : FVec F S_ .f32 := constant S_ .f32 0x7F800000#32
  let main_v35 : FVec F S192 .f32 := broadcastInDim S192 ![] bcast_S_S192 main_cst_12
  let main_v36 : IVec S192 1 := cmpf .olt main_v34 main_v35
  let main_c_13 : IVec S_ 1 := constantI S_ 1 1#1
  let main_v37 : IVec S_ 1 := (fun x v => Host.reduce IntOp.andi x v reducesTo_S192_S_d0 h_S_) main_v36 main_c_13
  let main_v38 : IVec S_ 1 := andi main_v33 main_v37
  let main_v39 : FVec F S192 .f32 := Host.absf main_arg11
  let main_cst_14 : FVec F S_ .f32 := constant S_ .f32 0x7F800000#32
  let main_v40 : FVec F S192 .f32 := broadcastInDim S192 ![] bcast_S_S192 main_cst_14
  let main_v41 : IVec S192 1 := cmpf .olt main_v39 main_v40
  let main_c_15 : IVec S_ 1 := constantI S_ 1 1#1
  let main_v42 : IVec S_ 1 := (fun x v => Host.reduce IntOp.andi x v reducesTo_S192_S_d0 h_S_) main_v41 main_c_15
  let main_v43 : IVec S_ 1 := andi main_v38 main_v42
  let main_v44 : FVec F S8 .f32 := Host.absf main_arg12
  let main_cst_16 : FVec F S_ .f32 := constant S_ .f32 0x7F800000#32
  let main_v45 : FVec F S8 .f32 := broadcastInDim S8 ![] bcast_S_S8 main_cst_16
  let main_v46 : IVec S8 1 := cmpf .olt main_v44 main_v45
  let main_c_17 : IVec S_ 1 := constantI S_ 1 1#1
  let main_v47 : IVec S_ 1 := (fun x v => Host.reduce IntOp.andi x v reducesTo_S8_S_d0 h_S_) main_v46 main_c_17
  let main_v48 : IVec S_ 1 := andi main_v43 main_v47
  let main_v49 : FVec F S256x64 .f32 := Host.absf main_arg13
  let main_cst_18 : FVec F S_ .f32 := constant S_ .f32 0x7F800000#32
  let main_v50 : FVec F S256x64 .f32 := broadcastInDim S256x64 ![] bcast_S_S256x64 main_cst_18
  fn_part3 (F := F) main_arg14 main_arg15 main_arg16 main_arg17 main_v48 main_v49 main_v50

def fn_part1 {F : FTy → Type} [FloatOps F] (main_arg7 : FVec F S64 .f32) (main_arg8 : FVec F S192x64 .f32) (main_arg9 : FVec F S192x64 .f32) (main_arg10 : FVec F S192 .f32) (main_arg11 : FVec F S192 .f32) (main_arg12 : FVec F S8 .f32) (main_arg13 : FVec F S256x64 .f32) (main_arg14 : FVec F S256 .f32) (main_arg15 : FVec F S2x256 .f32) (main_arg16 : FVec F S2 .f32) (main_arg17 : FVec F S_ .f32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S192x64 .f32 := Host.absf main_arg8
  let main_cst_8 : FVec F S_ .f32 := constant S_ .f32 0x7F800000#32
  let main_v25 : FVec F S192x64 .f32 := broadcastInDim S192x64 ![] bcast_S_S192x64 main_cst_8
  let main_v26 : IVec S192x64 1 := cmpf .olt main_v24 main_v25
  let main_c_9 : IVec S_ 1 := constantI S_ 1 1#1
  let main_v27 : IVec S_ 1 := (fun x v => Host.reduce IntOp.andi x v reducesTo_S192x64_S_d0_1 h_S_) main_v26 main_c_9
  let main_v28 : IVec S_ 1 := andi main_v23 main_v27
  let main_v29 : FVec F S192x64 .f32 := Host.absf main_arg9
  let main_cst_10 : FVec F S_ .f32 := constant S_ .f32 0x7F800000#32
  let main_v30 : FVec F S192x64 .f32 := broadcastInDim S192x64 ![] bcast_S_S192x64 main_cst_10
  let main_v31 : IVec S192x64 1 := cmpf .olt main_v29 main_v30
  let main_c_11 : IVec S_ 1 := constantI S_ 1 1#1
  let main_v32 : IVec S_ 1 := (fun x v => Host.reduce IntOp.andi x v reducesTo_S192x64_S_d0_1 h_S_) main_v31 main_c_11
  let main_v33 : IVec S_ 1 := andi main_v28 main_v32
  fn_part2 (F := F) main_arg10 main_arg11 main_arg12 main_arg13 main_arg14 main_arg15 main_arg16 main_arg17 main_v33

def fn {F : FTy → Type} [FloatOps F] (main_arg0 : FVec F S100000x128 .f32) (main_arg1 : IVec S2x1200000 32) (main_arg2 : IVec S1200000 32) (main_arg3 : IVec S1000 32) (main_arg4 : FVec F S256x128 .f32) (main_arg5 : FVec F S256 .f32) (main_arg6 : FVec F S64x256 .f32) (main_arg7 : FVec F S64 .f32) (main_arg8 : FVec F S192x64 .f32) (main_arg9 : FVec F S192x64 .f32) (main_arg10 : FVec F S192 .f32) (main_arg11 : FVec F S192 .f32) (main_arg12 : FVec F S8 .f32) (main_arg13 : FVec F S256x64 .f32) (main_arg14 : FVec F S256 .f32) (main_arg15 : FVec F S2x256 .f32) (main_arg16 : FVec F S2 .f32) (main_arg17 : FVec F S_ .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x128 .f32 := Host.absf main_arg4
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg5
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S64x256 .f32 := Host.absf main_arg6
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg7 main_arg8 main_arg9 main_arg10 main_arg11 main_arg12 main_arg13 main_arg14 main_arg15 main_arg16 main_arg17 main_v13 main_v16
-- ==== Kernel.lean ====
abbrev S100000x128 : Shape := ⟨2, ![100000, 128]⟩
abbrev S2x1200000 : Shape := ⟨2, ![2, 1200000]⟩
abbrev S1200000 : Shape := ⟨1, ![1200000]⟩
abbrev S1000 : Shape := ⟨1, ![1000]⟩
abbrev S256x128 : Shape := ⟨2, ![256, 128]⟩
abbrev S256 : Shape := ⟨1, ![256]⟩
abbrev S64x256 : Shape := ⟨2, ![64, 256]⟩
abbrev S64 : Shape := ⟨1, ![64]⟩
abbrev S192x64 : Shape := ⟨2, ![192, 64]⟩
abbrev S192 : Shape := ⟨1, ![192]⟩
abbrev S8 : Shape := ⟨1, ![8]⟩
abbrev S256x64 : Shape := ⟨2, ![256, 64]⟩
abbrev S2x256 : Shape := ⟨2, ![2, 256]⟩
abbrev S2 : Shape := ⟨1, ![2]⟩
abbrev S_ : Shape := ⟨0, ![]⟩
abbrev S1x1200000 : Shape := ⟨2, ![1, 1200000]⟩
abbrev S1x256 : Shape := ⟨2, ![1, 256]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S128x256 : Shape := ⟨2, ![128, 256]⟩
abbrev S5000x256 : Shape := ⟨2, ![5000, 256]⟩
abbrev S1200000x1 : Shape := ⟨2, ![1200000, 1]⟩
abbrev S100000 : Shape := ⟨1, ![100000]⟩
abbrev S100000x1 : Shape := ⟨2, ![100000, 1]⟩
abbrev S1200000x64 : Shape := ⟨2, ![1200000, 64]⟩
abbrev S1x192 : Shape := ⟨2, ![1, 192]⟩
abbrev S64x192 : Shape := ⟨2, ![64, 192]⟩
abbrev S5000x192 : Shape := ⟨2, ![5000, 192]⟩
abbrev S1000x1 : Shape := ⟨2, ![1000, 1]⟩
abbrev S256x2 : Shape := ⟨2, ![256, 2]⟩
abbrev S1x2 : Shape := ⟨2, ![1, 2]⟩
abbrev S1 : Shape := ⟨1, ![1]⟩
abbrev S1x1 : Shape := ⟨2, ![1, 1]⟩

abbrev nBuf : Space → Nat
  | .hbm => 179
  | .vmem => 38
  | .smem => 0
  | _ => 0

abbrev hbmTy0_0 (i : Nat) : BufTy := match i % 128 with
  | 0 => ⟨S100000x128, .f32⟩
  | 1 => ⟨S2x1200000, .i32⟩
  | 2 => ⟨S1200000, .i32⟩
  | 3 => ⟨S1000, .i32⟩
  | 4 => ⟨S256x128, .f32⟩
  | 5 => ⟨S256, .f32⟩
  | 6 => ⟨S64x256, .f32⟩
  | 7 => ⟨S64, .f32⟩
  | 8 => ⟨S192x64, .f32⟩
  | 9 => ⟨S192x64, .f32⟩
  | 10 => ⟨S192, .f32⟩
  | 11 => ⟨S192, .f32⟩
  | 12 => ⟨S8, .f32⟩
  | 13 => ⟨S256x64, .f32⟩
  | 14 => ⟨S256, .f32⟩
  | 15 => ⟨S2x256, .f32⟩
  | 16 => ⟨S2, .f32⟩
  | 17 => ⟨S_, .f32⟩
  | 18 => ⟨S1x1200000, .i32⟩
  | 19 => ⟨S1200000, .i32⟩
  | 20 => ⟨S1x1200000, .i32⟩
  | 21 => ⟨S1200000, .i32⟩
  | 22 => ⟨S1x256, .f32⟩
  | 23 => ⟨S1x64, .f32⟩
  | 24 => ⟨S100000x64, .f32⟩
  | 25 => ⟨S_, .i32⟩
  | 26 => ⟨S1200000, .i32⟩
  | 27 => ⟨S1200000, .i1⟩
  | 28 => ⟨S_, .i32⟩
  | 29 => ⟨S1200000, .i32⟩
  | 30 => ⟨S1200000, .i32⟩
  | 31 => ⟨S1200000, .i32⟩
  | 32 => ⟨S1200000x1, .i32⟩
  | 33 => ⟨S1200000, .f32⟩
  | 34 => ⟨S_, .f32⟩
  | 35 => ⟨S1200000, .f32⟩
  | 36 => ⟨S1200000, .f32⟩
  | 37 => ⟨S1200000, .f32⟩
  | 38 => ⟨S1200000, .f32⟩
  | 39 => ⟨S1200000, .i1⟩
  | 40 => ⟨S1200000, .f32⟩
  | 41 => ⟨S1200000, .f32⟩
  | 42 => ⟨S1200000, .f32⟩
  | 43 => ⟨S1200000, .f32⟩
  | 44 => ⟨S1200000, .f32⟩
  | 45 => ⟨S1200000, .f32⟩
  | 46 => ⟨S1200000, .f32⟩
  | 47 => ⟨S1200000, .f32⟩
  | 48 => ⟨S1200000x1, .f32⟩
  | 49 => ⟨S_, .f32⟩
  | 50 => ⟨S1200000, .f32⟩
  | 51 => ⟨S_, .f32⟩
  | 52 => ⟨S100000, .f32⟩
  | 53 => ⟨S1200000x1, .i32⟩
  | 54 => ⟨S100000, .f32⟩
  | 55 => ⟨S_, .f32⟩
  | 56 => ⟨S100000, .f32⟩
  | 57 => ⟨S100000, .f32⟩
  | 58 => ⟨S100000x1, .f32⟩
  | 59 => ⟨S_, .i32⟩
  | 60 => ⟨S1200000, .i32⟩
  | 61 => ⟨S1200000, .i1⟩
  | 62 => ⟨S_, .i32⟩
  | 63 => ⟨S1200000, .i32⟩
  | 64 => ⟨S1200000, .i32⟩
  | 65 => ⟨S1200000, .i32⟩
  | 66 => ⟨S1200000x1, .i32⟩
  | 67 => ⟨S1200000x64, .f32⟩
  | 68 => ⟨S1200000x64, .f32⟩
  | 69 => ⟨S1200000x64, .f32⟩
  | 70 => ⟨S_, .f32⟩
  | 71 => ⟨S100000x64, .f32⟩
  | 72 => ⟨S1200000x1, .i32⟩
  | 73 => ⟨S100000x64, .f32⟩
  | 74 => ⟨S100000x64, .f32⟩
  | 75 => ⟨S100000x64, .f32⟩
  | 76 => ⟨S1x192, .f32⟩
  | 77 => ⟨S1x192, .f32⟩
  | 78 => ⟨S100000x64, .f32⟩
  | 79 => ⟨S_, .i32⟩
  | 80 => ⟨S1200000, .i32⟩
  | 81 => ⟨S1200000, .i1⟩
  | 82 => ⟨S_, .i32⟩
  | 83 => ⟨S1200000, .i32⟩
  | 84 => ⟨S1200000, .i32⟩
  | 85 => ⟨S1200000, .i32⟩
  | 86 => ⟨S1200000x1, .i32⟩
  | 87 => ⟨S1200000x64, .f32⟩
  | 88 => ⟨S1200000x64, .f32⟩
  | 89 => ⟨S1200000x64, .f32⟩
  | 90 => ⟨S_, .f32⟩
  | 91 => ⟨S100000x64, .f32⟩
  | 92 => ⟨S1200000x1, .i32⟩
  | 93 => ⟨S100000x64, .f32⟩
  | 94 => ⟨S100000x64, .f32⟩
  | 95 => ⟨S100000x64, .f32⟩
  | 96 => ⟨S1x192, .f32⟩
  | 97 => ⟨S1x192, .f32⟩
  | 98 => ⟨S100000x64, .f32⟩
  | 99 => ⟨S_, .i32⟩
  | 100 => ⟨S1200000, .i32⟩
  | 101 => ⟨S1200000, .i1⟩
  | 102 => ⟨S_, .i32⟩
  | 103 => ⟨S1200000, .i32⟩
  | 104 => ⟨S1200000, .i32⟩
  | 105 => ⟨S1200000, .i32⟩
  | 106 => ⟨S1200000x1, .i32⟩
  | 107 => ⟨S1200000x64, .f32⟩
  | 108 => ⟨S1200000x64, .f32⟩
  | 109 => ⟨S1200000x64, .f32⟩
  | 110 => ⟨S_, .f32⟩
  | 111 => ⟨S100000x64, .f32⟩
  | 112 => ⟨S1200000x1, .i32⟩
  | 113 => ⟨S100000x64, .f32⟩
  | 114 => ⟨S100000x64, .f32⟩
  | 115 => ⟨S100000x64, .f32⟩
  | 116 => ⟨S1x192, .f32⟩
  | 117 => ⟨S1x192, .f32⟩
  | 118 => ⟨S100000x64, .f32⟩
  | 119 => ⟨S_, .f32⟩
  | 120 => ⟨S_, .f32⟩
  | 121 => ⟨S_, .f32⟩
  | 122 => ⟨S_, .i1⟩
  | 123 => ⟨S_, .f32⟩
  | 124 => ⟨S_, .f32⟩
  | 125 => ⟨S_, .f32⟩
  | 126 => ⟨S_, .f32⟩
  | 127 => ⟨S_, .f32⟩
  | _ => ⟨S100000x128, .f32⟩

abbrev hbmTy0_1 (i : Nat) : BufTy := match i % 128 with
  | 0 => ⟨S_, .f32⟩
  | 1 => ⟨S_, .f32⟩
  | 2 => ⟨S_, .f32⟩
  | 3 => ⟨S100000x1, .f32⟩
  | 4 => ⟨S_, .f32⟩
  | 5 => ⟨S_, .f32⟩
  | 6 => ⟨S_, .i32⟩
  | 7 => ⟨S1000, .i32⟩
  | 8 => ⟨S1000, .i1⟩
  | 9 => ⟨S_, .i32⟩
  | 10 => ⟨S1000, .i32⟩
  | 11 => ⟨S1000, .i32⟩
  | 12 => ⟨S1000, .i32⟩
  | 13 => ⟨S1000x1, .i32⟩
  | 14 => ⟨S1000x1, .f32⟩
  | 15 => ⟨S100000x1, .f32⟩
  | 16 => ⟨S100000x64, .f32⟩
  | 17 => ⟨S100000x64, .f32⟩
  | 18 => ⟨S_, .f32⟩
  | 19 => ⟨S64, .f32⟩
  | 20 => ⟨S1x64, .f32⟩
  | 21 => ⟨S_, .f32⟩
  | 22 => ⟨S_, .f32⟩
  | 23 => ⟨S1x64, .f32⟩
  | 24 => ⟨S1x64, .f32⟩
  | 25 => ⟨S64x256, .f32⟩
  | 26 => ⟨S1x256, .f32⟩
  | 27 => ⟨S1x256, .f32⟩
  | 28 => ⟨S1x256, .f32⟩
  | 29 => ⟨S_, .f32⟩
  | 30 => ⟨S1x256, .f32⟩
  | 31 => ⟨S1x256, .f32⟩
  | 32 => ⟨S256x2, .f32⟩
  | 33 => ⟨S1x2, .f32⟩
  | 34 => ⟨S1x2, .f32⟩
  | 35 => ⟨S1x2, .f32⟩
  | 36 => ⟨S_, .f32⟩
  | 37 => ⟨S1, .f32⟩
  | 38 => ⟨S_, .f32⟩
  | 39 => ⟨S1, .f32⟩
  | 40 => ⟨S1, .f32⟩
  | 41 => ⟨S1x1, .f32⟩
  | 42 => ⟨S1x2, .f32⟩
  | 43 => ⟨S1x2, .f32⟩
  | 44 => ⟨S1x2, .f32⟩
  | 45 => ⟨S_, .f32⟩
  | 46 => ⟨S1, .f32⟩
  | 47 => ⟨S1x1, .f32⟩
  | 48 => ⟨S1x1, .f32⟩
  | 49 => ⟨S1x2, .f32⟩
  | 50 => ⟨S1x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S256x128, .f32⟩
  | .local _ .vmem, ⟨3, _⟩ => ⟨S1x256, .f32⟩
  | .local _ .vmem, ⟨4, _⟩ => ⟨S64x256, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S192x64, .f32⟩
  | .local _ .vmem, ⟨13, _⟩ => ⟨S192x64, .f32⟩
  | .local _ .vmem, ⟨14, _⟩ => ⟨S1x192, .f32⟩
  | .local _ .vmem, ⟨15, _⟩ => ⟨S1x192, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S192x64, .f32⟩
  | .local _ .vmem, ⟨23, _⟩ => ⟨S192x64, .f32⟩
  | .local _ .vmem, ⟨24, _⟩ => ⟨S1x192, .f32⟩
  | .local _ .vmem, ⟨25, _⟩ => ⟨S1x192, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S192x64, .f32⟩
  | .local _ .vmem, ⟨33, _⟩ => ⟨S192x64, .f32⟩
  | .local _ .vmem, ⟨34, _⟩ => ⟨S1x192, .f32⟩
  | .local _ .vmem, ⟨35, _⟩ => ⟨S1x192, .f32⟩
  | .local _ .vmem, ⟨36, _⟩ => ⟨S5000x64, .f32⟩
  | .local _ .vmem, ⟨37, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c : Ref sig .tc := ⟨.hbm, 25, rfl⟩
abbrev main_v7 : Ref sig .tc := ⟨.hbm, 26, rfl⟩
abbrev main_v8 : Ref sig .tc := ⟨.hbm, 27, rfl⟩
abbrev main_c_0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_call0_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_v14 : Ref sig .tc := ⟨.hbm, 47, rfl⟩
abbrev main_v15 : Ref sig .tc := ⟨.hbm, 48, rfl⟩
abbrev main_cst : Ref sig .tc := ⟨.hbm, 49, rfl⟩
abbrev main_v16 : Ref sig .tc := ⟨.hbm, 50, rfl⟩
abbrev main_cst_1 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_cst_2 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_c_3 : Ref sig .tc := ⟨.hbm, 59, rfl⟩
abbrev main_v23 : Ref sig .tc := ⟨.hbm, 60, rfl⟩
abbrev main_v24 : Ref sig .tc := ⟨.hbm, 61, rfl⟩
abbrev main_c_4 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_cst_5 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_c_6 : Ref sig .tc := ⟨.hbm, 79, rfl⟩
abbrev main_v40 : Ref sig .tc := ⟨.hbm, 80, rfl⟩
abbrev main_v41 : Ref sig .tc := ⟨.hbm, 81, rfl⟩
abbrev main_c_7 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_cst_8 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_c_9 : Ref sig .tc := ⟨.hbm, 99, rfl⟩
abbrev main_v57 : Ref sig .tc := ⟨.hbm, 100, rfl⟩
abbrev main_v58 : Ref sig .tc := ⟨.hbm, 101, rfl⟩
abbrev main_c_10 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_cst_11 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_call1_cst : Ref sig .tc := ⟨.hbm, 119, rfl⟩
abbrev main_call1_v0 : Ref sig .tc := ⟨.hbm, 120, rfl⟩
abbrev main_call1_v1 : Ref sig .tc := ⟨.hbm, 121, rfl⟩
abbrev main_call1_v2 : Ref sig .tc := ⟨.hbm, 122, rfl⟩
abbrev main_call1_v3 : Ref sig .tc := ⟨.hbm, 123, rfl⟩
abbrev main_call1_v4 : Ref sig .tc := ⟨.hbm, 124, rfl⟩
abbrev main_call1_v5 : Ref sig .tc := ⟨.hbm, 125, rfl⟩
abbrev main_call1_v6 : Ref sig .tc := ⟨.hbm, 126, rfl⟩
abbrev main_call1_v7 : Ref sig .tc := ⟨.hbm, 127, rfl⟩
abbrev main_call1_v8 : Ref sig .tc := ⟨.hbm, 128, rfl⟩
abbrev main_v74 : Ref sig .tc := ⟨.hbm, 129, rfl⟩
abbrev main_cst_12 : Ref sig .tc := ⟨.hbm, 130, rfl⟩
abbrev main_v75 : Ref sig .tc := ⟨.hbm, 131, rfl⟩
abbrev main_cst_13 : Ref sig .tc := ⟨.hbm, 132, rfl⟩
abbrev main_v76 : Ref sig .tc := ⟨.hbm, 133, rfl⟩
abbrev main_c_14 : Ref sig .tc := ⟨.hbm, 134, rfl⟩
abbrev main_v77 : Ref sig .tc := ⟨.hbm, 135, rfl⟩
abbrev main_v78 : Ref sig .tc := ⟨.hbm, 136, rfl⟩
abbrev main_c_15 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_cst_16 : Ref sig .tc := ⟨.hbm, 146, rfl⟩
abbrev main_v87 : Ref sig .tc := ⟨.hbm, 147, rfl⟩
abbrev main_v88 : Ref sig .tc := ⟨.hbm, 148, rfl⟩
abbrev main_cst_17 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_call2_cst : Ref sig .tc := ⟨.hbm, 157, rfl⟩
abbrev main_call2_v0 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_call3_cst : Ref sig .tc := ⟨.hbm, 164, rfl⟩
abbrev main_call3_v0 : Ref sig .tc := ⟨.hbm, 165, rfl⟩
abbrev main_call3_cst_0 : Ref sig .tc := ⟨.hbm, 166, rfl⟩
abbrev main_call3_v1 : Ref sig .tc := ⟨.hbm, 167, rfl⟩
abbrev main_call3_v2 : Ref sig .tc := ⟨.hbm, 168, rfl⟩
abbrev main_call3_v3 : Ref sig .tc := ⟨.hbm, 169, rfl⟩
abbrev main_call3_v4 : Ref sig .tc := ⟨.hbm, 170, rfl⟩
abbrev main_call3_v5 : Ref sig .tc := ⟨.hbm, 171, rfl⟩
abbrev main_call3_v6 : Ref sig .tc := ⟨.hbm, 172, rfl⟩
abbrev main_call3_cst_1 : Ref sig .tc := ⟨.hbm, 173, rfl⟩
abbrev main_call3_v7 : Ref sig .tc := ⟨.hbm, 174, rfl⟩
abbrev main_call3_v8 : Ref sig .tc := ⟨.hbm, 175, rfl⟩
abbrev main_call3_v9 : Ref sig .tc := ⟨.hbm, 176, rfl⟩
abbrev main_call3_v10 : Ref sig .tc := ⟨.hbm, 177, rfl⟩
abbrev main_v101 : Ref sig .tc := ⟨.hbm, 178, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg6_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem6_1 : DmaSem sig := 37

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S192x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S192x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x192 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x192 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S192x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S192x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x192 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x192 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S192x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S192x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x192 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x192 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  shapeCasts_S256_S1x256 : S256.ShapeCasts S1x256
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  transposes_S256x128_p1_0_S128x256 : S256x128.Transposes [1, 0] S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S64x256_S64x256_0_0 : ∀ a, (![0, 0] : Fin 2 → Nat) a + S64x256.size a ≤ S64x256.size a
  h_S64x256 : 0 < S64x256.numel
  transposes_S64x256_p1_0_S256x64 : S64x256.Transposes [1, 0] S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S192_S1x192 : S192.ShapeCasts S1x192
  shapeCasts_S5000x64_S5000x64 : S5000x64.ShapeCasts S5000x64
  inb_S192x64_S192x64_0_0 : ∀ a, (![0, 0] : Fin 2 → Nat) a + S192x64.size a ≤ S192x64.size a
  h_S192x64 : 0 < S192x64.numel
  transposes_S192x64_p1_0_S64x192 : S192x64.Transposes [1, 0] S64x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S5000x192 : S1x192.Broadcasts S5000x192
  slices_S5000x192_o0_0_S5000x64 : S5000x192.Slices ![0, 0] S5000x64
  slices_S5000x192_o0_64_S5000x64 : S5000x192.Slices ![0, 64] S5000x64
  slices_S5000x192_o0_128_S5000x64 : S5000x192.Slices ![0, 128] S5000x64
  bcast_S_S100000x1 : S_.BroadcastsInDim S100000x1 (![] : Fin 0 → Fin S100000x1.rank)
  bcast_S_S1000 : S_.BroadcastsInDim S1000 (![] : Fin 0 → Fin S1000.rank)
  bcast_S1000_S1000x1_0 : S1000.BroadcastsInDim S1000x1 (![0] : Fin 1 → Fin S1000x1.rank)
  bcast_S_S1000x1 : S_.BroadcastsInDim S1000x1 (![] : Fin 0 → Fin S1000x1.rank)
  reducesTo_S100000x64_S64_d0 : S100000x64.ReducesTo [0] S64
  h_S_ : 0 < S_.numel
  bcast_S64_S1x64_1 : S64.BroadcastsInDim S1x64 (![1] : Fin 1 → Fin S1x64.rank)
  reducesTo_S100000x1_S_d0_1 : S100000x1.ReducesTo [0, 1] S_
  bcast_S_S1x64 : S_.BroadcastsInDim S1x64 (![] : Fin 0 → Fin S1x64.rank)
  transposes_S256x64_S64x256_1_0 : S256x64.Transposes [1, 0] S64x256
  bcast_S256_S1x256_1 : S256.BroadcastsInDim S1x256 (![1] : Fin 1 → Fin S1x256.rank)
  bcast_S_S1x256 : S_.BroadcastsInDim S1x256 (![] : Fin 0 → Fin S1x256.rank)
  transposes_S2x256_S256x2_1_0 : S2x256.Transposes [1, 0] S256x2
  bcast_S2_S1x2_1 : S2.BroadcastsInDim S1x2 (![1] : Fin 1 → Fin S1x2.rank)
  reducesTo_S1x2_S1_d1 : S1x2.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x2_0_1 : S1x1.BroadcastsInDim S1x2 (![0, 1] : Fin 2 → Fin S1x2.rank)
  dot_S5000x128_S128x256_S5000x256_1_0_0_1_n_n_wf : DotDims.WF S5000x128 S128x256 S5000x256 [1] [0] [0] [1] [] []
  dot_S5000x256_S256x64_S5000x64_1_0_0_1_n_n_wf : DotDims.WF S5000x256 S256x64 S5000x64 [1] [0] [0] [1] [] []
  gather_S8_S1200000x1_S1200000_n_0_n_n_0_1_1_wf : GatherDims.WF S8 S1200000x1 S1200000 [] [0] [] [0] [] 1 ![1]
  scatter_S100000_S1200000x1_S1200000_n_0_0_1_wf : ScatterDims.WF S100000 S1200000x1 S1200000 [] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x64_S64x192_S5000x192_1_0_0_1_n_n_wf : DotDims.WF S5000x64 S64x192 S5000x192 [1] [0] [0] [1] [] []
  scatter_S100000x1_S1000x1_S1000x1_1_0_0_1_wf : ScatterDims.WF S100000x1 S1000x1 S1000x1 [1] [0] [0] 1
  dot_S1x64_S64x256_S1x256_1_0_0_1_n_n_wf : DotDims.WF S1x64 S64x256 S1x256 [1] [0] [0] [1] [] []
  dot_S1x256_S256x2_S1x2_1_0_0_1_n_n_wf : DotDims.WF S1x256 S256x2 S1x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S192x64.size a ≤ S192x64.size a
  hwx1_2 : ∀ i : grid1.Coords, EltTy.bits .f32 = 32 ∨ (Rect.block (s := S192x64) S192x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S192x64.size a ≤ S192x64.size a
  hwx1_3 : ∀ i : grid1.Coords, EltTy.bits .f32 = 32 ∨ (Rect.block (s := S192x64) S192x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x192.size a ≤ S1x192.size a
  hwx1_4 : ∀ i : grid1.Coords, EltTy.bits .f32 = 32 ∨ (Rect.block (s := S1x192) S1x192.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x192.size a ≤ S1x192.size a
  hwx1_5 : ∀ i : grid1.Coords, EltTy.bits .f32 = 32 ∨ (Rect.block (s := S1x192) S1x192.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S192x64.size a ≤ S192x64.size a
  hwx2_2 : ∀ i : grid2.Coords, EltTy.bits .f32 = 32 ∨ (Rect.block (s := S192x64) S192x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S192x64.size a ≤ S192x64.size a
  hwx2_3 : ∀ i : grid2.Coords, EltTy.bits .f32 = 32 ∨ (Rect.block (s := S192x64) S192x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x192.size a ≤ S1x192.size a
  hwx2_4 : ∀ i : grid2.Coords, EltTy.bits .f32 = 32 ∨ (Rect.block (s := S1x192) S1x192.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x192.size a ≤ S1x192.size a
  hwx2_5 : ∀ i : grid2.Coords, EltTy.bits .f32 = 32 ∨ (Rect.block (s := S1x192) S1x192.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S192x64.size a ≤ S192x64.size a
  hwx3_2 : ∀ i : grid3.Coords, EltTy.bits .f32 = 32 ∨ (Rect.block (s := S192x64) S192x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S192x64.size a ≤ S192x64.size a
  hwx3_3 : ∀ i : grid3.Coords, EltTy.bits .f32 = 32 ∨ (Rect.block (s := S192x64) S192x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x192.size a ≤ S1x192.size a
  hwx3_4 : ∀ i : grid3.Coords, EltTy.bits .f32 = 32 ∨ (Rect.block (s := S1x192) S1x192.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x192.size a ≤ S1x192.size a
  hwx3_5 : ∀ i : grid3.Coords, EltTy.bits .f32 = 32 ∨ (Rect.block (s := S1x192) S1x192.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)

variable [Facts₀]

def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S8_S1200000x1_S1200000_n_0_n_n_0_1_1 : GatherDims S8 S1200000x1 S1200000 where
  offsetDims := []
  collapsedSliceDims := [0]
  operandBatchingDims := []
  startIndicesBatchingDims := []
  startIndexMap := [0]
  indexVectorDim := 1
  sliceSizes := ![1]
  wf := gather_S8_S1200000x1_S1200000_n_0_n_n_0_1_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x64_S64x192_S5000x192_1_0_0_1_n_n : DotDims S5000x64 S64x192 S5000x192 where
  lhsContracting := [1]
  rhsContracting := [0]
  lhsNonContracting := [0]
  rhsNonContracting := [1]
  lhsBatch := []
  rhsBatch := []
  wf := dot_S5000x64_S64x192_S5000x192_1_0_0_1_n_n_wf
def scatter_S100000x1_S1000x1_S1000x1_1_0_0_1 : ScatterDims S100000x1 S1000x1 S1000x1 where
  updateWindowDims := [1]
  insertedWindowDims := [0]
  scatterDimsToOperandDims := [0]
  indexVectorDim := 1
  wf := scatter_S100000x1_S1000x1_S1000x1_1_0_0_1_wf
def dot_S1x64_S64x256_S1x256_1_0_0_1_n_n : DotDims S1x64 S64x256 S1x256 where
  lhsContracting := [1]
  rhsContracting := [0]
  lhsNonContracting := [0]
  rhsNonContracting := [1]
  lhsBatch := []
  rhsBatch := []
  wf := dot_S1x64_S64x256_S1x256_1_0_0_1_n_n_wf
def dot_S1x256_S256x2_S1x2_1_0_0_1_n_n : DotDims S1x256 S256x2 S1x2 where
  lhsContracting := [1]
  rhsContracting := [0]
  lhsNonContracting := [0]
  rhsNonContracting := [1]
  lhsBatch := []
  rhsBatch := []
  wf := dot_S1x256_S256x2_S1x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v36) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S192x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S192x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x192.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S1x192.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v53) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S192x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S192x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S1x192.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v55) S1x192.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v56) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v70) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S192x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S192x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v71) S1x192.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v72) S1x192.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v73) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1200000 : Shape := ⟨2, ![2, 1200000]⟩
abbrev S1200000 : Shape := ⟨1, ![1200000]⟩
abbrev S1000 : Shape := ⟨1, ![1000]⟩
abbrev S256x128 : Shape := ⟨2, ![256, 128]⟩
abbrev S256 : Shape := ⟨1, ![256]⟩
abbrev S64x256 : Shape := ⟨2, ![64, 256]⟩
abbrev S64 : Shape := ⟨1, ![64]⟩
abbrev S192x64 : Shape := ⟨2, ![192, 64]⟩
abbrev S192 : Shape := ⟨1, ![192]⟩
abbrev S8 : Shape := ⟨1, ![8]⟩
abbrev S256x64 : Shape := ⟨2, ![256, 64]⟩
abbrev S2x256 : Shape := ⟨2, ![2, 256]⟩
abbrev S2 : Shape := ⟨1, ![2]⟩
abbrev S_ : Shape := ⟨0, ![]⟩
abbrev S1x1200000 : Shape := ⟨2, ![1, 1200000]⟩
abbrev S128x256 : Shape := ⟨2, ![128, 256]⟩
abbrev S100000x256 : Shape := ⟨2, ![100000, 256]⟩
abbrev S1x256 : Shape := ⟨2, ![1, 256]⟩
abbrev S100000x64 : Shape := ⟨2, ![100000, 64]⟩
abbrev S1x64 : Shape := ⟨2, ![1, 64]⟩
abbrev S1200000x1 : Shape := ⟨2, ![1200000, 1]⟩
abbrev S100000 : Shape := ⟨1, ![100000]⟩
abbrev S100000x1 : Shape := ⟨2, ![100000, 1]⟩
abbrev S1200000x64 : Shape := ⟨2, ![1200000, 64]⟩
abbrev S64x192 : Shape := ⟨2, ![64, 192]⟩
abbrev S100000x192 : Shape := ⟨2, ![100000, 192]⟩
abbrev S1x192 : Shape := ⟨2, ![1, 192]⟩
abbrev S1000x1 : Shape := ⟨2, ![1000, 1]⟩
abbrev S256x2 : Shape := ⟨2, ![256, 2]⟩
abbrev S1x2 : Shape := ⟨2, ![1, 2]⟩
abbrev S1 : Shape := ⟨1, ![1]⟩
abbrev S1x1 : Shape := ⟨2, ![1, 1]⟩

abbrev nBuf : Space → Nat
  | .hbm => 309
  | .vmem => 0
  | .smem => 0
  | _ => 0

abbrev hbmTy0_0 (i : Nat) : BufTy := match i % 128 with
  | 0 => ⟨S100000x128, .f32⟩
  | 1 => ⟨S2x1200000, .i32⟩
  | 2 => ⟨S1200000, .i32⟩
  | 3 => ⟨S1000, .i32⟩
  | 4 => ⟨S256x128, .f32⟩
  | 5 => ⟨S256, .f32⟩
  | 6 => ⟨S64x256, .f32⟩
  | 7 => ⟨S64, .f32⟩
  | 8 => ⟨S192x64, .f32⟩
  | 9 => ⟨S192x64, .f32⟩
  | 10 => ⟨S192, .f32⟩
  | 11 => ⟨S192, .f32⟩
  | 12 => ⟨S8, .f32⟩
  | 13 => ⟨S256x64, .f32⟩
  | 14 => ⟨S256, .f32⟩
  | 15 => ⟨S2x256, .f32⟩
  | 16 => ⟨S2, .f32⟩
  | 17 => ⟨S_, .f32⟩
  | 18 => ⟨S1x1200000, .i32⟩
  | 19 => ⟨S1200000, .i32⟩
  | 20 => ⟨S1x1200000, .i32⟩
  | 21 => ⟨S1200000, .i32⟩
  | 22 => ⟨S128x256, .f32⟩
  | 23 => ⟨S100000x256, .f32⟩
  | 24 => ⟨S1x256, .f32⟩
  | 25 => ⟨S100000x256, .f32⟩
  | 26 => ⟨S100000x256, .f32⟩
  | 27 => ⟨S_, .f32⟩
  | 28 => ⟨S100000x256, .f32⟩
  | 29 => ⟨S100000x256, .f32⟩
  | 30 => ⟨S256x64, .f32⟩
  | 31 => ⟨S100000x64, .f32⟩
  | 32 => ⟨S1x64, .f32⟩
  | 33 => ⟨S100000x64, .f32⟩
  | 34 => ⟨S100000x64, .f32⟩
  | 35 => ⟨S_, .i32⟩
  | 36 => ⟨S1200000, .i32⟩
  | 37 => ⟨S1200000, .i1⟩
  | 38 => ⟨S_, .i32⟩
  | 39 => ⟨S1200000, .i32⟩
  | 40 => ⟨S1200000, .i32⟩
  | 41 => ⟨S1200000, .i32⟩
  | 42 => ⟨S1200000x1, .i32⟩
  | 43 => ⟨S1200000, .f32⟩
  | 44 => ⟨S_, .f32⟩
  | 45 => ⟨S1200000, .f32⟩
  | 46 => ⟨S1200000, .f32⟩
  | 47 => ⟨S1200000, .f32⟩
  | 48 => ⟨S1200000, .f32⟩
  | 49 => ⟨S1200000, .i1⟩
  | 50 => ⟨S1200000, .f32⟩
  | 51 => ⟨S1200000, .f32⟩
  | 52 => ⟨S1200000, .f32⟩
  | 53 => ⟨S1200000, .f32⟩
  | 54 => ⟨S1200000, .f32⟩
  | 55 => ⟨S1200000, .f32⟩
  | 56 => ⟨S1200000, .f32⟩
  | 57 => ⟨S1200000, .f32⟩
  | 58 => ⟨S1200000x1, .f32⟩
  | 59 => ⟨S_, .f32⟩
  | 60 => ⟨S1200000, .f32⟩
  | 61 => ⟨S_, .f32⟩
  | 62 => ⟨S100000, .f32⟩
  | 63 => ⟨S1200000x1, .i32⟩
  | 64 => ⟨S100000, .f32⟩
  | 65 => ⟨S_, .f32⟩
  | 66 => ⟨S100000, .f32⟩
  | 67 => ⟨S100000, .f32⟩
  | 68 => ⟨S100000x1, .f32⟩
  | 69 => ⟨S_, .i32⟩
  | 70 => ⟨S1200000, .i32⟩
  | 71 => ⟨S1200000, .i1⟩
  | 72 => ⟨S_, .i32⟩
  | 73 => ⟨S1200000, .i32⟩
  | 74 => ⟨S1200000, .i32⟩
  | 75 => ⟨S1200000, .i32⟩
  | 76 => ⟨S1200000x1, .i32⟩
  | 77 => ⟨S1200000x64, .f32⟩
  | 78 => ⟨S1200000x64, .f32⟩
  | 79 => ⟨S1200000x64, .f32⟩
  | 80 => ⟨S_, .f32⟩
  | 81 => ⟨S100000x64, .f32⟩
  | 82 => ⟨S1200000x1, .i32⟩
  | 83 => ⟨S100000x64, .f32⟩
  | 84 => ⟨S100000x64, .f32⟩
  | 85 => ⟨S100000x64, .f32⟩
  | 86 => ⟨S64x192, .f32⟩
  | 87 => ⟨S100000x192, .f32⟩
  | 88 => ⟨S1x192, .f32⟩
  | 89 => ⟨S100000x192, .f32⟩
  | 90 => ⟨S100000x192, .f32⟩
  | 91 => ⟨S64x192, .f32⟩
  | 92 => ⟨S100000x192, .f32⟩
  | 93 => ⟨S1x192, .f32⟩
  | 94 => ⟨S100000x192, .f32⟩
  | 95 => ⟨S100000x192, .f32⟩
  | 96 => ⟨S100000x64, .f32⟩
  | 97 => ⟨S100000x64, .f32⟩
  | 98 => ⟨S100000x64, .f32⟩
  | 99 => ⟨S100000x64, .f32⟩
  | 100 => ⟨S100000x64, .f32⟩
  | 101 => ⟨S100000x64, .f32⟩
  | 102 => ⟨S100000x64, .f32⟩
  | 103 => ⟨S100000x64, .f32⟩
  | 104 => ⟨S100000x64, .f32⟩
  | 105 => ⟨S_, .f32⟩
  | 106 => ⟨S100000x64, .f32⟩
  | 107 => ⟨S100000x64, .f32⟩
  | 108 => ⟨S_, .f32⟩
  | 109 => ⟨S100000x64, .f32⟩
  | 110 => ⟨S100000x64, .f32⟩
  | 111 => ⟨S100000x64, .f32⟩
  | 112 => ⟨S100000x64, .f32⟩
  | 113 => ⟨S100000x64, .f32⟩
  | 114 => ⟨S_, .f32⟩
  | 115 => ⟨S100000x64, .f32⟩
  | 116 => ⟨S100000x64, .f32⟩
  | 117 => ⟨S_, .f32⟩
  | 118 => ⟨S100000x64, .f32⟩
  | 119 => ⟨S100000x64, .f32⟩
  | 120 => ⟨S100000x64, .f32⟩
  | 121 => ⟨S100000x64, .f32⟩
  | 122 => ⟨S100000x64, .f32⟩
  | 123 => ⟨S_, .f32⟩
  | 124 => ⟨S100000x64, .f32⟩
  | 125 => ⟨S100000x64, .f32⟩
  | 126 => ⟨S100000x64, .f32⟩
  | 127 => ⟨S100000x64, .f32⟩
  | _ => ⟨S100000x128, .f32⟩

abbrev hbmTy0_1 (i : Nat) : BufTy := match i % 128 with
  | 0 => ⟨S100000x64, .f32⟩
  | 1 => ⟨S_, .i32⟩
  | 2 => ⟨S1200000, .i32⟩
  | 3 => ⟨S1200000, .i1⟩
  | 4 => ⟨S_, .i32⟩
  | 5 => ⟨S1200000, .i32⟩
  | 6 => ⟨S1200000, .i32⟩
  | 7 => ⟨S1200000, .i32⟩
  | 8 => ⟨S1200000x1, .i32⟩
  | 9 => ⟨S1200000x64, .f32⟩
  | 10 => ⟨S1200000x64, .f32⟩
  | 11 => ⟨S1200000x64, .f32⟩
  | 12 => ⟨S_, .f32⟩
  | 13 => ⟨S100000x64, .f32⟩
  | 14 => ⟨S1200000x1, .i32⟩
  | 15 => ⟨S100000x64, .f32⟩
  | 16 => ⟨S100000x64, .f32⟩
  | 17 => ⟨S100000x64, .f32⟩
  | 18 => ⟨S64x192, .f32⟩
  | 19 => ⟨S100000x192, .f32⟩
  | 20 => ⟨S1x192, .f32⟩
  | 21 => ⟨S100000x192, .f32⟩
  | 22 => ⟨S100000x192, .f32⟩
  | 23 => ⟨S64x192, .f32⟩
  | 24 => ⟨S100000x192, .f32⟩
  | 25 => ⟨S1x192, .f32⟩
  | 26 => ⟨S100000x192, .f32⟩
  | 27 => ⟨S100000x192, .f32⟩
  | 28 => ⟨S100000x64, .f32⟩
  | 29 => ⟨S100000x64, .f32⟩
  | 30 => ⟨S100000x64, .f32⟩
  | 31 => ⟨S100000x64, .f32⟩
  | 32 => ⟨S100000x64, .f32⟩
  | 33 => ⟨S100000x64, .f32⟩
  | 34 => ⟨S100000x64, .f32⟩
  | 35 => ⟨S100000x64, .f32⟩
  | 36 => ⟨S100000x64, .f32⟩
  | 37 => ⟨S_, .f32⟩
  | 38 => ⟨S100000x64, .f32⟩
  | 39 => ⟨S100000x64, .f32⟩
  | 40 => ⟨S_, .f32⟩
  | 41 => ⟨S100000x64, .f32⟩
  | 42 => ⟨S100000x64, .f32⟩
  | 43 => ⟨S100000x64, .f32⟩
  | 44 => ⟨S100000x64, .f32⟩
  | 45 => ⟨S100000x64, .f32⟩
  | 46 => ⟨S_, .f32⟩
  | 47 => ⟨S100000x64, .f32⟩
  | 48 => ⟨S100000x64, .f32⟩
  | 49 => ⟨S_, .f32⟩
  | 50 => ⟨S100000x64, .f32⟩
  | 51 => ⟨S100000x64, .f32⟩
  | 52 => ⟨S100000x64, .f32⟩
  | 53 => ⟨S100000x64, .f32⟩
  | 54 => ⟨S100000x64, .f32⟩
  | 55 => ⟨S_, .f32⟩
  | 56 => ⟨S100000x64, .f32⟩
  | 57 => ⟨S100000x64, .f32⟩
  | 58 => ⟨S100000x64, .f32⟩
  | 59 => ⟨S100000x64, .f32⟩
  | 60 => ⟨S100000x64, .f32⟩
  | 61 => ⟨S_, .i32⟩
  | 62 => ⟨S1200000, .i32⟩
  | 63 => ⟨S1200000, .i1⟩
  | 64 => ⟨S_, .i32⟩
  | 65 => ⟨S1200000, .i32⟩
  | 66 => ⟨S1200000, .i32⟩
  | 67 => ⟨S1200000, .i32⟩
  | 68 => ⟨S1200000x1, .i32⟩
  | 69 => ⟨S1200000x64, .f32⟩
  | 70 => ⟨S1200000x64, .f32⟩
  | 71 => ⟨S1200000x64, .f32⟩
  | 72 => ⟨S_, .f32⟩
  | 73 => ⟨S100000x64, .f32⟩
  | 74 => ⟨S1200000x1, .i32⟩
  | 75 => ⟨S100000x64, .f32⟩
  | 76 => ⟨S100000x64, .f32⟩
  | 77 => ⟨S100000x64, .f32⟩
  | 78 => ⟨S64x192, .f32⟩
  | 79 => ⟨S100000x192, .f32⟩
  | 80 => ⟨S1x192, .f32⟩
  | 81 => ⟨S100000x192, .f32⟩
  | 82 => ⟨S100000x192, .f32⟩
  | 83 => ⟨S64x192, .f32⟩
  | 84 => ⟨S100000x192, .f32⟩
  | 85 => ⟨S1x192, .f32⟩
  | 86 => ⟨S100000x192, .f32⟩
  | 87 => ⟨S100000x192, .f32⟩
  | 88 => ⟨S100000x64, .f32⟩
  | 89 => ⟨S100000x64, .f32⟩
  | 90 => ⟨S100000x64, .f32⟩
  | 91 => ⟨S100000x64, .f32⟩
  | 92 => ⟨S100000x64, .f32⟩
  | 93 => ⟨S100000x64, .f32⟩
  | 94 => ⟨S100000x64, .f32⟩
  | 95 => ⟨S100000x64, .f32⟩
  | 96 => ⟨S100000x64, .f32⟩
  | 97 => ⟨S_, .f32⟩
  | 98 => ⟨S100000x64, .f32⟩
  | 99 => ⟨S100000x64, .f32⟩
  | 100 => ⟨S_, .f32⟩
  | 101 => ⟨S100000x64, .f32⟩
  | 102 => ⟨S100000x64, .f32⟩
  | 103 => ⟨S100000x64, .f32⟩
  | 104 => ⟨S100000x64, .f32⟩
  | 105 => ⟨S100000x64, .f32⟩
  | 106 => ⟨S_, .f32⟩
  | 107 => ⟨S100000x64, .f32⟩
  | 108 => ⟨S100000x64, .f32⟩
  | 109 => ⟨S_, .f32⟩
  | 110 => ⟨S100000x64, .f32⟩
  | 111 => ⟨S100000x64, .f32⟩
  | 112 => ⟨S100000x64, .f32⟩
  | 113 => ⟨S100000x64, .f32⟩
  | 114 => ⟨S100000x64, .f32⟩
  | 115 => ⟨S_, .f32⟩
  | 116 => ⟨S100000x64, .f32⟩
  | 117 => ⟨S100000x64, .f32⟩
  | 118 => ⟨S100000x64, .f32⟩
  | 119 => ⟨S100000x64, .f32⟩
  | 120 => ⟨S100000x64, .f32⟩
  | 121 => ⟨S_, .f32⟩
  | 122 => ⟨S_, .f32⟩
  | 123 => ⟨S_, .f32⟩
  | 124 => ⟨S_, .i1⟩
  | 125 => ⟨S_, .f32⟩
  | 126 => ⟨S_, .f32⟩
  | 127 => ⟨S_, .f32⟩
  | _ => ⟨S100000x128, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S100000x1, .f32⟩
  | 6 => ⟨S_, .f32⟩
  | 7 => ⟨S_, .f32⟩
  | 8 => ⟨S_, .i32⟩
  | 9 => ⟨S1000, .i32⟩
  | 10 => ⟨S1000, .i1⟩
  | 11 => ⟨S_, .i32⟩
  | 12 => ⟨S1000, .i32⟩
  | 13 => ⟨S1000, .i32⟩
  | 14 => ⟨S1000, .i32⟩
  | 15 => ⟨S1000x1, .i32⟩
  | 16 => ⟨S1000x1, .f32⟩
  | 17 => ⟨S100000x1, .f32⟩
  | 18 => ⟨S100000x64, .f32⟩
  | 19 => ⟨S100000x64, .f32⟩
  | 20 => ⟨S_, .f32⟩
  | 21 => ⟨S64, .f32⟩
  | 22 => ⟨S1x64, .f32⟩
  | 23 => ⟨S_, .f32⟩
  | 24 => ⟨S_, .f32⟩
  | 25 => ⟨S1x64, .f32⟩
  | 26 => ⟨S1x64, .f32⟩
  | 27 => ⟨S64x256, .f32⟩
  | 28 => ⟨S1x256, .f32⟩
  | 29 => ⟨S1x256, .f32⟩
  | 30 => ⟨S1x256, .f32⟩
  | 31 => ⟨S_, .f32⟩
  | 32 => ⟨S1x256, .f32⟩
  | 33 => ⟨S1x256, .f32⟩
  | 34 => ⟨S256x2, .f32⟩
  | 35 => ⟨S1x2, .f32⟩
  | 36 => ⟨S1x2, .f32⟩
  | 37 => ⟨S1x2, .f32⟩
  | 38 => ⟨S_, .f32⟩
  | 39 => ⟨S1, .f32⟩
  | 40 => ⟨S_, .f32⟩
  | 41 => ⟨S1, .f32⟩
  | 42 => ⟨S1, .f32⟩
  | 43 => ⟨S1x1, .f32⟩
  | 44 => ⟨S1x2, .f32⟩
  | 45 => ⟨S1x2, .f32⟩
  | 46 => ⟨S1x2, .f32⟩
  | 47 => ⟨S_, .f32⟩
  | 48 => ⟨S1, .f32⟩
  | 49 => ⟨S1x1, .f32⟩
  | 50 => ⟨S1x1, .f32⟩
  | 51 => ⟨S1x2, .f32⟩
  | 52 => ⟨S1x2, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_call0_cst : Ref sig .tc := ⟨.hbm, 27, rfl⟩
abbrev main_call0_v0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_0 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_call1_cst : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_v22 : Ref sig .tc := ⟨.hbm, 57, rfl⟩
abbrev main_v23 : Ref sig .tc := ⟨.hbm, 58, rfl⟩
abbrev main_cst : Ref sig .tc := ⟨.hbm, 59, rfl⟩
abbrev main_v24 : Ref sig .tc := ⟨.hbm, 60, rfl⟩
abbrev main_cst_1 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_cst_2 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_c_3 : Ref sig .tc := ⟨.hbm, 69, rfl⟩
abbrev main_v31 : Ref sig .tc := ⟨.hbm, 70, rfl⟩
abbrev main_v32 : Ref sig .tc := ⟨.hbm, 71, rfl⟩
abbrev main_c_4 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_cst_5 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_6 : Ref sig .tc := ⟨.hbm, 105, rfl⟩
abbrev main_v64 : Ref sig .tc := ⟨.hbm, 106, rfl⟩
abbrev main_v65 : Ref sig .tc := ⟨.hbm, 107, rfl⟩
abbrev main_cst_7 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_cst_8 : Ref sig .tc := ⟨.hbm, 114, rfl⟩
abbrev main_v71 : Ref sig .tc := ⟨.hbm, 115, rfl⟩
abbrev main_v72 : Ref sig .tc := ⟨.hbm, 116, rfl⟩
abbrev main_cst_9 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_cst_10 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_c_11 : Ref sig .tc := ⟨.hbm, 129, rfl⟩
abbrev main_v83 : Ref sig .tc := ⟨.hbm, 130, rfl⟩
abbrev main_v84 : Ref sig .tc := ⟨.hbm, 131, rfl⟩
abbrev main_c_12 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_cst_13 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_cst_14 : Ref sig .tc := ⟨.hbm, 165, rfl⟩
abbrev main_v116 : Ref sig .tc := ⟨.hbm, 166, rfl⟩
abbrev main_v117 : Ref sig .tc := ⟨.hbm, 167, rfl⟩
abbrev main_cst_15 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_cst_16 : Ref sig .tc := ⟨.hbm, 174, rfl⟩
abbrev main_v123 : Ref sig .tc := ⟨.hbm, 175, rfl⟩
abbrev main_v124 : Ref sig .tc := ⟨.hbm, 176, rfl⟩
abbrev main_cst_17 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_cst_18 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_c_19 : Ref sig .tc := ⟨.hbm, 189, rfl⟩
abbrev main_v135 : Ref sig .tc := ⟨.hbm, 190, rfl⟩
abbrev main_v136 : Ref sig .tc := ⟨.hbm, 191, rfl⟩
abbrev main_c_20 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_cst_21 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_cst_22 : Ref sig .tc := ⟨.hbm, 225, rfl⟩
abbrev main_v168 : Ref sig .tc := ⟨.hbm, 226, rfl⟩
abbrev main_v169 : Ref sig .tc := ⟨.hbm, 227, rfl⟩
abbrev main_cst_23 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_cst_24 : Ref sig .tc := ⟨.hbm, 234, rfl⟩
abbrev main_v175 : Ref sig .tc := ⟨.hbm, 235, rfl⟩
abbrev main_v176 : Ref sig .tc := ⟨.hbm, 236, rfl⟩
abbrev main_cst_25 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_cst_26 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_call2_cst : Ref sig .tc := ⟨.hbm, 249, rfl⟩
abbrev main_call2_v0 : Ref sig .tc := ⟨.hbm, 250, rfl⟩
abbrev main_call2_v1 : Ref sig .tc := ⟨.hbm, 251, rfl⟩
abbrev main_call2_v2 : Ref sig .tc := ⟨.hbm, 252, rfl⟩
abbrev main_call2_v3 : Ref sig .tc := ⟨.hbm, 253, rfl⟩
abbrev main_call2_v4 : Ref sig .tc := ⟨.hbm, 254, rfl⟩
abbrev main_call2_v5 : Ref sig .tc := ⟨.hbm, 255, rfl⟩
abbrev main_call2_v6 : Ref sig .tc := ⟨.hbm, 256, rfl⟩
abbrev main_call2_v7 : Ref sig .tc := ⟨.hbm, 257, rfl⟩
abbrev main_call2_v8 : Ref sig .tc := ⟨.hbm, 258, rfl⟩
abbrev main_v187 : Ref sig .tc := ⟨.hbm, 259, rfl⟩
abbrev main_cst_27 : Ref sig .tc := ⟨.hbm, 260, rfl⟩
abbrev main_v188 : Ref sig .tc := ⟨.hbm, 261, rfl⟩
abbrev main_cst_28 : Ref sig .tc := ⟨.hbm, 262, rfl⟩
abbrev main_v189 : Ref sig .tc := ⟨.hbm, 263, rfl⟩
abbrev main_c_29 : Ref sig .tc := ⟨.hbm, 264, rfl⟩
abbrev main_v190 : Ref sig .tc := ⟨.hbm, 265, rfl⟩
abbrev main_v191 : Ref sig .tc := ⟨.hbm, 266, rfl⟩
abbrev main_c_30 : Ref sig .tc := ⟨.hbm, 267, rfl⟩
abbrev main_v192 : Ref sig .tc := ⟨.hbm, 268, rfl⟩
abbrev main_v193 : Ref sig .tc := ⟨.hbm, 269, rfl⟩
abbrev main_v194 : Ref sig .tc := ⟨.hbm, 270, rfl⟩
abbrev main_v195 : Ref sig .tc := ⟨.hbm, 271, rfl⟩
abbrev main_v196 : Ref sig .tc := ⟨.hbm, 272, rfl⟩
abbrev main_v197 : Ref sig .tc := ⟨.hbm, 273, rfl⟩
abbrev main_v198 : Ref sig .tc := ⟨.hbm, 274, rfl⟩
abbrev main_v199 : Ref sig .tc := ⟨.hbm, 275, rfl⟩
abbrev main_cst_31 : Ref sig .tc := ⟨.hbm, 276, rfl⟩
abbrev main_v200 : Ref sig .tc := ⟨.hbm, 277, rfl⟩
abbrev main_v201 : Ref sig .tc := ⟨.hbm, 278, rfl⟩
abbrev main_cst_32 : Ref sig .tc := ⟨.hbm, 279, rfl⟩
abbrev main_v202 : Ref sig .tc := ⟨.hbm, 280, rfl⟩
abbrev main_v203 : Ref sig .tc := ⟨.hbm, 281, rfl⟩
abbrev main_v204 : Ref sig .tc := ⟨.hbm, 282, rfl⟩
abbrev main_v205 : Ref sig .tc := ⟨.hbm, 283, rfl⟩
abbrev main_v206 : Ref sig .tc := ⟨.hbm, 284, rfl⟩
abbrev main_v207 : Ref sig .tc := ⟨.hbm, 285, rfl⟩
abbrev main_v208 : Ref sig .tc := ⟨.hbm, 286, rfl⟩
abbrev main_call3_cst : Ref sig .tc := ⟨.hbm, 287, rfl⟩
abbrev main_call3_v0 : Ref sig .tc := ⟨.hbm, 288, rfl⟩
abbrev main_v209 : Ref sig .tc := ⟨.hbm, 289, rfl⟩
abbrev main_v210 : Ref sig .tc := ⟨.hbm, 290, rfl⟩
abbrev main_v211 : Ref sig .tc := ⟨.hbm, 291, rfl⟩
abbrev main_v212 : Ref sig .tc := ⟨.hbm, 292, rfl⟩
abbrev main_v213 : Ref sig .tc := ⟨.hbm, 293, rfl⟩
abbrev main_call4_cst : Ref sig .tc := ⟨.hbm, 294, rfl⟩
abbrev main_call4_v0 : Ref sig .tc := ⟨.hbm, 295, rfl⟩
abbrev main_call4_cst_0 : Ref sig .tc := ⟨.hbm, 296, rfl⟩
abbrev main_call4_v1 : Ref sig .tc := ⟨.hbm, 297, rfl⟩
abbrev main_call4_v2 : Ref sig .tc := ⟨.hbm, 298, rfl⟩
abbrev main_call4_v3 : Ref sig .tc := ⟨.hbm, 299, rfl⟩
abbrev main_call4_v4 : Ref sig .tc := ⟨.hbm, 300, rfl⟩
abbrev main_call4_v5 : Ref sig .tc := ⟨.hbm, 301, rfl⟩
abbrev main_call4_v6 : Ref sig .tc := ⟨.hbm, 302, rfl⟩
abbrev main_call4_cst_1 : Ref sig .tc := ⟨.hbm, 303, rfl⟩
abbrev main_call4_v7 : Ref sig .tc := ⟨.hbm, 304, rfl⟩
abbrev main_call4_v8 : Ref sig .tc := ⟨.hbm, 305, rfl⟩
abbrev main_call4_v9 : Ref sig .tc := ⟨.hbm, 306, rfl⟩
abbrev main_call4_v10 : Ref sig .tc := ⟨.hbm, 307, rfl⟩
abbrev main_v214 : Ref sig .tc := ⟨.hbm, 308, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  transposes_S256x128_S128x256_1_0 : S256x128.Transposes [1, 0] S128x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  transposes_S64x256_S256x64_1_0 : S64x256.Transposes [1, 0] S256x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S192x64_S64x192_1_0 : S192x64.Transposes [1, 0] S64x192
  bcast_S192_S1x192_1 : S192.BroadcastsInDim S1x192 (![1] : Fin 1 → Fin S1x192.rank)
  bcast_S1x192_S100000x192_0_1 : S1x192.BroadcastsInDim S100000x192 (![0, 1] : Fin 2 → Fin S100000x192.rank)
  slices_S100000x192_S100000x64_0_0 : S100000x192.Slices ![0, 0] S100000x64
  slices_S100000x192_S100000x64_0_64 : S100000x192.Slices ![0, 64] S100000x64
  slices_S100000x192_S100000x64_0_128 : S100000x192.Slices ![0, 128] S100000x64
  bcast_S_S100000x1 : S_.BroadcastsInDim S100000x1 (![] : Fin 0 → Fin S100000x1.rank)
  bcast_S_S1000 : S_.BroadcastsInDim S1000 (![] : Fin 0 → Fin S1000.rank)
  bcast_S1000_S1000x1_0 : S1000.BroadcastsInDim S1000x1 (![0] : Fin 1 → Fin S1000x1.rank)
  bcast_S_S1000x1 : S_.BroadcastsInDim S1000x1 (![] : Fin 0 → Fin S1000x1.rank)
  reducesTo_S100000x64_S64_d0 : S100000x64.ReducesTo [0] S64
  h_S_ : 0 < S_.numel
  reducesTo_S100000x1_S_d0_1 : S100000x1.ReducesTo [0, 1] S_
  bcast_S_S1x64 : S_.BroadcastsInDim S1x64 (![] : Fin 0 → Fin S1x64.rank)
  transposes_S256x64_S64x256_1_0 : S256x64.Transposes [1, 0] S64x256
  bcast_S_S1x256 : S_.BroadcastsInDim S1x256 (![] : Fin 0 → Fin S1x256.rank)
  transposes_S2x256_S256x2_1_0 : S2x256.Transposes [1, 0] S256x2
  bcast_S2_S1x2_1 : S2.BroadcastsInDim S1x2 (![1] : Fin 1 → Fin S1x2.rank)
  reducesTo_S1x2_S1_d1 : S1x2.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x2_0_1 : S1x1.BroadcastsInDim S1x2 (![0, 1] : Fin 2 → Fin S1x2.rank)
  dot_S100000x128_S128x256_S100000x256_1_0_0_1_n_n_wf : DotDims.WF S100000x128 S128x256 S100000x256 [1] [0] [0] [1] [] []
  dot_S100000x256_S256x64_S100000x64_1_0_0_1_n_n_wf : DotDims.WF S100000x256 S256x64 S100000x64 [1] [0] [0] [1] [] []
  gather_S8_S1200000x1_S1200000_n_0_n_n_0_1_1_wf : GatherDims.WF S8 S1200000x1 S1200000 [] [0] [] [0] [] 1 ![1]
  scatter_S100000_S1200000x1_S1200000_n_0_0_1_wf : ScatterDims.WF S100000 S1200000x1 S1200000 [] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x192_S100000x192_1_0_0_1_n_n_wf : DotDims.WF S100000x64 S64x192 S100000x192 [1] [0] [0] [1] [] []
  scatter_S100000x1_S1000x1_S1000x1_1_0_0_1_wf : ScatterDims.WF S100000x1 S1000x1 S1000x1 [1] [0] [0] 1
  dot_S1x64_S64x256_S1x256_1_0_0_1_n_n_wf : DotDims.WF S1x64 S64x256 S1x256 [1] [0] [0] [1] [] []
  dot_S1x256_S256x2_S1x2_1_0_0_1_n_n_wf : DotDims.WF S1x256 S256x2 S1x2 [1] [0] [0] [1] [] []

variable [Facts₀]

def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S8_S1200000x1_S1200000_n_0_n_n_0_1_1 : GatherDims S8 S1200000x1 S1200000 where
  offsetDims := []
  collapsedSliceDims := [0]
  operandBatchingDims := []
  startIndicesBatchingDims := []
  startIndexMap := [0]
  indexVectorDim := 1
  sliceSizes := ![1]
  wf := gather_S8_S1200000x1_S1200000_n_0_n_n_0_1_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x192_S100000x192_1_0_0_1_n_n : DotDims S100000x64 S64x192 S100000x192 where
  lhsContracting := [1]
  rhsContracting := [0]
  lhsNonContracting := [0]
  rhsNonContracting := [1]
  lhsBatch := []
  rhsBatch := []
  wf := dot_S100000x64_S64x192_S100000x192_1_0_0_1_n_n_wf
def scatter_S100000x1_S1000x1_S1000x1_1_0_0_1 : ScatterDims S100000x1 S1000x1 S1000x1 where
  updateWindowDims := [1]
  insertedWindowDims := [0]
  scatterDimsToOperandDims := [0]
  indexVectorDim := 1
  wf := scatter_S100000x1_S1000x1_S1000x1_1_0_0_1_wf
def dot_S1x64_S64x256_S1x256_1_0_0_1_n_n : DotDims S1x64 S64x256 S1x256 where
  lhsContracting := [1]
  rhsContracting := [0]
  lhsNonContracting := [0]
  rhsNonContracting := [1]
  lhsBatch := []
  rhsBatch := []
  wf := dot_S1x64_S64x256_S1x256_1_0_0_1_n_n_wf
def dot_S1x256_S256x2_S1x2_1_0_0_1_n_n : DotDims S1x256 S256x2 S1x2 where
  lhsContracting := [1]
  rhsContracting := [0]
  lhsNonContracting := [0]
  rhsNonContracting := [1]
  lhsBatch := []
  rhsBatch := []
  wf := dot_S1x256_S256x2_S1x2_1_0_0_1_n_n_wf

class Facts : Prop extends Facts₀ where

variable [Facts]
-- ==== Proof.LibStretch.lean ====
/-
  Reading a program's host operations stretch by stretch.  The buffer contents after a list of host operations is a fold
  of the operations over the contents the list is entered with; over two stretches run one after the other it is the
  second stretch's fold over the first's (`after_append`).  So a long host program is read one short stretch at a time,
  each stretch over ANY contents V: which buffers it leaves as they were (`unwritten`), and what it writes into the
  buffers a later stretch reads, as the operations' term of what it finds (`read_stretch`).  Short stretches matter where
  operations carry casts between a buffer's recorded type and its literal type (the operations of an outlined function):
  many of them nested under one comparison are costly, two or three are not.
-/
import Idealize.ShloMosaic.Lib.StableHlo.Run

namespace Cert.Stretch

open Idealize.ShloMosaic Idealize.ShloMosaic.StableHlo

/-- The contents after two stretches run one after the other: the second stretch's fold over the first's. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

end Cert.Stretch

/-- `unwritten ops` closes `after ops V b = V b` for a literal stretch `ops` (named by an identifier that unfolds to the
    list) and a literal buffer `b` none of its operations writes: each operation's written buffer is another reference. -/
macro "unwritten" ops:ident : tactic =>
  `(tactic| exact Idealize.ShloMosaic.StableHlo.after_of_forall_not_mem _ _ (List.forall_iff_forall_mem.mp (by
      simp only [$ops:ident, List.Forall, Idealize.ShloMosaic.StableHlo.nullary_writes, Idealize.ShloMosaic.StableHlo.unary_writes, Idealize.ShloMosaic.StableHlo.binary_writes, Idealize.ShloMosaic.StableHlo.ternary_writes, Idealize.ShloMosaic.StableHlo.quaternary_writes, Idealize.ShloMosaic.StableHlo.reshape_writes, Idealize.ShloMosaic.StableHlo.binaryIndexed_writes, Finset.mem_singleton]
      repeat' apply And.intro
      all_goals exact Idealize.ShloMosaic.StableHlo.devRef_ne_of_ne (by decide))))

/-- `read_stretch` closes `after ops V b = t` for a literal stretch and a buffer it writes, `t` the operations' term over
    `V` at the buffers the stretch reads: every operation's result at its own buffer is its function's value, at any other
    buffer what was there (one pass over the stretch); what is left is the same term on both sides. -/
macro "read_stretch" : tactic =>
  `(tactic| ((open Idealize.ShloMosaic.StableHlo in after_results_simp) <;> rfl))

/-- The same, one rewrite per operation: for a stretch of a few operations. -/
macro "read_stretch_small" : tactic =>
  `(tactic| ((open Idealize.ShloMosaic.StableHlo in after_results) <;> rfl))
-- ==== Proof.KStretch.lean ====
/-
  The idealized kernel program's host operations, read one stretch at a time.

  Between its tiled regions the program runs stretches of host operations: the cut of the edge list into sources and
  targets, the edge weights (a softplus of a table entry looked up by edge type), the target degrees, the weighted
  gather–scatter mean over the edges that forms a node's message, the pooled readout and the two-class head.  The reference
  program runs the same operations on the same kinds of arrays.  So each buffer a stretch writes is the corresponding
  stage of the reference — a function of the program's arguments — as soon as the buffers the stretch reads hold the
  stages they correspond to.  Each lemma below says this for one stretch and one buffer, for ANY contents V of the
  buffers when the stretch starts: the stretch's operations are folded over V, the buffers it reads are replaced by
  what they are assumed to hold, and the two terms are then one term.  Nothing here opens a stage: a gather, a scatter
  or a softplus is never computed, only recognised.  (In the last stretch, the log-softmax of the head's output, the output
  is first replaced by a variable on both sides, so that the comparison never looks inside it.)
-/
import proofs.«105062_j57750130262285_1_alg».proof.Proof.Gen.KernelIdeal.Launch
import proofs.«105062_j57750130262285_1_alg».proof.Proof.ReadP
import proofs.«105062_j57750130262285_1_alg».proof.Proof.LibStretch

set_option maxRecDepth 16384

noncomputable section

namespace Cert.Gnn.KStretch

open Idealize.ShloMosaic Idealize.ShloMosaic.TcCoe Idealize.ShloMosaic.StableHlo Idealize.SL.Sem
open Cert.KernelIdeal Cert.KernelIdeal.Gen
open Cert.ReferenceIdeal.ReadP (val_main_v1 val_main_v3 val_main_v21 val_main_v22 val_main_v23 val_main_v30 val_main_v14 val_main_v44 val_main_v82 val_main_v96 val_main_v134 val_main_v148 val_main_v187 val_main_v186 val_main_v208 val_main_v209 val_main_v213 val_main_v214)

variable (V : Valuation τ sig (Elt Ideal))

theorem s0_v1 (a1 : (⟨S2x1200000, .i32⟩ : BufTy).Contents (Elt Ideal))
    (h0 : V (Proc.devRef .tc main_arg1) = a1) :
    after (hostOps0 (F := Ideal)) V (Proc.devRef .tc main_v1) = val_main_v1 (F := Ideal) a1 := by
  after_results_simp
  rw [h0]
  rfl

theorem s0_v3 (a1 : (⟨S2x1200000, .i32⟩ : BufTy).Contents (Elt Ideal))
    (h0 : V (Proc.devRef .tc main_arg1) = a1) :
    after (hostOps0 (F := Ideal)) V (Proc.devRef .tc main_v3) = val_main_v3 (F := Ideal) a1 := by
  after_results_simp
  rw [h0]
  rfl

theorem s0_v4 (a5 : (⟨S256, .f32⟩ : BufTy).Contents (Elt Ideal))
    (h0 : V (Proc.devRef .tc main_arg5) = a5) :
    after (hostOps0 (F := Ideal)) V (Proc.devRef .tc main_v4) = shapeCast S1x256 a5 shapeCasts_S256_S1x256 := by
  after_results_simp
  rw [h0]
  rfl

theorem s0_v5 (a7 : (⟨S64, .f32⟩ : BufTy).Contents (Elt Ideal))
    (h0 : V (Proc.devRef .tc main_arg7) = a7) :
    after (hostOps0 (F := Ideal)) V (Proc.devRef .tc main_v5) = shapeCast S1x64 a7 shapeCasts_S64_S1x64 := by
  after_results_simp
  rw [h0]
  rfl

theorem s1_v13 (a2 : (⟨S1200000, .i32⟩ : BufTy).Contents (Elt Ideal)) (a12 : (⟨S8, .f32⟩ : BufTy).Contents (Elt Ideal))
    (h0 : V (Proc.devRef .tc main_arg2) = a2)
    (h1 : V (Proc.devRef .tc main_arg12) = a12) :
    after (hostOps1 (F := Ideal)) V (Proc.devRef .tc main_v13) = val_main_v21 (F := Ideal) a2 a12 := by
  after_results_simp
  rw [h0, h1]
  rfl

theorem s11_v14 (a2 : (⟨S1200000, .i32⟩ : BufTy).Contents (Elt Ideal)) (a12 : (⟨S8, .f32⟩ : BufTy).Contents (Elt Ideal))
    (h0 : V (Proc.devRef .tc main_v13) = val_main_v21 (F := Ideal) a2 a12) :
    after (hostOps1_1 (F := Ideal)) V (Proc.devRef .tc main_v14) = val_main_v22 (F := Ideal) a2 a12 := by
  after_results_simp
  rw [h0]
  rfl

theorem s12_v15 (a2 : (⟨S1200000, .i32⟩ : BufTy).Contents (Elt Ideal)) (a12 : (⟨S8, .f32⟩ : BufTy).Contents (Elt Ideal))
    (h0 : V (Proc.devRef .tc main_v14) = val_main_v22 (F := Ideal) a2 a12) :
    after (hostOps1_2 (F := Ideal)) V (Proc.devRef .tc main_v15) = val_main_v23 (F := Ideal) a2 a12 := by
  after_results_simp
  rw [h0]
  rfl

theorem s12_v22 (a1 : (⟨S2x1200000, .i32⟩ : BufTy).Contents (Elt Ideal))
    (h0 : V (Proc.devRef .tc main_v3) = val_main_v3 (F := Ideal) a1) :
    after (hostOps1_2 (F := Ideal)) V (Proc.devRef .tc main_v22) = val_main_v30 (F := Ideal) a1 := by
  after_results_simp
  rw [h0]
  rfl

theorem s12_v36 (a0 : (⟨S100000x128, .f32⟩ : BufTy).Contents (Elt Ideal)) (a1 : (⟨S2x1200000, .i32⟩ : BufTy).Contents (Elt Ideal)) (a2 : (⟨S1200000, .i32⟩ : BufTy).Contents (Elt Ideal)) (a4 : (⟨S256x128, .f32⟩ : BufTy).Contents (Elt Ideal)) (a5 : (⟨S256, .f32⟩ : BufTy).Contents (Elt Ideal)) (a6 : (⟨S64x256, .f32⟩ : BufTy).Contents (Elt Ideal)) (a7 : (⟨S64, .f32⟩ : BufTy).Contents (Elt Ideal)) (a12 : (⟨S8, .f32⟩ : BufTy).Contents (Elt Ideal))
    (h0 : V (Proc.devRef .tc main_v1) = val_main_v1 (F := Ideal) a1)
    (h1 : V (Proc.devRef .tc main_v3) = val_main_v3 (F := Ideal) a1)
    (h2 : V (Proc.devRef .tc main_v6) = val_main_v14 (F := Ideal) a0 a4 a5 a6 a7)
    (h3 : V (Proc.devRef .tc main_v14) = val_main_v22 (F := Ideal) a2 a12) :
    after (hostOps1_2 (F := Ideal)) V (Proc.devRef .tc main_v36) = val_main_v44 (F := Ideal) a0 a1 a2 a4 a5 a6 a7 a12 := by
  after_results_simp
  rw [h0, h1, h2, h3]
  rfl

theorem s12_v37 (a10 : (⟨S192, .f32⟩ : BufTy).Contents (Elt Ideal))
    (h0 : V (Proc.devRef .tc main_arg10) = a10) :
    after (hostOps1_2 (F := Ideal)) V (Proc.devRef .tc main_v37) = shapeCast S1x192 a10 shapeCasts_S192_S1x192 := by
  after_results_simp
  rw [h0]
  rfl

theorem s12_v38 (a11 : (⟨S192, .f32⟩ : BufTy).Contents (Elt Ideal))
    (h0 : V (Proc.devRef .tc main_arg11) = a11) :
    after (hostOps1_2 (F := Ideal)) V (Proc.devRef .tc main_v38) = shapeCast S1x192 a11 shapeCasts_S192_S1x192 := by
  after_results_simp
  rw [h0]
  rfl

theorem s2_v53 (a0 : (⟨S100000x128, .f32⟩ : BufTy).Contents (Elt Ideal)) (a1 : (⟨S2x1200000, .i32⟩ : BufTy).Contents (Elt Ideal)) (a2 : (⟨S1200000, .i32⟩ : BufTy).Contents (Elt Ideal)) (a4 : (⟨S256x128, .f32⟩ : BufTy).Contents (Elt Ideal)) (a5 : (⟨S256, .f32⟩ : BufTy).Contents (Elt Ideal)) (a6 : (⟨S64x256, .f32⟩ : BufTy).Contents (Elt Ideal)) (a7 : (⟨S64, .f32⟩ : BufTy).Contents (Elt Ideal)) (a8 : (⟨S192x64, .f32⟩ : BufTy).Contents (Elt Ideal)) (a9 : (⟨S192x64, .f32⟩ : BufTy).Contents (Elt Ideal)) (a10 : (⟨S192, .f32⟩ : BufTy).Contents (Elt Ideal)) (a11 : (⟨S192, .f32⟩ : BufTy).Contents (Elt Ideal)) (a12 : (⟨S8, .f32⟩ : BufTy).Contents (Elt Ideal))
    (h0 : V (Proc.devRef .tc main_v1) = val_main_v1 (F := Ideal) a1)
    (h1 : V (Proc.devRef .tc main_v3) = val_main_v3 (F := Ideal) a1)
    (h2 : V (Proc.devRef .tc main_v15) = val_main_v23 (F := Ideal) a2 a12)
    (h3 : V (Proc.devRef .tc main_v22) = val_main_v30 (F := Ideal) a1)
    (h4 : V (Proc.devRef .tc main_v39) = val_main_v82 (F := Ideal) a0 a1 a2 a4 a5 a6 a7 a8 a9 a10 a11 a12) :
    after (hostOps2 (F := Ideal)) V (Proc.devRef .tc main_v53) = val_main_v96 (F := Ideal) a0 a1 a2 a4 a5 a6 a7 a8 a9 a10 a11 a12 := by
  after_results_simp
  rw [h0, h1, h2, h3, h4]
  rfl

theorem s2_v54 (a10 : (⟨S192, .f32⟩ : BufTy).Contents (Elt Ideal))
    (h0 : V (Proc.devRef .tc main_arg10) = a10) :
    after (hostOps2 (F := Ideal)) V (Proc.devRef .tc main_v54) = shapeCast S1x192 a10 shapeCasts_S192_S1x192 := by
  after_results_simp
  rw [h0]
  rfl

theorem s2_v55 (a11 : (⟨S192, .f32⟩ : BufTy).Contents (Elt Ideal))
    (h0 : V (Proc.devRef .tc main_arg11) = a11) :
    after (hostOps2 (F := Ideal)) V (Proc.devRef .tc main_v55) = shapeCast S1x192 a11 shapeCasts_S192_S1x192 := by
  after_results_simp
  rw [h0]
  rfl

theorem s3_v70 (a0 : (⟨S100000x128, .f32⟩ : BufTy).Contents (Elt Ideal)) (a1 : (⟨S2x1200000, .i32⟩ : BufTy).Contents (Elt Ideal)) (a2 : (⟨S1200000, .i32⟩ : BufTy).Contents (Elt Ideal)) (a4 : (⟨S256x128, .f32⟩ : BufTy).Contents (Elt Ideal)) (a5 : (⟨S256, .f32⟩ : BufTy).Contents (Elt Ideal)) (a6 : (⟨S64x256, .f32⟩ : BufTy).Contents (Elt Ideal)) (a7 : (⟨S64, .f32⟩ : BufTy).Contents (Elt Ideal)) (a8 : (⟨S192x64, .f32⟩ : BufTy).Contents (Elt Ideal)) (a9 : (⟨S192x64, .f32⟩ : BufTy).Contents (Elt Ideal)) (a10 : (⟨S192, .f32⟩ : BufTy).Contents (Elt Ideal)) (a11 : (⟨S192, .f32⟩ : BufTy).Contents (Elt Ideal)) (a12 : (⟨S8, .f32⟩ : BufTy).Contents (Elt Ideal))
    (h0 : V (Proc.devRef .tc main_v1) = val_main_v1 (F := Ideal) a1)
    (h1 : V (Proc.devRef .tc main_v3) = val_main_v3 (F := Ideal) a1)
    (h2 : V (Proc.devRef .tc main_v15) = val_main_v23 (F := Ideal) a2 a12)
    (h3 : V (Proc.devRef .tc main_v22) = val_main_v30 (F := Ideal) a1)
    (h4 : V (Proc.devRef .tc main_v56) = val_main_v134 (F := Ideal) a0 a1 a2 a4 a5 a6 a7 a8 a9 a10 a11 a12) :
    after (hostOps3 (F := Ideal)) V (Proc.devRef .tc main_v70) = val_main_v148 (F := Ideal) a0 a1 a2 a4 a5 a6 a7 a8 a9 a10 a11 a12 := by
  after_results_simp
  rw [h0, h1, h2, h3, h4]
  rfl

theorem s3_v71 (a10 : (⟨S192, .f32⟩ : BufTy).Contents (Elt Ideal))
    (h0 : V (Proc.devRef .tc main_arg10) = a10) :
    after (hostOps3 (F := Ideal)) V (Proc.devRef .tc main_v71) = shapeCast S1x192 a10 shapeCasts_S192_S1x192 := by
  after_results_simp
  rw [h0]
  rfl

theorem s3_v72 (a11 : (⟨S192, .f32⟩ : BufTy).Contents (Elt Ideal))
    (h0 : V (Proc.devRef .tc main_arg11) = a11) :
    after (hostOps3 (F := Ideal)) V (Proc.devRef .tc main_v72) = shapeCast S1x192 a11 shapeCasts_S192_S1x192 := by
  after_results_simp
  rw [h0]
  rfl

theorem s4_v74 (a17 : (⟨S_, .f32⟩ : BufTy).Contents (Elt Ideal))
    (h0 : V (Proc.devRef .tc main_arg17) = a17) :
    after (hostOps4 (F := Ideal)) V (Proc.devRef .tc main_v74) = val_main_v187 (F := Ideal) a17 := by
  after_results_simp
  rw [h0]
  rfl

theorem s41_v95 (a0 : (⟨S100000x128, .f32⟩ : BufTy).Contents (Elt Ideal)) (a1 : (⟨S2x1200000, .i32⟩ : BufTy).Contents (Elt Ideal)) (a2 : (⟨S1200000, .i32⟩ : BufTy).Contents (Elt Ideal)) (a3 : (⟨S1000, .i32⟩ : BufTy).Contents (Elt Ideal)) (a4 : (⟨S256x128, .f32⟩ : BufTy).Contents (Elt Ideal)) (a5 : (⟨S256, .f32⟩ : BufTy).Contents (Elt Ideal)) (a6 : (⟨S64x256, .f32⟩ : BufTy).Contents (Elt Ideal)) (a7 : (⟨S64, .f32⟩ : BufTy).Contents (Elt Ideal)) (a8 : (⟨S192x64, .f32⟩ : BufTy).Contents (Elt Ideal)) (a9 : (⟨S192x64, .f32⟩ : BufTy).Contents (Elt Ideal)) (a10 : (⟨S192, .f32⟩ : BufTy).Contents (Elt Ideal)) (a11 : (⟨S192, .f32⟩ : BufTy).Contents (Elt Ideal)) (a12 : (⟨S8, .f32⟩ : BufTy).Contents (Elt Ideal)) (a13 : (⟨S256x64, .f32⟩ : BufTy).Contents (Elt Ideal)) (a14 : (⟨S256, .f32⟩ : BufTy).Contents (Elt Ideal)) (a17 : (⟨S_, .f32⟩ : BufTy).Contents (Elt Ideal))
    (h0 : V (Proc.devRef .tc main_v74) = val_main_v187 (F := Ideal) a17)
    (h1 : V (Proc.devRef .tc main_v73) = val_main_v186 (F := Ideal) a0 a1 a2 a4 a5 a6 a7 a8 a9 a10 a11 a12)
    (h2 : V (Proc.devRef .tc main_arg3) = a3)
    (h3 : V (Proc.devRef .tc main_arg13) = a13)
    (h4 : V (Proc.devRef .tc main_arg14) = a14) :
    after (hostOps4_1 (F := Ideal)) V (Proc.devRef .tc main_v95) = val_main_v208 (F := Ideal) a0 a1 a2 a3 a4 a5 a6 a7 a8 a9 a10 a11 a12 a13 a14 a17 := by
  after_results_simp
  rw [h0, h1, h2, h3, h4]
  rfl

theorem s42_v96 (a0 : (⟨S100000x128, .f32⟩ : BufTy).Contents (Elt Ideal)) (a1 : (⟨S2x1200000, .i32⟩ : BufTy).Contents (Elt Ideal)) (a2 : (⟨S1200000, .i32⟩ : BufTy).Contents (Elt Ideal)) (a3 : (⟨S1000, .i32⟩ : BufTy).Contents (Elt Ideal)) (a4 : (⟨S256x128, .f32⟩ : BufTy).Contents (Elt Ideal)) (a5 : (⟨S256, .f32⟩ : BufTy).Contents (Elt Ideal)) (a6 : (⟨S64x256, .f32⟩ : BufTy).Contents (Elt Ideal)) (a7 : (⟨S64, .f32⟩ : BufTy).Contents (Elt Ideal)) (a8 : (⟨S192x64, .f32⟩ : BufTy).Contents (Elt Ideal)) (a9 : (⟨S192x64, .f32⟩ : BufTy).Contents (Elt Ideal)) (a10 : (⟨S192, .f32⟩ : BufTy).Contents (Elt Ideal)) (a11 : (⟨S192, .f32⟩ : BufTy).Contents (Elt Ideal)) (a12 : (⟨S8, .f32⟩ : BufTy).Contents (Elt Ideal)) (a13 : (⟨S256x64, .f32⟩ : BufTy).Contents (Elt Ideal)) (a14 : (⟨S256, .f32⟩ : BufTy).Contents (Elt Ideal)) (a17 : (⟨S_, .f32⟩ : BufTy).Contents (Elt Ideal))
    (h0 : V (Proc.devRef .tc main_v95) = val_main_v208 (F := Ideal) a0 a1 a2 a3 a4 a5 a6 a7 a8 a9 a10 a11 a12 a13 a14 a17) :
    after (hostOps4_2 (F := Ideal)) V (Proc.devRef .tc main_v96) = val_main_v209 (F := Ideal) a0 a1 a2 a3 a4 a5 a6 a7 a8 a9 a10 a11 a12 a13 a14 a17 := by
  after_results_simp
  rw [h0]
  rfl

theorem s43_v100 (a0 : (⟨S100000x128, .f32⟩ : BufTy).Contents (Elt Ideal)) (a1 : (⟨S2x1200000, .i32⟩ : BufTy).Contents (Elt Ideal)) (a2 : (⟨S1200000, .i32⟩ : BufTy).Contents (Elt Ideal)) (a3 : (⟨S1000, .i32⟩ : BufTy).Contents (Elt Ideal)) (a4 : (⟨S256x128, .f32⟩ : BufTy).Contents (Elt Ideal)) (a5 : (⟨S256, .f32⟩ : BufTy).Contents (Elt Ideal)) (a6 : (⟨S64x256, .f32⟩ : BufTy).Contents (Elt Ideal)) (a7 : (⟨S64, .f32⟩ : BufTy).Contents (Elt Ideal)) (a8 : (⟨S192x64, .f32⟩ : BufTy).Contents (Elt Ideal)) (a9 : (⟨S192x64, .f32⟩ : BufTy).Contents (Elt Ideal)) (a10 : (⟨S192, .f32⟩ : BufTy).Contents (Elt Ideal)) (a11 : (⟨S192, .f32⟩ : BufTy).Contents (Elt Ideal)) (a12 : (⟨S8, .f32⟩ : BufTy).Contents (Elt Ideal)) (a13 : (⟨S256x64, .f32⟩ : BufTy).Contents (Elt Ideal)) (a14 : (⟨S256, .f32⟩ : BufTy).Contents (Elt Ideal)) (a15 : (⟨S2x256, .f32⟩ : BufTy).Contents (Elt Ideal)) (a16 : (⟨S2, .f32⟩ : BufTy).Contents (Elt Ideal)) (a17 : (⟨S_, .f32⟩ : BufTy).Contents (Elt Ideal))
    (h0 : V (Proc.devRef .tc main_v96) = val_main_v209 (F := Ideal) a0 a1 a2 a3 a4 a5 a6 a7 a8 a9 a10 a11 a12 a13 a14 a17)
    (h1 : V (Proc.devRef .tc main_arg15) = a15)
    (h2 : V (Proc.devRef .tc main_arg16) = a16) :
    after (hostOps4_3 (F := Ideal)) V (Proc.devRef .tc main_v100) = val_main_v213 (F := Ideal) a0 a1 a2 a3 a4 a5 a6 a7 a8 a9 a10 a11 a12 a13 a14 a15 a16 a17 := by
  after_results_simp
  rw [h0, h1, h2]
  rfl

theorem s44_v101 (a0 : (⟨S100000x128, .f32⟩ : BufTy).Contents (Elt Ideal)) (a1 : (⟨S2x1200000, .i32⟩ : BufTy).Contents (Elt Ideal)) (a2 : (⟨S1200000, .i32⟩ : BufTy).Contents (Elt Ideal)) (a3 : (⟨S1000, .i32⟩ : BufTy).Contents (Elt Ideal)) (a4 : (⟨S256x128, .f32⟩ : BufTy).Contents (Elt Ideal)) (a5 : (⟨S256, .f32⟩ : BufTy).Contents (Elt Ideal)) (a6 : (⟨S64x256, .f32⟩ : BufTy).Contents (Elt Ideal)) (a7 : (⟨S64, .f32⟩ : BufTy).Contents (Elt Ideal)) (a8 : (⟨S192x64, .f32⟩ : BufTy).Contents (Elt Ideal)) (a9 : (⟨S192x64, .f32⟩ : BufTy).Contents (Elt Ideal)) (a10 : (⟨S192, .f32⟩ : BufTy).Contents (Elt Ideal)) (a11 : (⟨S192, .f32⟩ : BufTy).Contents (Elt Ideal)) (a12 : (⟨S8, .f32⟩ : BufTy).Contents (Elt Ideal)) (a13 : (⟨S256x64, .f32⟩ : BufTy).Contents (Elt Ideal)) (a14 : (⟨S256, .f32⟩ : BufTy).Contents (Elt Ideal)) (a15 : (⟨S2x256, .f32⟩ : BufTy).Contents (Elt Ideal)) (a16 : (⟨S2, .f32⟩ : BufTy).Contents (Elt Ideal)) (a17 : (⟨S_, .f32⟩ : BufTy).Contents (Elt Ideal))
    (h0 : V (Proc.devRef .tc main_v100) = val_main_v213 (F := Ideal) a0 a1 a2 a3 a4 a5 a6 a7 a8 a9 a10 a11 a12 a13 a14 a15 a16 a17) :
    after (hostOps4_4 (F := Ideal)) V (Proc.devRef .tc main_v101) = val_main_v214 (F := Ideal) a0 a1 a2 a3 a4 a5 a6 a7 a8 a9 a10 a11 a12 a13 a14 a15 a16 a17 := by
  after_results_simp
  rw [h0]
  simp only [Cert.ReferenceIdeal.ReadP.val_main_v214, Cert.ReferenceIdeal.ReadP.val_main_call4_v10, Cert.ReferenceIdeal.ReadP.val_main_call4_v9, Cert.ReferenceIdeal.ReadP.val_main_call4_v8, Cert.ReferenceIdeal.ReadP.val_main_call4_v7, Cert.ReferenceIdeal.ReadP.val_main_call4_v6, Cert.ReferenceIdeal.ReadP.val_main_call4_v5, Cert.ReferenceIdeal.ReadP.val_main_call4_v4, Cert.ReferenceIdeal.ReadP.val_main_call4_v3, Cert.ReferenceIdeal.ReadP.val_main_call4_v2, Cert.ReferenceIdeal.ReadP.val_main_call4_v1, Cert.ReferenceIdeal.ReadP.val_main_call4_v0, Cert.ReferenceIdeal.ReadP.val_main_call4_cst, Cert.ReferenceIdeal.ReadP.val_main_call4_cst_0, Cert.ReferenceIdeal.ReadP.val_main_call4_cst_1]
  generalize val_main_v213 (F := Ideal) a0 a1 a2 a3 a4 a5 a6 a7 a8 a9 a10 a11 a12 a13 a14 a15 a16 a17 = y
  rfl

end Cert.Gnn.KStretch

end
-- ==== Proof.Spec.lean ====
/-
  The two dense layers of the network, one output row at a time, on the extended reals.

  Every dense step of the network acts on the rows of its input independently: row n of the result depends on row n of
  the input (and on the weights) only.  So each layer is stated here as a function from ONE input row to ONE output row.
  An affine map sends a row x to the vector whose g-th entry is the sum over k of x k · W g k, plus b g: the row against
  ROW g of the weight (the network stores its weights transposed).  The input projection is two affine maps with the
  maximum with zero between them.  The recurrent cell forms two affine images of width 3·64, of the message row m and of
  the state row h, cuts each into three bands of 64 (reset, update, candidate), and returns
  (1 − z)·n + z·h with r = σ(i_r + h_r), z = σ(i_z + h_z), n = tanh(i_n + r·h_n), σ the logistic function.
-/
import Idealize.ShloMosaic.PureOps.Ideal
import Idealize.ShloMosaic.Lib.ValueIdx

noncomputable section

namespace Cert.Gnn

open Idealize.ShloMosaic Idealize.ShloMosaic.ValueIdx

/-- Row `n` of a matrix. -/
abbrev row2 {a b : ℕ} (x : (⟨2, ![a, b]⟩ : Shape).Idx → EReal) (n : Fin a) : Fin b → EReal := fun k => x (ix2 n k)
/-- A matrix by its two coordinates. -/
abbrev mat2 {a b : ℕ} (W : (⟨2, ![a, b]⟩ : Shape).Idx → EReal) : Fin a → Fin b → EReal := fun g k => W (ix2 g k)
/-- A vector by its coordinate. -/
abbrev vec1 {a : ℕ} (v : (⟨1, ![a]⟩ : Shape).Idx → EReal) : Fin a → EReal := fun g => v (ix1 g)
/-- A one-row matrix as the vector of its entries. -/
abbrev rowvec {b : ℕ} (v : (⟨2, ![1, b]⟩ : Shape).Idx → EReal) : Fin b → EReal := fun g => v (ix2 (0 : Fin 1) g)

/-- Entry `g` of an affine image of a row: the row against row `g` of the weight, plus the bias. -/
def affine {K G : ℕ} (row : Fin K → EReal) (W : Fin G → Fin K → EReal) (b : Fin G → EReal) (g : Fin G) : EReal :=
  (∑ k : Fin K, row k * W g k) + b g

/-- One row of the input projection: affine, maximum with zero, affine. -/
def projRow (x : Fin 128 → EReal) (w1 : Fin 256 → Fin 128 → EReal) (b1 : Fin 256 → EReal)
    (w2 : Fin 64 → Fin 256 → EReal) (b2 : Fin 64 → EReal) (q : Fin 64) : EReal :=
  affine (fun j => max (affine x w1 b1 j) 0) w2 b2 q

/-- Column `q` of band `t` (0 reset, 1 update, 2 candidate) among the 192 gate columns. -/
def band (t : Fin 3) (q : Fin 64) : Fin 192 := ⟨64 * t.val + q.val, by have := t.isLt; have := q.isLt; omega⟩

/-- One row of the recurrent cell's new state. -/
def gruRow (m h : Fin 64 → EReal) (wih whh : Fin 192 → Fin 64 → EReal) (bih bhh : Fin 192 → EReal) (q : Fin 64) : EReal :=
  (1 - Ideal.logistic (affine m wih bih (band 1 q) + affine h whh bhh (band 1 q)))
      * Ideal.tanh (affine m wih bih (band 2 q)
          + Ideal.logistic (affine m wih bih (band 0 q) + affine h whh bhh (band 0 q)) * affine h whh bhh (band 2 q))
    + Ideal.logistic (affine m wih bih (band 1 q) + affine h whh bhh (band 1 q)) * h q

end Cert.Gnn

end
-- ==== Proof.LibMatmulIx.lean ====
/-
  A matrix product of an `[a, K]` array with a `[K, b]` array read at the entry `(p, q)`, at the ideal values:
  the sum over `k` of the left operand's `(p, k)` entry times the right operand's `(k, q)` entry — for a kernel's
  product accumulated into the zero splat (`matmul_zero_ix2`) and for the host's product (`dotGeneral_ix2`), stated
  for any dimension numbers that contract the left operand's columns with the right operand's rows (the four
  coordinate facts `hl0 … hr1`, which a literal record proves by evaluation).
-/
import Idealize.ShloMosaic.Lib.ValueIdx
import Idealize.ShloMosaic.PureOps.Ideal.Laws

namespace MatmulIx

open Idealize.ShloMosaic Idealize.ShloMosaic.ValueIdx

variable {a K b : ℕ} {φ₁ φ₂ : FTy}

/-- The contraction's sum re-indexed by the one contracted coordinate. -/
theorem sum_contr (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : (⟨2, ![a, K]⟩ : Shape).Idx → EReal) (w : (⟨2, ![K, b]⟩ : Shape).Idx → EReal) (p : Fin a) (q : Fin b) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun c => Fin.ext (by
    match c with
    | ⟨0, _⟩ => exact hl0 _ _
    | ⟨1, _⟩ => exact (hl1 _ _).trans hk)
  have er : D.rhsIdx (ix2 p q) ((contrEquiv1 D K hr hs).symm k) = ix2 k q := funext fun c => Fin.ext (by
    match c with
    | ⟨0, _⟩ => exact (hr0 _ _).trans hk
    | ⟨1, _⟩ => exact hr1 _ _)
  rw [el, er]

/-- A kernel's matrix product into the zero splat, at `(p, q)`: the row of the left operand times the column of the
    right one. -/
theorem matmul_zero_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    matmul D prec x w (constant (F := Ideal) ⟨2, ![a, b]⟩ .f32 0x00000000#32) (ix2 p q)
      = ∑ k : Fin K, x (ix2 p k) * w (ix2 k q) :=
  (Ideal.matmul_constant_zero_apply D prec x w (ix2 p q)).trans (sum_contr D hr hs hl0 hl1 hr0 hr1 x w p q)

/-- The host's matrix product at `(p, q)`: the same sum. -/
theorem dotGeneral_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    Host.dotGeneral D prec x w (ix2 p q) = ∑ k : Fin K, x (ix2 p k) * w (ix2 k q) :=
  (Ideal.dotGeneral_apply D prec .single x w (ix2 p q)).trans (sum_contr D hr hs hl0 hl1 hr0 hr1 x w p q)

end MatmulIx
-- ==== Proof.RefRows.lean ====
/-
  The reference program's dense layers, read one entry at a time on the extended reals.

  The reference computes each dense layer on whole arrays: a product of the input with the transposed weight, the bias
  spread over the rows, and entrywise operations.  Entry (n, q) of each result depends on row n of the layer's input
  only, and is the specification's row function of that row:
  * the input projection at (n, q) is `projRow` of row n of the node features;
  * each of the three applications of the recurrent cell at (n, q) is `gruRow` of row n of the message array and row n
    of the previous state, whatever those two arrays are.
  The product at (n, g) is the sum over k of the input's (n, k) entry times the weight's (g, k) entry (the transpose
  swaps the weight's coordinates); the bias spread over the rows contributes its g-th entry; the three column slices of
  width 64 read columns q, 64 + q and 128 + q; and 1 / (1 + exp (−x)), as the reference spells the logistic function,
  is the logistic function of the extended reals by definition, once the word 0x3F800000 is read as the number one.
-/
import proofs.«105062_j57750130262285_1_alg».proof.Proof.ReadP
import proofs.«105062_j57750130262285_1_alg».proof.Proof.Spec
import proofs.«105062_j57750130262285_1_alg».proof.Proof.LibMatmulIx
import Idealize.ShloMosaic.PureOps.IdealRules

noncomputable section

namespace Cert.Gnn.Ref

open Idealize.ShloMosaic Idealize.ShloMosaic.ValueIdx Cert.ReferenceIdeal Cert.ReferenceIdeal.Gen Cert.ReferenceIdeal.ReadP Cert.Gnn

/-! ### The input projection -/

/-- The word 0x3F800000 is the number one. -/
theorem one_word : Ideal.ofBits .f32 0x3F800000#32 = 1 := IdealRules.sign_bit.ideal_onePat .f32

/-- The hidden layer at (n, j): the first affine image of row n, cut below at zero. -/
theorem hidden_ref (x0 : (⟨S100000x128, .f32⟩ : BufTy).Contents (Elt Ideal)) (x4 : (⟨S256x128, .f32⟩ : BufTy).Contents (Elt Ideal)) (x5 : (⟨S256, .f32⟩ : BufTy).Contents (Elt Ideal)) (n : Fin 100000) (j : Fin 256) :
    val_main_v9 (F := Ideal) x0 x4 x5 (ix2 n j) = max (affine (row2 x0 n) (mat2 x4) (vec1 x5) j) 0 := by
  have el : ∀ k : Fin 128, lidx_main_v5 (ix2 n j) k = ix2 n k := fun k => funext fun a => Fin.ext (by match a with | ⟨0, _⟩ => rfl | ⟨1, _⟩ => rfl)
  have er : ∀ k : Fin 128, idx_main_v4 (ridx_main_v5 (ix2 n j) k) = ix2 j k := fun k => funext fun a => Fin.ext (by match a with | ⟨0, _⟩ => rfl | ⟨1, _⟩ => rfl)
  have eb : idx_main_v6 (idx_main_v7 (ix2 n j)) = ix1 j := funext fun a => Fin.ext (by match a with | ⟨0, _⟩ => rfl)
  rw [val_main_v9_apply, val_main_v8_apply, val_main_v5_apply, val_main_v7_apply, val_main_v6_apply, eb,
    val_main_call0_v0_apply, val_main_call0_cst_apply]
  simp only [val_main_v4_apply, el, er, Ideal.maximumf_def, Ideal.addf_def, Ideal.ofBits_def, Ideal.ofBits_zero_f32]
  rfl

/-- The input projection at (n, q) is the specification's row function of row n of the node features. -/
theorem proj_ref (x0 : (⟨S100000x128, .f32⟩ : BufTy).Contents (Elt Ideal)) (x4 : (⟨S256x128, .f32⟩ : BufTy).Contents (Elt Ideal)) (x5 : (⟨S256, .f32⟩ : BufTy).Contents (Elt Ideal)) (x6 : (⟨S64x256, .f32⟩ : BufTy).Contents (Elt Ideal)) (x7 : (⟨S64, .f32⟩ : BufTy).Contents (Elt Ideal)) (n : Fin 100000) (q : Fin 64) :
    val_main_v14 (F := Ideal) x0 x4 x5 x6 x7 (ix2 n q)
      = projRow (row2 x0 n) (mat2 x4) (vec1 x5) (mat2 x6) (vec1 x7) q := by
  have el : ∀ k : Fin 256, lidx_main_v11 (ix2 n q) k = ix2 n k := fun k => funext fun a => Fin.ext (by match a with | ⟨0, _⟩ => rfl | ⟨1, _⟩ => rfl)
  have er : ∀ k : Fin 256, idx_main_v10 (ridx_main_v11 (ix2 n q) k) = ix2 q k := fun k => funext fun a => Fin.ext (by match a with | ⟨0, _⟩ => rfl | ⟨1, _⟩ => rfl)
  have eb : idx_main_v12 (idx_main_v13 (ix2 n q)) = ix1 q := funext fun a => Fin.ext (by match a with | ⟨0, _⟩ => rfl)
  rw [val_main_v14_apply, val_main_v11_apply, val_main_v13_apply, val_main_v12_apply, eb]
  simp only [val_main_v10_apply, el, er, hidden_ref, Ideal.addf_def]
  rfl

/-! ### A dense layer of the recurrent cell, on an arbitrary input array -/

/-- The product with the transposed [192, 64] weight plus the bias spread over the rows, at (n, g): the affine image of
    row n of the input, whatever array the input is. -/
theorem affine192 (m : FVec Ideal S100000x64 .f32) (w : FVec Ideal S192x64 .f32) (b : FVec Ideal S192 .f32) (n : Fin 100000) (g : Fin 192) :
    addf (Host.dotGeneral (φ₁ := .f32) (φ₂ := .f32) dot_S100000x64_S64x192_S100000x192_1_0_0_1_n_n none m (val_main_v45 (F := Ideal) w)) (val_main_v48 (F := Ideal) b) (ix2 n g)
      = affine (row2 m n) (mat2 w) (vec1 b) g := by
  have er : ∀ k : Fin 64, idx_main_v45 (ix2 k g) = ix2 g k := fun k => funext fun a => Fin.ext (by match a with | ⟨0, _⟩ => rfl | ⟨1, _⟩ => rfl)
  have eb : idx_main_v47 (idx_main_v48 (ix2 n g)) = ix1 g := funext fun a => Fin.ext (by match a with | ⟨0, _⟩ => rfl)
  rw [addf_apply, MatmulIx.dotGeneral_ix2 dot_S100000x64_S64x192_S100000x192_1_0_0_1_n_n rfl rfl lhs_main_v46_0 lhs_main_v46_1 rhs_main_v46_0 rhs_main_v46_1,
    val_main_v48_apply, val_main_v47_apply, eb]
  simp only [val_main_v45_apply, er]
  rfl

/-! ### The cell's entrywise part, on arbitrary gate arrays -/

/-- The three bands of 64 columns of a gate array. -/
def cut0 (y : FVec Ideal S100000x192 .f32) : FVec Ideal S100000x64 .f32 :=
  extractStridedSlice S100000x64 ![0, 0] y slices_S100000x192_S100000x64_0_0
def cut1 (y : FVec Ideal S100000x192 .f32) : FVec Ideal S100000x64 .f32 :=
  extractStridedSlice S100000x64 ![0, 64] y slices_S100000x192_S100000x64_0_64
def cut2 (y : FVec Ideal S100000x192 .f32) : FVec Ideal S100000x64 .f32 :=
  extractStridedSlice S100000x64 ![0, 128] y slices_S100000x192_S100000x64_0_128

theorem cut0_apply (y : FVec Ideal S100000x192 .f32) (n : Fin 100000) (q : Fin 64) : cut0 y (ix2 n q) = y (ix2 n (band 0 q)) :=
  extractStridedSlice_apply ![0, 0] y slices_S100000x192_S100000x64_0_0 (ix2 n q) (ix2 n (band 0 q)) (fun a => match a with
    | ⟨0, _⟩ => by show n.val = 0 + n.val; omega
    | ⟨1, _⟩ => by show (band 0 q).val = 0 + q.val; simp [band])
theorem cut1_apply (y : FVec Ideal S100000x192 .f32) (n : Fin 100000) (q : Fin 64) : cut1 y (ix2 n q) = y (ix2 n (band 1 q)) :=
  extractStridedSlice_apply ![0, 64] y slices_S100000x192_S100000x64_0_64 (ix2 n q) (ix2 n (band 1 q)) (fun a => match a with
    | ⟨0, _⟩ => by show n.val = 0 + n.val; omega
    | ⟨1, _⟩ => by show (band 1 q).val = 64 + q.val; simp [band])
theorem cut2_apply (y : FVec Ideal S100000x192 .f32) (n : Fin 100000) (q : Fin 64) : cut2 y (ix2 n q) = y (ix2 n (band 2 q)) :=
  extractStridedSlice_apply ![0, 128] y slices_S100000x192_S100000x64_0_128 (ix2 n q) (ix2 n (band 2 q)) (fun a => match a with
    | ⟨0, _⟩ => by show n.val = 0 + n.val; omega
    | ⟨1, _⟩ => by show (band 2 q).val = 128 + q.val; simp [band])

/-- The reference's spelling of the logistic function of an array: one over one plus the exponential of the negative. -/
def hostLogistic (x : FVec Ideal S100000x64 .f32) : FVec Ideal S100000x64 .f32 :=
  Host.divf (val_main_v66 (F := Ideal)) (addf (val_main_v64 (F := Ideal)) (Host.exp (Host.negf x)))

theorem hostLogistic_apply (x : FVec Ideal S100000x64 .f32) (i : S100000x64.Idx) : hostLogistic x i = Ideal.logistic (x i) := by
  show Ideal.div (val_main_v66 (F := Ideal) i) (val_main_v64 (F := Ideal) i + Ideal.exp (-(x i))) = _
  rw [val_main_v66_apply, val_main_v64_apply, val_main_cst_7_apply, val_main_cst_6_apply]
  simp only [Ideal.ofBits_def, one_word]
  rfl

/-- The cell's new state from its two gate arrays and the previous state: (1 − z)·c + z·h. -/
def cellHost (gi gh : FVec Ideal S100000x192 .f32) (h : FVec Ideal S100000x64 .f32) : FVec Ideal S100000x64 .f32 :=
  addf
    (mulf (subf (val_main_v78 (F := Ideal)) (hostLogistic (addf (cut1 gi) (cut1 gh))))
      (Host.tanh (addf (cut2 gi) (mulf (hostLogistic (addf (cut0 gi) (cut0 gh))) (cut2 gh)))))
    (mulf (hostLogistic (addf (cut1 gi) (cut1 gh))) h)

theorem cellHost_apply (gi gh : FVec Ideal S100000x192 .f32) (h : FVec Ideal S100000x64 .f32) (n : Fin 100000) (q : Fin 64) :
    cellHost gi gh h (ix2 n q)
      = (1 - Ideal.logistic (gi (ix2 n (band 1 q)) + gh (ix2 n (band 1 q))))
          * Ideal.tanh (gi (ix2 n (band 2 q))
              + Ideal.logistic (gi (ix2 n (band 0 q)) + gh (ix2 n (band 0 q))) * gh (ix2 n (band 2 q)))
        + Ideal.logistic (gi (ix2 n (band 1 q)) + gh (ix2 n (band 1 q))) * h (ix2 n q) := by
  show (val_main_v78 (F := Ideal) (ix2 n q) - hostLogistic (addf (cut1 gi) (cut1 gh)) (ix2 n q))
        * Ideal.tanh (cut2 gi (ix2 n q) + hostLogistic (addf (cut0 gi) (cut0 gh)) (ix2 n q) * cut2 gh (ix2 n q))
      + hostLogistic (addf (cut1 gi) (cut1 gh)) (ix2 n q) * h (ix2 n q) = _
  rw [hostLogistic_apply, hostLogistic_apply, addf_apply, addf_apply, cut0_apply, cut0_apply, cut1_apply, cut1_apply, cut2_apply, cut2_apply,
    val_main_v78_apply, val_main_cst_10_apply]
  simp only [Ideal.ofBits_def, one_word]

/-! ### The first application of the cell -/

/-- The message gates at (n, g). -/
theorem gi1 (x0 : (⟨S100000x128, .f32⟩ : BufTy).Contents (Elt Ideal)) (x1 : (⟨S2x1200000, .i32⟩ : BufTy).Contents (Elt Ideal)) (x2 : (⟨S1200000, .i32⟩ : BufTy).Contents (Elt Ideal)) (x4 : (⟨S256x128, .f32⟩ : BufTy).Contents (Elt Ideal)) (x5 : (⟨S256, .f32⟩ : BufTy).Contents (Elt Ideal)) (x6 : (⟨S64x256, .f32⟩ : BufTy).Contents (Elt Ideal)) (x7 : (⟨S64, .f32⟩ : BufTy).Contents (Elt Ideal)) (x8 : (⟨S192x64, .f32⟩ : BufTy).Contents (Elt Ideal)) (x10 : (⟨S192, .f32⟩ : BufTy).Contents (Elt Ideal)) (x12 : (⟨S8, .f32⟩ : BufTy).Contents (Elt Ideal)) (n : Fin 100000) (g : Fin 192) :
    val_main_v49 (F := Ideal) x0 x1 x2 x4 x5 x6 x7 x8 x10 x12 (ix2 n g) = affine (row2 (val_main_v44 (F := Ideal) x0 x1 x2 x4 x5 x6 x7 x12) n) (mat2 x8) (vec1 x10) g :=
  affine192 (val_main_v44 (F := Ideal) x0 x1 x2 x4 x5 x6 x7 x12) x8 x10 n g

/-- The state gates at (n, g). -/
theorem gh1 (x0 : (⟨S100000x128, .f32⟩ : BufTy).Contents (Elt Ideal)) (x4 : (⟨S256x128, .f32⟩ : BufTy).Contents (Elt Ideal)) (x5 : (⟨S256, .f32⟩ : BufTy).Contents (Elt Ideal)) (x6 : (⟨S64x256, .f32⟩ : BufTy).Contents (Elt Ideal)) (x7 : (⟨S64, .f32⟩ : BufTy).Contents (Elt Ideal)) (x9 : (⟨S192x64, .f32⟩ : BufTy).Contents (Elt Ideal)) (x11 : (⟨S192, .f32⟩ : BufTy).Contents (Elt Ideal)) (n : Fin 100000) (g : Fin 192) :
    val_main_v54 (F := Ideal) x0 x4 x5 x6 x7 x9 x11 (ix2 n g) = affine (row2 (val_main_v14 (F := Ideal) x0 x4 x5 x6 x7) n) (mat2 x9) (vec1 x11) g :=
  affine192 (val_main_v14 (F := Ideal) x0 x4 x5 x6 x7) x9 x11 n g

/-- The first new state at (n, q) is the specification's cell on row n of the message array and row n of the state. -/
theorem gru_ref1 (x0 : (⟨S100000x128, .f32⟩ : BufTy).Contents (Elt Ideal)) (x1 : (⟨S2x1200000, .i32⟩ : BufTy).Contents (Elt Ideal)) (x2 : (⟨S1200000, .i32⟩ : BufTy).Contents (Elt Ideal)) (x4 : (⟨S256x128, .f32⟩ : BufTy).Contents (Elt Ideal)) (x5 : (⟨S256, .f32⟩ : BufTy).Contents (Elt Ideal)) (x6 : (⟨S64x256, .f32⟩ : BufTy).Contents (Elt Ideal)) (x7 : (⟨S64, .f32⟩ : BufTy).Contents (Elt Ideal)) (x8 x9 : (⟨S192x64, .f32⟩ : BufTy).Contents (Elt Ideal)) (x10 x11 : (⟨S192, .f32⟩ : BufTy).Contents (Elt Ideal)) (x12 : (⟨S8, .f32⟩ : BufTy).Contents (Elt Ideal)) (n : Fin 100000) (q : Fin 64) :
    val_main_v82 (F := Ideal) x0 x1 x2 x4 x5 x6 x7 x8 x9 x10 x11 x12 (ix2 n q)
      = gruRow (row2 (val_main_v44 (F := Ideal) x0 x1 x2 x4 x5 x6 x7 x12) n) (row2 (val_main_v14 (F := Ideal) x0 x4 x5 x6 x7) n) (mat2 x8) (mat2 x9) (vec1 x10) (vec1 x11) q := by
  have e : val_main_v82 (F := Ideal) x0 x1 x2 x4 x5 x6 x7 x8 x9 x10 x11 x12 = cellHost (val_main_v49 (F := Ideal) x0 x1 x2 x4 x5 x6 x7 x8 x10 x12) (val_main_v54 (F := Ideal) x0 x4 x5 x6 x7 x9 x11) (val_main_v14 (F := Ideal) x0 x4 x5 x6 x7) := rfl
  rw [e, cellHost_apply]
  simp only [gi1, gh1]
  rfl

/-! ### The second application of the cell -/

/-- The message gates at (n, g). -/
theorem gi2 (x0 : (⟨S100000x128, .f32⟩ : BufTy).Contents (Elt Ideal)) (x1 : (⟨S2x1200000, .i32⟩ : BufTy).Contents (Elt Ideal)) (x2 : (⟨S1200000, .i32⟩ : BufTy).Contents (Elt Ideal)) (x4 : (⟨S256x128, .f32⟩ : BufTy).Contents (Elt Ideal)) (x5 : (⟨S256, .f32⟩ : BufTy).Contents (Elt Ideal)) (x6 : (⟨S64x256, .f32⟩ : BufTy).Contents (Elt Ideal)) (x7 : (⟨S64, .f32⟩ : BufTy).Contents (Elt Ideal)) (x8 x9 : (⟨S192x64, .f32⟩ : BufTy).Contents (Elt Ideal)) (x10 x11 : (⟨S192, .f32⟩ : BufTy).Contents (Elt Ideal)) (x12 : (⟨S8, .f32⟩ : BufTy).Contents (Elt Ideal)) (n : Fin 100000) (g : Fin 192) :
    val_main_v101 (F := Ideal) x0 x1 x2 x4 x5 x6 x7 x8 x9 x10 x11 x12 (ix2 n g) = affine (row2 (val_main_v96 (F := Ideal) x0 x1 x2 x4 x5 x6 x7 x8 x9 x10 x11 x12) n) (mat2 x8) (vec1 x10) g :=
  affine192 (val_main_v96 (F := Ideal) x0 x1 x2 x4 x5 x6 x7 x8 x9 x10 x11 x12) x8 x10 n g

/-- The state gates at (n, g). -/
theorem gh2 (x0 : (⟨S100000x128, .f32⟩ : BufTy).Contents (Elt Ideal)) (x1 : (⟨S2x1200000, .i32⟩ : BufTy).Contents (Elt Ideal)) (x2 : (⟨S1200000, .i32⟩ : BufTy).Contents (Elt Ideal)) (x4 : (⟨S256x128, .f32⟩ : BufTy).Contents (Elt Ideal)) (x5 : (⟨S256, .f32⟩ : BufTy).Contents (Elt Ideal)) (x6 : (⟨S64x256, .f32⟩ : BufTy).Contents (Elt Ideal)) (x7 : (⟨S64, .f32⟩ : BufTy).Contents (Elt Ideal)) (x8 x9 : (⟨S192x64, .f32⟩ : BufTy).Contents (Elt Ideal)) (x10 x11 : (⟨S192, .f32⟩ : BufTy).Contents (Elt Ideal)) (x12 : (⟨S8, .f32⟩ : BufTy).Contents (Elt Ideal)) (n : Fin 100000) (g : Fin 192) :
    val_main_v106 (F := Ideal) x0 x1 x2 x4 x5 x6 x7 x8 x9 x10 x11 x12 (ix2 n g) = affine (row2 (val_main_v82 (F := Ideal) x0 x1 x2 x4 x5 x6 x7 x8 x9 x10 x11 x12) n) (mat2 x9) (vec1 x11) g :=
  affine192 (val_main_v82 (F := Ideal) x0 x1 x2 x4 x5 x6 x7 x8 x9 x10 x11 x12) x9 x11 n g

/-- The second new state at (n, q) is the specification's cell on row n of the message array and row n of the state. -/
theorem gru_ref2 (x0 : (⟨S100000x128, .f32⟩ : BufTy).Contents (Elt Ideal)) (x1 : (⟨S2x1200000, .i32⟩ : BufTy).Contents (Elt Ideal)) (x2 : (⟨S1200000, .i32⟩ : BufTy).Contents (Elt Ideal)) (x4 : (⟨S256x128, .f32⟩ : BufTy).Contents (Elt Ideal)) (x5 : (⟨S256, .f32⟩ : BufTy).Contents (Elt Ideal)) (x6 : (⟨S64x256, .f32⟩ : BufTy).Contents (Elt Ideal)) (x7 : (⟨S64, .f32⟩ : BufTy).Contents (Elt Ideal)) (x8 x9 : (⟨S192x64, .f32⟩ : BufTy).Contents (Elt Ideal)) (x10 x11 : (⟨S192, .f32⟩ : BufTy).Contents (Elt Ideal)) (x12 : (⟨S8, .f32⟩ : BufTy).Contents (Elt Ideal)) (n : Fin 100000) (q : Fin 64) :
    val_main_v134 (F := Ideal) x0 x1 x2 x4 x5 x6 x7 x8 x9 x10 x11 x12 (ix2 n q)
      = gruRow (row2 (val_main_v96 (F := Ideal) x0 x1 x2 x4 x5 x6 x7 x8 x9 x10 x11 x12) n) (row2 (val_main_v82 (F := Ideal) x0 x1 x2 x4 x5 x6 x7 x8 x9 x10 x11 x12) n) (mat2 x8) (mat2 x9) (vec1 x10) (vec1 x11) q := by
  have e : val_main_v134 (F := Ideal) x0 x1 x2 x4 x5 x6 x7 x8 x9 x10 x11 x12 = cellHost (val_main_v101 (F := Ideal) x0 x1 x2 x4 x5 x6 x7 x8 x9 x10 x11 x12) (val_main_v106 (F := Ideal) x0 x1 x2 x4 x5 x6 x7 x8 x9 x10 x11 x12) (val_main_v82 (F := Ideal) x0 x1 x2 x4 x5 x6 x7 x8 x9 x10 x11 x12) := rfl
  rw [e, cellHost_apply]
  simp only [gi2, gh2]
  rfl

/-! ### The third application of the cell -/

/-- The message gates at (n, g). -/
theorem gi3 (x0 : (⟨S100000x128, .f32⟩ : BufTy).Contents (Elt Ideal)) (x1 : (⟨S2x1200000, .i32⟩ : BufTy).Contents (Elt Ideal)) (x2 : (⟨S1200000, .i32⟩ : BufTy).Contents (Elt Ideal)) (x4 : (⟨S256x128, .f32⟩ : BufTy).Contents (Elt Ideal)) (x5 : (⟨S256, .f32⟩ : BufTy).Contents (Elt Ideal)) (x6 : (⟨S64x256, .f32⟩ : BufTy).Contents (Elt Ideal)) (x7 : (⟨S64, .f32⟩ : BufTy).Contents (Elt Ideal)) (x8 x9 : (⟨S192x64, .f32⟩ : BufTy).Contents (Elt Ideal)) (x10 x11 : (⟨S192, .f32⟩ : BufTy).Contents (Elt Ideal)) (x12 : (⟨S8, .f32⟩ : BufTy).Contents (Elt Ideal)) (n : Fin 100000) (g : Fin 192) :
    val_main_v153 (F := Ideal) x0 x1 x2 x4 x5 x6 x7 x8 x9 x10 x11 x12 (ix2 n g) = affine (row2 (val_main_v148 (F := Ideal) x0 x1 x2 x4 x5 x6 x7 x8 x9 x10 x11 x12) n) (mat2 x8) (vec1 x10) g :=
  affine192 (val_main_v148 (F := Ideal) x0 x1 x2 x4 x5 x6 x7 x8 x9 x10 x11 x12) x8 x10 n g

/-- The state gates at (n, g). -/
theorem gh3 (x0 : (⟨S100000x128, .f32⟩ : BufTy).Contents (Elt Ideal)) (x1 : (⟨S2x1200000, .i32⟩ : BufTy).Contents (Elt Ideal)) (x2 : (⟨S1200000, .i32⟩ : BufTy).Contents (Elt Ideal)) (x4 : (⟨S256x128, .f32⟩ : BufTy).Contents (Elt Ideal)) (x5 : (⟨S256, .f32⟩ : BufTy).Contents (Elt Ideal)) (x6 : (⟨S64x256, .f32⟩ : BufTy).Contents (Elt Ideal)) (x7 : (⟨S64, .f32⟩ : BufTy).Contents (Elt Ideal)) (x8 x9 : (⟨S192x64, .f32⟩ : BufTy).Contents (Elt Ideal)) (x10 x11 : (⟨S192, .f32⟩ : BufTy).Contents (Elt Ideal)) (x12 : (⟨S8, .f32⟩ : BufTy).Contents (Elt Ideal)) (n : Fin 100000) (g : Fin 192) :
    val_main_v158 (F := Ideal) x0 x1 x2 x4 x5 x6 x7 x8 x9 x10 x11 x12 (ix2 n g) = affine (row2 (val_main_v134 (F := Ideal) x0 x1 x2 x4 x5 x6 x7 x8 x9 x10 x11 x12) n) (mat2 x9) (vec1 x11) g :=
  affine192 (val_main_v134 (F := Ideal) x0 x1 x2 x4 x5 x6 x7 x8 x9 x10 x11 x12) x9 x11 n g

/-- The third new state at (n, q) is the specification's cell on row n of the message array and row n of the state. -/
theorem gru_ref3 (x0 : (⟨S100000x128, .f32⟩ : BufTy).Contents (Elt Ideal)) (x1 : (⟨S2x1200000, .i32⟩ : BufTy).Contents (Elt Ideal)) (x2 : (⟨S1200000, .i32⟩ : BufTy).Contents (Elt Ideal)) (x4 : (⟨S256x128, .f32⟩ : BufTy).Contents (Elt Ideal)) (x5 : (⟨S256, .f32⟩ : BufTy).Contents (Elt Ideal)) (x6 : (⟨S64x256, .f32⟩ : BufTy).Contents (Elt Ideal)) (x7 : (⟨S64, .f32⟩ : BufTy).Contents (Elt Ideal)) (x8 x9 : (⟨S192x64, .f32⟩ : BufTy).Contents (Elt Ideal)) (x10 x11 : (⟨S192, .f32⟩ : BufTy).Contents (Elt Ideal)) (x12 : (⟨S8, .f32⟩ : BufTy).Contents (Elt Ideal)) (n : Fin 100000) (q : Fin 64) :
    val_main_v186 (F := Ideal) x0 x1 x2 x4 x5 x6 x7 x8 x9 x10 x11 x12 (ix2 n q)
      = gruRow (row2 (val_main_v148 (F := Ideal) x0 x1 x2 x4 x5 x6 x7 x8 x9 x10 x11 x12) n) (row2 (val_main_v134 (F := Ideal) x0 x1 x2 x4 x5 x6 x7 x8 x9 x10 x11 x12) n) (mat2 x8) (mat2 x9) (vec1 x10) (vec1 x11) q := by
  have e : val_main_v186 (F := Ideal) x0 x1 x2 x4 x5 x6 x7 x8 x9 x10 x11 x12 = cellHost (val_main_v153 (F := Ideal) x0 x1 x2 x4 x5 x6 x7 x8 x9 x10 x11 x12) (val_main_v158 (F := Ideal) x0 x1 x2 x4 x5 x6 x7 x8 x9 x10 x11 x12) (val_main_v134 (F := Ideal) x0 x1 x2 x4 x5 x6 x7 x8 x9 x10 x11 x12) := rfl
  rw [e, cellHost_apply]
  simp only [gi3, gh3]
  rfl

end Cert.Gnn.Ref

end
-- ==== Proof.LibLinBody.lean ====
/-
  Two readings of what a blocked linear layer's body computes, at the ideal values, for any sizes.

  A body that forms x·Wᵀ transposes the weight first and accumulates the product into the zero array; a change of float
  format on the way is the identity on the extended reals.  So entry (p, q) of the product is the sum over k of
  x(p, k)·W(q, k): a row of x against a ROW of W (`matmulT_eq`).  A one-row bias recast to its own shape and spread over
  the rows reads, at (p, q), the bias at (0, q) (`biasRows_eq`).  The dimension record is any one that contracts the left
  operand's columns with the right operand's rows (the four coordinate facts, which a literal record proves by evaluation).
-/
import proofs.«105062_j57750130262285_1_alg».proof.Proof.LibMatmulIx
import Idealize.ShloMosaic.Lib.ValueLayout
import Idealize.ShloMosaic.Lib.Pipeline.Value

namespace LinBody

open Idealize.ShloMosaic Idealize.ShloMosaic.ValueIdx

variable {a K b : ℕ}

/-- A product with the transposed weight, into zero, the operands cut to the narrow format first: entry (p, q) is row p of
    x against row q of W. -/
theorem matmulT_eq (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : FVec Ideal ⟨2, ![a, K]⟩ .f32) (W : FVec Ideal ⟨2, ![b, K]⟩ .f32)
    (hx : FTy.bf16.bits < FTy.f32.bits) (ht : (⟨2, ![b, K]⟩ : Shape).Transposes [1, 0] ⟨2, ![K, b]⟩) :
    matmul D none (truncf .bf16 x hx) (transpose ⟨2, ![K, b]⟩ [1, 0] (truncf .bf16 W hx) ht)
        (constant (F := Ideal) ⟨2, ![a, b]⟩ .f32 0x00000000#32)
      = fun i => ∑ k : Fin K, x (ix2 (i 0) k) * W (ix2 (i 1) k) := by
  funext i
  obtain ⟨p, q, rfl⟩ : ∃ (p : Fin a) (q : Fin b), i = ix2 p q := ⟨i 0, i 1, eq_ix2 i⟩
  refine (MatmulIx.matmul_zero_ix2 D hr hs hl0 hl1 hr0 hr1 none _ _ p q).trans ?_
  refine Finset.sum_congr rfl fun k _ => ?_
  rw [transpose_ix2_apply]
  rfl

/-- A one-row bias, recast to its own shape, spread over the rows. -/
theorem biasRows_eq (v : FVec Ideal ⟨2, ![1, b]⟩ .f32) (hs : (⟨2, ![1, b]⟩ : Shape).ShapeCasts ⟨2, ![1, b]⟩)
    (hb : (⟨2, ![1, b]⟩ : Shape).Broadcasts ⟨2, ![a, b]⟩) :
    broadcastTo ⟨2, ![a, b]⟩ (shapeCast ⟨2, ![1, b]⟩ v hs) hb = fun i => v (ix2 (0 : Fin 1) (i 1)) := by
  rw [shapeCast_self]
  funext i
  obtain ⟨p, q, rfl⟩ : ∃ (p : Fin a) (q : Fin b), i = ix2 p q := ⟨i 0, i 1, eq_ix2 i⟩
  exact broadcastTo_1b_ab_apply v hb p q

end LinBody
-- ==== Proof.BodyRows.lean ====
/-
  What each body stores at an entry, on the extended reals, as the specification's row functions.

  Every body here works on a block of 5000 rows and treats the rows independently.  A dense step is the product of
  the block with the transposed weight, accumulated into the zero array, plus the one-row bias spread over the rows;
  a change of float format is the identity on the extended reals, so entry (p, q) of a dense step is the affine
  image of row p of the block at q (`dense_apply`).  The input projection is two dense steps with the maximum with
  zero between them, so its entry (p, q) is `projRow` of row p (`proj_pay`).  The recurrent cell forms two dense
  images of width 192, of the message block and of the state block, cuts each into three bands of 64 columns by
  slices at column offsets 0, 64 and 128 — the slice at offset 64·t reads, at (p, q), column 64·t + q
  (`slice0_apply` … `slice2_apply`) — and combines the bands entry by entry: r = σ(i₀ + h₀), z = σ(i₁ + h₁),
  n = tanh(i₂ + r·h₂), result (1 − z)·n + z·h (`cell_apply`).  So its entry (p, q) is `gruRow` of the rows p of the
  message and the state (`gru_pay1`); the second and third applications are the same term (`gru_pay2`, `gru_pay3`).
-/
import proofs.«105062_j57750130262285_1_alg».proof.Proof.Gen.KernelIdeal.Skeleton
import proofs.«105062_j57750130262285_1_alg».proof.Proof.Spec
import proofs.«105062_j57750130262285_1_alg».proof.Proof.LibLinBody

namespace Cert.Gnn.Body

open Idealize.ShloMosaic Idealize.ShloMosaic.ValueIdx Cert.KernelIdeal Cert.KernelIdeal.Gen Cert.Gnn

/-- The word of 1.0 is the number one. -/
theorem one_f32 : Ideal.ofBits .f32 0x3F800000#32 = 1 := by
  simp [Ideal.ofBits, Ideal.ieee, -EReal.coe_mul]; norm_num

variable {a K b : ℕ}

/-- One dense layer of a body at an entry: the product with the transposed weight (into zero, through the narrow
    format) plus the bias spread over the rows is, at (p, q), the affine image of row p of the input at q. -/
theorem dense_apply (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : FVec Ideal ⟨2, ![a, K]⟩ .f32) (W : FVec Ideal ⟨2, ![b, K]⟩ .f32) (v : FVec Ideal ⟨2, ![1, b]⟩ .f32)
    (hx : FTy.bf16.bits < FTy.f32.bits) (ht : (⟨2, ![b, K]⟩ : Shape).Transposes [1, 0] ⟨2, ![K, b]⟩)
    (hc : (⟨2, ![1, b]⟩ : Shape).ShapeCasts ⟨2, ![1, b]⟩) (hb : (⟨2, ![1, b]⟩ : Shape).Broadcasts ⟨2, ![a, b]⟩)
    (p : Fin a) (q : Fin b) :
    addf (matmul D none (truncf .bf16 x hx) (transpose ⟨2, ![K, b]⟩ [1, 0] (truncf .bf16 W hx) ht)
          (constant (F := Ideal) ⟨2, ![a, b]⟩ .f32 0x00000000#32))
        (broadcastTo ⟨2, ![a, b]⟩ (shapeCast ⟨2, ![1, b]⟩ v hc) hb) (ix2 p q)
      = affine (row2 x p) (mat2 W) (rowvec v) q := by
  rw [addf_apply, LinBody.matmulT_eq D hr hs hl0 hl1 hr0 hr1 x W hx ht, LinBody.biasRows_eq v hc hb]
  rfl

/-- The input projection's stored value at (p, q). -/
theorem proj_pay (x : Vec Ideal S5000x128 .f32) (w1 : Vec Ideal S256x128 .f32) (b1 : Vec Ideal S1x256 .f32)
    (w2 : Vec Ideal S64x256 .f32) (b2 : Vec Ideal S1x64 .f32) (p : Fin 5000) (q : Fin 64) :
    k0_pay1 (F := Ideal) x w1 b1 w2 b2 (ix2 p q)
      = projRow (row2 x p) (mat2 w1) (rowvec b1) (mat2 w2) (rowvec b2) q := by
  unfold k0_pay1
  refine (dense_apply dot_S5000x256_S256x64_S5000x64_1_0_0_1_n_n rfl rfl (fun _ _ => rfl) (fun _ _ => rfl)
    (fun _ _ => rfl) (fun _ _ => rfl) _ w2 b2 _ _ _ _ p q).trans ?_
  unfold projRow
  refine congrArg (fun r => affine r (mat2 w2) (rowvec b2) q) (funext fun j => ?_)
  show max (addf _ _ (ix2 p j)) (Ideal.ofBits .f32 0x00000000#32) = _
  rw [dense_apply dot_S5000x128_S128x256_S5000x256_1_0_0_1_n_n rfl rfl (fun _ _ => rfl) (fun _ _ => rfl)
    (fun _ _ => rfl) (fun _ _ => rfl) x w1 b1 _ _ _ _ p j, Ideal.ofBits_zero_f32]

/-- A slice of 64 columns at column offset 0 reads, at (p, q), column q of band 0 … -/
theorem slice0_apply (y : FVec Ideal S5000x192 .f32) (p : Fin 5000) (q : Fin 64) :
    extractStridedSlice S5000x64 ![0, 0] y slices_S5000x192_o0_0_S5000x64 (ix2 p q) = y (ix2 p (band 0 q)) :=
  extractStridedSlice_apply ![0, 0] y slices_S5000x192_o0_0_S5000x64 (ix2 p q) (ix2 p (band 0 q)) (fun a => match a with
    | ⟨0, _⟩ => by show p.val = 0 + p.val; omega
    | ⟨1, _⟩ => by show 64 * 0 + q.val = 0 + q.val; omega)

/-- … at offset 64, column q of band 1 … -/
theorem slice1_apply (y : FVec Ideal S5000x192 .f32) (p : Fin 5000) (q : Fin 64) :
    extractStridedSlice S5000x64 ![0, 64] y slices_S5000x192_o0_64_S5000x64 (ix2 p q) = y (ix2 p (band 1 q)) :=
  extractStridedSlice_apply ![0, 64] y slices_S5000x192_o0_64_S5000x64 (ix2 p q) (ix2 p (band 1 q)) (fun a => match a with
    | ⟨0, _⟩ => by show p.val = 0 + p.val; omega
    | ⟨1, _⟩ => by show 64 * 1 + q.val = 64 + q.val; omega)

/-- … and at offset 128, column q of band 2. -/
theorem slice2_apply (y : FVec Ideal S5000x192 .f32) (p : Fin 5000) (q : Fin 64) :
    extractStridedSlice S5000x64 ![0, 128] y slices_S5000x192_o0_128_S5000x64 (ix2 p q) = y (ix2 p (band 2 q)) :=
  extractStridedSlice_apply ![0, 128] y slices_S5000x192_o0_128_S5000x64 (ix2 p q) (ix2 p (band 2 q)) (fun a => match a with
    | ⟨0, _⟩ => by show p.val = 0 + p.val; omega
    | ⟨1, _⟩ => by show 64 * 2 + q.val = 128 + q.val; omega)

/-- The entrywise arithmetic of the recurrent cell at an entry: with I and H the two affine images of width 192 and h the
    state, the body cuts each image into its three bands, forms r = σ(I₀ + H₀), z = σ(I₁ + H₁), n = tanh(I₂ + r·H₂)
    and stores (1 − z)·n + z·h; every step acts entry by entry, and a band's entry (p, q) is the image's entry
    (p, 64·t + q). -/
theorem cell_apply (I H : FVec Ideal S5000x192 .f32) (h : FVec Ideal S5000x64 .f32) (p : Fin 5000) (q : Fin 64) :
    addf
        (mulf
          (subf (broadcast S5000x64 (Scalar.ofBits (F := Ideal) .f32 0x3F800000#32))
            (logistic (addf (extractStridedSlice S5000x64 ![0, 64] I slices_S5000x192_o0_64_S5000x64)
              (extractStridedSlice S5000x64 ![0, 64] H slices_S5000x192_o0_64_S5000x64))))
          (tanh (addf (extractStridedSlice S5000x64 ![0, 128] I slices_S5000x192_o0_128_S5000x64)
            (mulf
              (logistic (addf (extractStridedSlice S5000x64 ![0, 0] I slices_S5000x192_o0_0_S5000x64)
                (extractStridedSlice S5000x64 ![0, 0] H slices_S5000x192_o0_0_S5000x64)))
              (extractStridedSlice S5000x64 ![0, 128] H slices_S5000x192_o0_128_S5000x64)))))
        (mulf
          (logistic (addf (extractStridedSlice S5000x64 ![0, 64] I slices_S5000x192_o0_64_S5000x64)
            (extractStridedSlice S5000x64 ![0, 64] H slices_S5000x192_o0_64_S5000x64)))
          h)
        (ix2 p q)
      = (1 - Ideal.logistic (I (ix2 p (band 1 q)) + H (ix2 p (band 1 q))))
            * Ideal.tanh (I (ix2 p (band 2 q))
                + Ideal.logistic (I (ix2 p (band 0 q)) + H (ix2 p (band 0 q))) * H (ix2 p (band 2 q)))
          + Ideal.logistic (I (ix2 p (band 1 q)) + H (ix2 p (band 1 q))) * h (ix2 p q) := by
  rw [← slice0_apply I p q, ← slice0_apply H p q, ← slice1_apply I p q, ← slice1_apply H p q, ← slice2_apply I p q,
    ← slice2_apply H p q, ← one_f32]
  rfl

/-- The recurrent cell's stored value at (p, q), first application. -/
theorem gru_pay1 (m h : Vec Ideal S5000x64 .f32) (wih whh : Vec Ideal S192x64 .f32) (bih bhh : Vec Ideal S1x192 .f32)
    (p : Fin 5000) (q : Fin 64) :
    k1_pay1 (F := Ideal) m h wih whh bih bhh (ix2 p q)
      = gruRow (row2 m p) (row2 h p) (mat2 wih) (mat2 whh) (rowvec bih) (rowvec bhh) q := by
  unfold k1_pay1
  refine (cell_apply _ _ _ p q).trans ?_
  have hI : ∀ t : Fin 3, _ = affine (row2 m p) (mat2 wih) (rowvec bih) (band t q) := fun t =>
    (dense_apply dot_S5000x64_S64x192_S5000x192_1_0_0_1_n_n rfl rfl (fun _ _ => rfl) (fun _ _ => rfl)
      (fun _ _ => rfl) (fun _ _ => rfl) (shapeCast S5000x64 m shapeCasts_S5000x64_S5000x64) wih bih bitsLt_bf16_f32
      transposes_S192x64_p1_0_S64x192 shapeCasts_S1x192_S1x192 broadcasts_S1x192_S5000x192 p (band t q)).trans
      (by rw [shapeCast_self])
  have hH : ∀ t : Fin 3, _ = affine (row2 h p) (mat2 whh) (rowvec bhh) (band t q) := fun t =>
    (dense_apply dot_S5000x64_S64x192_S5000x192_1_0_0_1_n_n rfl rfl (fun _ _ => rfl) (fun _ _ => rfl)
      (fun _ _ => rfl) (fun _ _ => rfl) (shapeCast S5000x64 h shapeCasts_S5000x64_S5000x64) whh bhh bitsLt_bf16_f32
      transposes_S192x64_p1_0_S64x192 shapeCasts_S1x192_S1x192 broadcasts_S1x192_S5000x192 p (band t q)).trans
      (by rw [shapeCast_self])
  rw [hI 0, hI 1, hI 2, hH 0, hH 1, hH 2, shapeCast_self]
  rfl

/-- The second application of the cell is the same term as the first … -/
theorem k2_eq : @k2_pay1 = @k1_pay1 := rfl
/-- … and so is the third. -/
theorem k3_eq : @k3_pay1 = @k1_pay1 := rfl

/-- The recurrent cell's stored value at (p, q), second application. -/
theorem gru_pay2 (m h : Vec Ideal S5000x64 .f32) (wih whh : Vec Ideal S192x64 .f32) (bih bhh : Vec Ideal S1x192 .f32)
    (p : Fin 5000) (q : Fin 64) :
    k2_pay1 (F := Ideal) m h wih whh bih bhh (ix2 p q)
      = gruRow (row2 m p) (row2 h p) (mat2 wih) (mat2 whh) (rowvec bih) (rowvec bhh) q := by
  rw [k2_eq]
  exact gru_pay1 m h wih whh bih bhh p q

/-- The recurrent cell's stored value at (p, q), third application. -/
theorem gru_pay3 (m h : Vec Ideal S5000x64 .f32) (wih whh : Vec Ideal S192x64 .f32) (bih bhh : Vec Ideal S1x192 .f32)
    (p : Fin 5000) (q : Fin 64) :
    k3_pay1 (F := Ideal) m h wih whh bih bhh (ix2 p q)
      = gruRow (row2 m p) (row2 h p) (mat2 wih) (mat2 whh) (rowvec bih) (rowvec bhh) q := by
  rw [k3_eq]
  exact gru_pay1 m h wih whh bih bhh p q

end Cert.Gnn.Body
-- ==== Proof.Arr0.lean ====
/-
  The array the first tiled region leaves: the input projection of the whole input array, row by row.

  The region runs its body at 20 grid points.  At point t the body reads rows 5000·t … 5000·t + 4999 of the input array
  (one block of the first window), the two weight matrices and the two one-row biases whole (windows whose single block
  is the array), and writes the block of rows 5000·t … 5000·t + 4999 of the result.  Entry (p, q) of what it writes is
  the projection of row p of the block it read, so it is the projection of row 5000·t + p of the input array: block t of
  ONE function G of the arrays as the region finds them.  Row r lies in the block of point r / 5000, so the 20 blocks
  cover the array, and the array ends holding G.
-/
import proofs.«105062_j57750130262285_1_alg».proof.Proof.Gen.KernelIdeal.Frame
import proofs.«105062_j57750130262285_1_alg».proof.Proof.Spec
import proofs.«105062_j57750130262285_1_alg».proof.Proof.BodyRows
import Idealize.ShloMosaic.Lib.Pipeline.Value

set_option maxRecDepth 16384

noncomputable section

namespace Cert.Gnn.Arr0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gnn

variable (V : (c : Dev nD) → (b : Ref sig .tc) → Buf (Elt Ideal) ((c : Thread nD τ).loc b))

theorem hz : (![0, 0] : Fin 2 → Nat) = fun _ => 0 := funext fun a => by fin_cases a <;> rfl

/-- The projected array: row n of the result is the projection of row n of the input. -/
def G (c : Dev nD) : S100000x64.Idx → EReal := fun i =>
  projRow (row2 (a := 100000) (b := 128) (V c main_arg0) ⟨(i 0).val, (i 0).isLt⟩) (mat2 (a := 256) (b := 128) (V c main_arg4))
    (rowvec (b := 256) (V c main_v4)) (mat2 (a := 64) (b := 256) (V c main_arg6)) (rowvec (b := 64) (V c main_v5)) ⟨(i 1).val, (i 1).isLt⟩

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of point t's block is row 5000·t + p of the array. -/
def rowOf (t : Fin cfg0.N) (p : Fin 5000) : Fin 100000 :=
  ⟨t.val * 5000 + p.val, by have h : t.val < 20 := N_0 ▸ t.isLt; have := p.isLt; omega⟩

/-- The input window's block at point t reads the input array's rows 5000·t … 5000·t + 4999. -/
theorem blk0_0 (c : Dev nD) (t : Fin cfg0.N) (p : Fin 5000) (k : Fin 128) :
    iblk0 V c 0 t (ix2 p k) = V c main_arg0 (ix2 (rowOf t p) k) := by
  obtain ⟨e00, e01, -⟩ := idx_facts t
  show V c main_arg0 (((cfg0.win 0).blk t).view.emb (ix2 p k)) = _
  refine congrArg _ ?_
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

/-- A window whose one block is its whole array reads the array. -/
theorem blk0_1 (c : Dev nD) (t : Fin cfg0.N) (y : S256x128.Idx) : iblk0 V c 1 t y = V c main_arg4 y := by
  obtain ⟨-, -, e0, e1, -⟩ := idx_facts t
  show V c main_arg4 (((cfg0.win 1).blk t).view.emb y) = _
  refine congrArg _ ?_
  funext a; apply Fin.ext
  match a with
  | ⟨0, _⟩ => show win0_1.index t (0 : Fin 2) * 256 + 1 * (y 0).val = (y 0).val; omega
  | ⟨1, _⟩ => show win0_1.index t (1 : Fin 2) * 128 + 1 * (y 1).val = (y 1).val; omega
theorem blk0_2 (c : Dev nD) (t : Fin cfg0.N) (y : S1x256.Idx) : iblk0 V c 2 t y = V c main_v4 y := by
  obtain ⟨-, -, -, -, e0, e1, -⟩ := idx_facts t
  show V c main_v4 (((cfg0.win 2).blk t).view.emb y) = _
  refine congrArg _ ?_
  funext a; apply Fin.ext
  match a with
  | ⟨0, _⟩ => show win0_2.index t (0 : Fin 2) * 1 + 1 * (y 0).val = (y 0).val; omega
  | ⟨1, _⟩ => show win0_2.index t (1 : Fin 2) * 256 + 1 * (y 1).val = (y 1).val; omega
theorem blk0_3 (c : Dev nD) (t : Fin cfg0.N) (y : S64x256.Idx) : iblk0 V c 3 t y = V c main_arg6 y := by
  obtain ⟨-, -, -, -, -, -, e0, e1, -⟩ := idx_facts t
  show V c main_arg6 (((cfg0.win 3).blk t).view.emb y) = _
  refine congrArg _ ?_
  funext a; apply Fin.ext
  match a with
  | ⟨0, _⟩ => show win0_3.index t (0 : Fin 2) * 64 + 1 * (y 0).val = (y 0).val; omega
  | ⟨1, _⟩ => show win0_3.index t (1 : Fin 2) * 256 + 1 * (y 1).val = (y 1).val; omega
theorem blk0_4 (c : Dev nD) (t : Fin cfg0.N) (y : S1x64.Idx) : iblk0 V c 4 t y = V c main_v5 y := by
  obtain ⟨-, -, -, -, -, -, -, -, e0, e1, -⟩ := idx_facts t
  show V c main_v5 (((cfg0.win 4).blk t).view.emb y) = _
  refine congrArg _ ?_
  funext a; apply Fin.ext
  match a with
  | ⟨0, _⟩ => show win0_4.index t (0 : Fin 2) * 1 + 1 * (y 0).val = (y 0).val; omega
  | ⟨1, _⟩ => show win0_4.index t (1 : Fin 2) * 64 + 1 * (y 1).val = (y 1).val; omega

theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S256x128) hz, View.ld_unit_zero (S := S1x256) hz,
    View.ld_unit_zero (S := S64x256) hz, View.ld_unit_zero (S := S1x64) hz]
  funext (y : S5000x64.Idx)
  obtain ⟨p, q, rfl⟩ : ∃ (p : Fin 5000) (q : Fin 64), y = ix2 p q := ⟨y 0, y 1, eq_ix2 y⟩
  show k0_pay1 (F := Ideal) (iblk0 V c 0 t) (iblk0 V c 1 t) (iblk0 V c 2 t) (iblk0 V c 3 t) (iblk0 V c 4 t) (ix2 p q)
    = G V c (((cfg0.win 5).blk t).view.emb (ix2 p q))
  refine (Body.proj_pay _ _ _ _ _ p q).trans ?_
  obtain ⟨-, -, -, -, -, -, -, -, -, -, e50, e51⟩ := idx_facts t
  have hrow : (⟨((((cfg0.win 5).blk t).view.emb (ix2 p q)) 0).val, ((((cfg0.win 5).blk t).view.emb (ix2 p q)) 0).isLt⟩ : Fin 100000) = rowOf t p :=
    Fin.ext (by show win0_5.index t (0 : Fin 2) * 5000 + 1 * p.val = t.val * 5000 + p.val; omega)
  have hcol : (⟨((((cfg0.win 5).blk t).view.emb (ix2 p q)) 1).val, ((((cfg0.win 5).blk t).view.emb (ix2 p q)) 1).isLt⟩ : Fin 64) = q :=
    Fin.ext (by show win0_5.index t (1 : Fin 2) * 64 + 1 * q.val = q.val; omega)
  unfold G
  rw [hrow, hcol]
  show projRow (fun k => iblk0 V c 0 t (ix2 p k)) (fun g k => iblk0 V c 1 t (ix2 g k)) (fun g => iblk0 V c 2 t (ix2 (0 : Fin 1) g))
      (fun g k => iblk0 V c 3 t (ix2 g k)) (fun g => iblk0 V c 4 t (ix2 (0 : Fin 1) g)) q
    = projRow (fun k => V c main_arg0 (ix2 (rowOf t p) k)) (fun g k => V c main_arg4 (ix2 g k)) (fun g => V c main_v4 (ix2 (0 : Fin 1) g))
      (fun g k => V c main_arg6 (ix2 g k)) (fun g => V c main_v5 (ix2 (0 : Fin 1) g)) q
  simp only [blk0_0 V c t, blk0_1 V c t, blk0_2 V c t, blk0_3 V c t, blk0_4 V c t]

/-- An index of the array is in point t's block iff each coordinate is in the block's range on its axis. -/
theorem mem_blk (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v6).slice (win0_5.rect t)).set ↔ _
  rw [View.set_slice_whole, Rect.mem_set_unit]
  exact Iff.rfl

/-- Row r lies in the block of point r / 5000. -/
theorem cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  have hlt : (i 0).val / 5000 < cfg0.N := by rw [hN]; omega
  obtain ⟨-, -, -, -, -, -, -, -, -, -, e50, e51⟩ := idx_facts ⟨(i 0).val / 5000, hlt⟩
  refine ⟨⟨(i 0).val / 5000, hlt⟩, flush0_5 _, ?_⟩
  rw [mem_blk]
  intro a
  match a with
  | ⟨0, _⟩ =>
    show win0_5.index ⟨(i 0).val / 5000, hlt⟩ (0 : Fin 2) * 5000 ≤ (i 0).val ∧ (i 0).val < win0_5.index ⟨(i 0).val / 5000, hlt⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, hlt⟩ (1 : Fin 2) * 64 ≤ (i 1).val ∧ (i 1).val < win0_5.index ⟨(i 0).val / 5000, hlt⟩ (1 : Fin 2) * 64 + 64
    rw [e51]; omega

/-- The array after the region: the projection of the input array, row by row. -/
theorem final (c : Dev nD) : (dat0 V c).arrAt 5 cfg0.N = G V c :=
  (dat0 V c).arrAt_eq_of_cover 5 (G V c) (fun t _ => flushed_eq V c t) (cover)

end Cert.Gnn.Arr0

end
-- ==== Proof.Arr1.lean ====
/-
  The array the first recurrent region leaves: the cell applied to the message array and the state array, row by row.

  The region runs its body at 20 grid points.  At point t the body reads rows 5000·t … 5000·t + 4999 of the message
  array and the same rows of the state array (one block of each of the first two windows), the two weight matrices and
  the two one-row biases whole (windows whose single block is the array), and writes the block of rows
  5000·t … 5000·t + 4999 of the new state.  Entry (p, q) of what it writes is the cell applied to rows p of the two
  blocks it read, so it is the cell applied to rows 5000·t + p of the two arrays: block t of ONE function G of the
  arrays as the region finds them.  Row r lies in the block of point r / 5000, so the 20 blocks cover the array, and
  the array ends holding G.
-/
import proofs.«105062_j57750130262285_1_alg».proof.Proof.Gen.KernelIdeal.Frame
import proofs.«105062_j57750130262285_1_alg».proof.Proof.Spec
import proofs.«105062_j57750130262285_1_alg».proof.Proof.BodyRows
import Idealize.ShloMosaic.Lib.Pipeline.Value

set_option maxRecDepth 16384

noncomputable section

namespace Cert.Gnn.Arr1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gnn

variable (V : (c : Dev nD) → (b : Ref sig .tc) → Buf (Elt Ideal) ((c : Thread nD τ).loc b))

theorem hz : (![0, 0] : Fin 2 → Nat) = fun _ => 0 := funext fun a => by fin_cases a <;> rfl

/-- The new state array: row n of the result is the cell applied to row n of the message array and row n of the
    state array. -/
def G (c : Dev nD) : S100000x64.Idx → EReal := fun i =>
  gruRow (row2 (a := 100000) (b := 64) (V c main_v36) ⟨(i 0).val, (i 0).isLt⟩) (row2 (a := 100000) (b := 64) (V c main_v6) ⟨(i 0).val, (i 0).isLt⟩) (mat2 (a := 192) (b := 64) (V c main_arg8)) (mat2 (a := 192) (b := 64) (V c main_arg9)) (rowvec (b := 192) (V c main_v37)) (rowvec (b := 192) (V c main_v38)) ⟨(i 1).val, (i 1).isLt⟩

theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row p of point t's block is row 5000·t + p of the array. -/
def rowOf (t : Fin cfg1.N) (p : Fin 5000) : Fin 100000 :=
  ⟨t.val * 5000 + p.val, by have h : t.val < 20 := N_1 ▸ t.isLt; have := p.isLt; omega⟩

/-- The message window's block at point t reads the message array's rows 5000·t … 5000·t + 4999. -/
theorem blk1_0 (c : Dev nD) (t : Fin cfg1.N) (p : Fin 5000) (k : Fin 64) :
    iblk1 V c 0 t (ix2 p k) = V c main_v36 (ix2 (rowOf t p) k) := by
  obtain ⟨e0, e1, -⟩ := idx_facts t
  show V c main_v36 (((cfg1.win 0).blk t).view.emb (ix2 p k)) = _
  refine congrArg _ ?_
  funext a; apply Fin.ext
  match a with
  | ⟨0, _⟩ => show win1_0.index t (0 : Fin 2) * 5000 + 1 * p.val = t.val * 5000 + p.val; omega
  | ⟨1, _⟩ => show win1_0.index t (1 : Fin 2) * 64 + 1 * k.val = k.val; omega

/-- The state window's block at point t reads the same rows of the state array. -/
theorem blk1_1 (c : Dev nD) (t : Fin cfg1.N) (p : Fin 5000) (k : Fin 64) :
    iblk1 V c 1 t (ix2 p k) = V c main_v6 (ix2 (rowOf t p) k) := by
  obtain ⟨-, -, e0, e1, -⟩ := idx_facts t
  show V c main_v6 (((cfg1.win 1).blk t).view.emb (ix2 p k)) = _
  refine congrArg _ ?_
  funext a; apply Fin.ext
  match a with
  | ⟨0, _⟩ => show win1_1.index t (0 : Fin 2) * 5000 + 1 * p.val = t.val * 5000 + p.val; omega
  | ⟨1, _⟩ => show win1_1.index t (1 : Fin 2) * 64 + 1 * k.val = k.val; omega

/-- A window whose one block is its whole array reads the array. -/
theorem blk1_2 (c : Dev nD) (t : Fin cfg1.N) (y : S192x64.Idx) : iblk1 V c 2 t y = V c main_arg8 y := by
  obtain ⟨-, -, -, -, e0, e1, -⟩ := idx_facts t
  show V c main_arg8 (((cfg1.win 2).blk t).view.emb y) = _
  refine congrArg _ ?_
  funext a; apply Fin.ext
  match a with
  | ⟨0, _⟩ => show win1_2.index t (0 : Fin 2) * 192 + 1 * (y 0).val = (y 0).val; omega
  | ⟨1, _⟩ => show win1_2.index t (1 : Fin 2) * 64 + 1 * (y 1).val = (y 1).val; omega
theorem blk1_3 (c : Dev nD) (t : Fin cfg1.N) (y : S192x64.Idx) : iblk1 V c 3 t y = V c main_arg9 y := by
  obtain ⟨-, -, -, -, -, -, e0, e1, -⟩ := idx_facts t
  show V c main_arg9 (((cfg1.win 3).blk t).view.emb y) = _
  refine congrArg _ ?_
  funext a; apply Fin.ext
  match a with
  | ⟨0, _⟩ => show win1_3.index t (0 : Fin 2) * 192 + 1 * (y 0).val = (y 0).val; omega
  | ⟨1, _⟩ => show win1_3.index t (1 : Fin 2) * 64 + 1 * (y 1).val = (y 1).val; omega
theorem blk1_4 (c : Dev nD) (t : Fin cfg1.N) (y : S1x192.Idx) : iblk1 V c 4 t y = V c main_v37 y := by
  obtain ⟨-, -, -, -, -, -, -, -, e0, e1, -⟩ := idx_facts t
  show V c main_v37 (((cfg1.win 4).blk t).view.emb y) = _
  refine congrArg _ ?_
  funext a; apply Fin.ext
  match a with
  | ⟨0, _⟩ => show win1_4.index t (0 : Fin 2) * 1 + 1 * (y 0).val = (y 0).val; omega
  | ⟨1, _⟩ => show win1_4.index t (1 : Fin 2) * 192 + 1 * (y 1).val = (y 1).val; omega
theorem blk1_5 (c : Dev nD) (t : Fin cfg1.N) (y : S1x192.Idx) : iblk1 V c 5 t y = V c main_v38 y := by
  obtain ⟨-, -, -, -, -, -, -, -, -, -, e0, e1, -⟩ := idx_facts t
  show V c main_v38 (((cfg1.win 5).blk t).view.emb y) = _
  refine congrArg _ ?_
  funext a; apply Fin.ext
  match a with
  | ⟨0, _⟩ => show win1_5.index t (0 : Fin 2) * 1 + 1 * (y 0).val = (y 0).val; omega
  | ⟨1, _⟩ => show win1_5.index t (1 : Fin 2) * 192 + 1 * (y 1).val = (y 1).val; omega

/-- What point t writes back is block t of G: entry (p, q) of the body's result is the cell applied to rows p of the
    two blocks it read, which are rows 5000·t + p of the two arrays. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S5000x64) hz, View.ld_unit_zero (S := S192x64) hz, View.ld_unit_zero (S := S1x192) hz]
  funext (y : S5000x64.Idx)
  obtain ⟨p, q, rfl⟩ : ∃ (p : Fin 5000) (q : Fin 64), y = ix2 p q := ⟨y 0, y 1, eq_ix2 y⟩
  show k1_pay1 (F := Ideal) (iblk1 V c 0 t) (iblk1 V c 1 t) (iblk1 V c 2 t) (iblk1 V c 3 t) (iblk1 V c 4 t) (iblk1 V c 5 t) (ix2 p q)
    = G V c (((cfg1.win 6).blk t).view.emb (ix2 p q))
  refine (Body.gru_pay1 _ _ _ _ _ _ p q).trans ?_
  obtain ⟨-, -, -, -, -, -, -, -, -, -, -, -, e60, e61⟩ := idx_facts t
  have hrow : (⟨((((cfg1.win 6).blk t).view.emb (ix2 p q)) 0).val, ((((cfg1.win 6).blk t).view.emb (ix2 p q)) 0).isLt⟩ : Fin 100000) = rowOf t p :=
    Fin.ext (by show win1_6.index t (0 : Fin 2) * 5000 + 1 * p.val = t.val * 5000 + p.val; omega)
  have hcol : (⟨((((cfg1.win 6).blk t).view.emb (ix2 p q)) 1).val, ((((cfg1.win 6).blk t).view.emb (ix2 p q)) 1).isLt⟩ : Fin 64) = q :=
    Fin.ext (by show win1_6.index t (1 : Fin 2) * 64 + 1 * q.val = q.val; omega)
  unfold G
  rw [hrow, hcol]
  show gruRow (fun k => iblk1 V c 0 t (ix2 p k)) (fun k => iblk1 V c 1 t (ix2 p k)) (fun g k => iblk1 V c 2 t (ix2 g k))
      (fun g k => iblk1 V c 3 t (ix2 g k)) (fun g => iblk1 V c 4 t (ix2 (0 : Fin 1) g)) (fun g => iblk1 V c 5 t (ix2 (0 : Fin 1) g)) q
    = gruRow (fun k => V c main_v36 (ix2 (rowOf t p) k)) (fun k => V c main_v6 (ix2 (rowOf t p) k)) (fun g k => V c main_arg8 (ix2 g k))
      (fun g k => V c main_arg9 (ix2 g k)) (fun g => V c main_v37 (ix2 (0 : Fin 1) g)) (fun g => V c main_v38 (ix2 (0 : Fin 1) g)) q
  simp only [blk1_0 V c t, blk1_1 V c t, blk1_2 V c t, blk1_3 V c t, blk1_4 V c t, blk1_5 V c t]

/-- An index of the array is in point t's block iff each coordinate is in the block's range on its axis. -/
theorem mem_blk (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v39).slice (win1_6.rect t)).set ↔ _
  rw [View.set_slice_whole, Rect.mem_set_unit]
  exact Iff.rfl

/-- Row r lies in the block of point r / 5000. -/
theorem cover (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 20 := N_1
  have hlt : (i 0).val / 5000 < cfg1.N := by rw [hN]; omega
  obtain ⟨-, -, -, -, -, -, -, -, -, -, -, -, e60, e61⟩ := idx_facts ⟨(i 0).val / 5000, hlt⟩
  refine ⟨⟨(i 0).val / 5000, hlt⟩, flush1_6 _, ?_⟩
  rw [mem_blk]
  intro a
  match a with
  | ⟨0, _⟩ =>
    show win1_6.index ⟨(i 0).val / 5000, hlt⟩ (0 : Fin 2) * 5000 ≤ (i 0).val ∧ (i 0).val < win1_6.index ⟨(i 0).val / 5000, hlt⟩ (0 : Fin 2) * 5000 + 5000
    rw [e60]; show (i 0).val / 5000 * 5000 ≤ (i 0).val ∧ (i 0).val < (i 0).val / 5000 * 5000 + 5000; omega
  | ⟨1, _⟩ =>
    show win1_6.index ⟨(i 0).val / 5000, hlt⟩ (1 : Fin 2) * 64 ≤ (i 1).val ∧ (i 1).val < win1_6.index ⟨(i 0).val / 5000, hlt⟩ (1 : Fin 2) * 64 + 64
    rw [e61]; omega

/-- The array after the region: the cell applied to the message array and the state array, row by row. -/
theorem final (c : Dev nD) : (dat1 V c).arrAt 6 cfg1.N = G V c :=
  (dat1 V c).arrAt_eq_of_cover 6 (G V c) (fun t _ => flushed_eq V c t) (cover)

end Cert.Gnn.Arr1

end
-- ==== Proof.Arr2.lean ====
/-
  The array the second recurrent region leaves: the cell applied to the message array and the state array, row by row.

  Its state array is the one the first recurrent region left, its message array a new one; the weights are the same.  The region runs its body at 20 grid points.  At point t the body
  reads rows 5000·t … 5000·t + 4999 of the message array and the same rows of the state array (one block of each of the
  first two windows), the two weight matrices and the two one-row biases whole (windows whose single block is the
  array), and writes the block of rows 5000·t … 5000·t + 4999 of the new state.  Entry (p, q) of what it writes is the
  cell applied to rows p of the two blocks it read, so it is the cell applied to rows 5000·t + p of the two arrays:
  block t of ONE function G of the arrays as the region finds them.  Row r lies in the block of point r / 5000, so the
  20 blocks cover the array, and the array ends holding G.
-/
import proofs.«105062_j57750130262285_1_alg».proof.Proof.Gen.KernelIdeal.Frame
import proofs.«105062_j57750130262285_1_alg».proof.Proof.Spec
import proofs.«105062_j57750130262285_1_alg».proof.Proof.BodyRows
import Idealize.ShloMosaic.Lib.Pipeline.Value

set_option maxRecDepth 16384

noncomputable section

namespace Cert.Gnn.Arr2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gnn

variable (V : (c : Dev nD) → (b : Ref sig .tc) → Buf (Elt Ideal) ((c : Thread nD τ).loc b))

theorem hz : (![0, 0] : Fin 2 → Nat) = fun _ => 0 := funext fun a => by fin_cases a <;> rfl

/-- The new state array: row n of the result is the cell applied to row n of the message array and row n of the
    state array. -/
def G (c : Dev nD) : S100000x64.Idx → EReal := fun i =>
  gruRow (row2 (a := 100000) (b := 64) (V c main_v53) ⟨(i 0).val, (i 0).isLt⟩) (row2 (a := 100000) (b := 64) (V c main_v39) ⟨(i 0).val, (i 0).isLt⟩) (mat2 (a := 192) (b := 64) (V c main_arg8)) (mat2 (a := 192) (b := 64) (V c main_arg9)) (rowvec (b := 192) (V c main_v54)) (rowvec (b := 192) (V c main_v55)) ⟨(i 1).val, (i 1).isLt⟩

theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Row p of point t's block is row 5000·t + p of the array. -/
def rowOf (t : Fin cfg2.N) (p : Fin 5000) : Fin 100000 :=
  ⟨t.val * 5000 + p.val, by have h : t.val < 20 := N_2 ▸ t.isLt; have := p.isLt; omega⟩

/-- The message window's block at point t reads the message array's rows 5000·t … 5000·t + 4999. -/
theorem blk2_0 (c : Dev nD) (t : Fin cfg2.N) (p : Fin 5000) (k : Fin 64) :
    iblk2 V c 0 t (ix2 p k) = V c main_v53 (ix2 (rowOf t p) k) := by
  obtain ⟨e0, e1, -⟩ := idx_facts t
  show V c main_v53 (((cfg2.win 0).blk t).view.emb (ix2 p k)) = _
  refine congrArg _ ?_
  funext a; apply Fin.ext
  match a with
  | ⟨0, _⟩ => show win2_0.index t (0 : Fin 2) * 5000 + 1 * p.val = t.val * 5000 + p.val; omega
  | ⟨1, _⟩ => show win2_0.index t (1 : Fin 2) * 64 + 1 * k.val = k.val; omega

/-- The state window's block at point t reads the same rows of the state array. -/
theorem blk2_1 (c : Dev nD) (t : Fin cfg2.N) (p : Fin 5000) (k : Fin 64) :
    iblk2 V c 1 t (ix2 p k) = V c main_v39 (ix2 (rowOf t p) k) := by
  obtain ⟨-, -, e0, e1, -⟩ := idx_facts t
  show V c main_v39 (((cfg2.win 1).blk t).view.emb (ix2 p k)) = _
  refine congrArg _ ?_
  funext a; apply Fin.ext
  match a with
  | ⟨0, _⟩ => show win2_1.index t (0 : Fin 2) * 5000 + 1 * p.val = t.val * 5000 + p.val; omega
  | ⟨1, _⟩ => show win2_1.index t (1 : Fin 2) * 64 + 1 * k.val = k.val; omega

/-- A window whose one block is its whole array reads the array. -/
theorem blk2_2 (c : Dev nD) (t : Fin cfg2.N) (y : S192x64.Idx) : iblk2 V c 2 t y = V c main_arg8 y := by
  obtain ⟨-, -, -, -, e0, e1, -⟩ := idx_facts t
  show V c main_arg8 (((cfg2.win 2).blk t).view.emb y) = _
  refine congrArg _ ?_
  funext a; apply Fin.ext
  match a with
  | ⟨0, _⟩ => show win2_2.index t (0 : Fin 2) * 192 + 1 * (y 0).val = (y 0).val; omega
  | ⟨1, _⟩ => show win2_2.index t (1 : Fin 2) * 64 + 1 * (y 1).val = (y 1).val; omega
theorem blk2_3 (c : Dev nD) (t : Fin cfg2.N) (y : S192x64.Idx) : iblk2 V c 3 t y = V c main_arg9 y := by
  obtain ⟨-, -, -, -, -, -, e0, e1, -⟩ := idx_facts t
  show V c main_arg9 (((cfg2.win 3).blk t).view.emb y) = _
  refine congrArg _ ?_
  funext a; apply Fin.ext
  match a with
  | ⟨0, _⟩ => show win2_3.index t (0 : Fin 2) * 192 + 1 * (y 0).val = (y 0).val; omega
  | ⟨1, _⟩ => show win2_3.index t (1 : Fin 2) * 64 + 1 * (y 1).val = (y 1).val; omega
theorem blk2_4 (c : Dev nD) (t : Fin cfg2.N) (y : S1x192.Idx) : iblk2 V c 4 t y = V c main_v54 y := by
  obtain ⟨-, -, -, -, -, -, -, -, e0, e1, -⟩ := idx_facts t
  show V c main_v54 (((cfg2.win 4).blk t).view.emb y) = _
  refine congrArg _ ?_
  funext a; apply Fin.ext
  match a with
  | ⟨0, _⟩ => show win2_4.index t (0 : Fin 2) * 1 + 1 * (y 0).val = (y 0).val; omega
  | ⟨1, _⟩ => show win2_4.index t (1 : Fin 2) * 192 + 1 * (y 1).val = (y 1).val; omega
theorem blk2_5 (c : Dev nD) (t : Fin cfg2.N) (y : S1x192.Idx) : iblk2 V c 5 t y = V c main_v55 y := by
  obtain ⟨-, -, -, -, -, -, -, -, -, -, e0, e1, -⟩ := idx_facts t
  show V c main_v55 (((cfg2.win 5).blk t).view.emb y) = _
  refine congrArg _ ?_
  funext a; apply Fin.ext
  match a with
  | ⟨0, _⟩ => show win2_5.index t (0 : Fin 2) * 1 + 1 * (y 0).val = (y 0).val; omega
  | ⟨1, _⟩ => show win2_5.index t (1 : Fin 2) * 192 + 1 * (y 1).val = (y 1).val; omega

/-- What point t writes back is block t of G: entry (p, q) of the body's result is the cell applied to rows p of the
    two blocks it read, which are rows 5000·t + p of the two arrays. -/
theorem flushed_eq (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6]
  unfold out2_6
  rw [View.canon_unit_zero hz]
  simp only [View.ld_unit_zero (S := S5000x64) hz, View.ld_unit_zero (S := S192x64) hz, View.ld_unit_zero (S := S1x192) hz]
  funext (y : S5000x64.Idx)
  obtain ⟨p, q, rfl⟩ : ∃ (p : Fin 5000) (q : Fin 64), y = ix2 p q := ⟨y 0, y 1, eq_ix2 y⟩
  show k2_pay1 (F := Ideal) (iblk2 V c 0 t) (iblk2 V c 1 t) (iblk2 V c 2 t) (iblk2 V c 3 t) (iblk2 V c 4 t) (iblk2 V c 5 t) (ix2 p q)
    = G V c (((cfg2.win 6).blk t).view.emb (ix2 p q))
  refine (Body.gru_pay2 _ _ _ _ _ _ p q).trans ?_
  obtain ⟨-, -, -, -, -, -, -, -, -, -, -, -, e60, e61⟩ := idx_facts t
  have hrow : (⟨((((cfg2.win 6).blk t).view.emb (ix2 p q)) 0).val, ((((cfg2.win 6).blk t).view.emb (ix2 p q)) 0).isLt⟩ : Fin 100000) = rowOf t p :=
    Fin.ext (by show win2_6.index t (0 : Fin 2) * 5000 + 1 * p.val = t.val * 5000 + p.val; omega)
  have hcol : (⟨((((cfg2.win 6).blk t).view.emb (ix2 p q)) 1).val, ((((cfg2.win 6).blk t).view.emb (ix2 p q)) 1).isLt⟩ : Fin 64) = q :=
    Fin.ext (by show win2_6.index t (1 : Fin 2) * 64 + 1 * q.val = q.val; omega)
  unfold G
  rw [hrow, hcol]
  show gruRow (fun k => iblk2 V c 0 t (ix2 p k)) (fun k => iblk2 V c 1 t (ix2 p k)) (fun g k => iblk2 V c 2 t (ix2 g k))
      (fun g k => iblk2 V c 3 t (ix2 g k)) (fun g => iblk2 V c 4 t (ix2 (0 : Fin 1) g)) (fun g => iblk2 V c 5 t (ix2 (0 : Fin 1) g)) q
    = gruRow (fun k => V c main_v53 (ix2 (rowOf t p) k)) (fun k => V c main_v39 (ix2 (rowOf t p) k)) (fun g k => V c main_arg8 (ix2 g k))
      (fun g k => V c main_arg9 (ix2 g k)) (fun g => V c main_v54 (ix2 (0 : Fin 1) g)) (fun g => V c main_v55 (ix2 (0 : Fin 1) g)) q
  simp only [blk2_0 V c t, blk2_1 V c t, blk2_2 V c t, blk2_3 V c t, blk2_4 V c t, blk2_5 V c t]

/-- An index of the array is in point t's block iff each coordinate is in the block's range on its axis. -/
theorem mem_blk (t : Fin cfg2.N) (i : S100000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v56).slice (win2_6.rect t)).set ↔ _
  rw [View.set_slice_whole, Rect.mem_set_unit]
  exact Iff.rfl

/-- Row r lies in the block of point r / 5000. -/
theorem cover (i : S100000x64.Idx) : ∃ t : Fin cfg2.N, (cfg2.win 6).flush t = true ∧ i ∈ ((cfg2.win 6).blk t).view.set := by
  have hi0 : (i 0).val < 100000 := (i 0).isLt
  have hi1 : (i 1).val < 64 := (i 1).isLt
  have hN : cfg2.N = 20 := N_2
  have hlt : (i 0).val / 5000 < cfg2.N := by rw [hN]; omega
  obtain ⟨-, -, -, -, -, -, -, -, -, -, -, -, e60, e61⟩ := idx_facts ⟨(i 0).val / 5000, hlt⟩
  refine ⟨⟨(i 0).val / 5000, hlt⟩, flush2_6 _, ?_⟩
  rw [mem_blk]
  intro a
  match a with
  | ⟨0, _⟩ =>
    show win2_6.index ⟨(i 0).val / 5000, hlt⟩ (0 : Fin 2) * 5000 ≤ (i 0).val ∧ (i 0).val < win2_6.index ⟨(i 0).val / 5000, hlt⟩ (0 : Fin 2) * 5000 + 5000
    rw [e60]; show (i 0).val / 5000 * 5000 ≤ (i 0).val ∧ (i 0).val < (i 0).val / 5000 * 5000 + 5000; omega
  | ⟨1, _⟩ =>
    show win2_6.index ⟨(i 0).val / 5000, hlt⟩ (1 : Fin 2) * 64 ≤ (i 1).val ∧ (i 1).val < win2_6.index ⟨(i 0).val / 5000, hlt⟩ (1 : Fin 2) * 64 + 64
    rw [e61]; omega

/-- The array after the region: the cell applied to the message array and the state array, row by row. -/
theorem final (c : Dev nD) : (dat2 V c).arrAt 6 cfg2.N = G V c :=
  (dat2 V c).arrAt_eq_of_cover 6 (G V c) (fun t _ => flushed_eq V c t) (cover)

end Cert.Gnn.Arr2

end
-- ==== Proof.Arr3.lean ====
/-
  The array the third recurrent region leaves: the cell applied to the message array and the state array, row by row.

  Its state array is the one the second recurrent region left, its message array a new one; the weights are the same.  The region runs its body at 20 grid points.  At point t the body
  reads rows 5000·t … 5000·t + 4999 of the message array and the same rows of the state array (one block of each of the
  first two windows), the two weight matrices and the two one-row biases whole (windows whose single block is the
  array), and writes the block of rows 5000·t … 5000·t + 4999 of the new state.  Entry (p, q) of what it writes is the
  cell applied to rows p of the two blocks it read, so it is the cell applied to rows 5000·t + p of the two arrays:
  block t of ONE function G of the arrays as the region finds them.  Row r lies in the block of point r / 5000, so the
  20 blocks cover the array, and the array ends holding G.
-/
import proofs.«105062_j57750130262285_1_alg».proof.Proof.Gen.KernelIdeal.Frame
import proofs.«105062_j57750130262285_1_alg».proof.Proof.Spec
import proofs.«105062_j57750130262285_1_alg».proof.Proof.BodyRows
import Idealize.ShloMosaic.Lib.Pipeline.Value

set_option maxRecDepth 16384

noncomputable section

namespace Cert.Gnn.Arr3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gnn

variable (V : (c : Dev nD) → (b : Ref sig .tc) → Buf (Elt Ideal) ((c : Thread nD τ).loc b))

theorem hz : (![0, 0] : Fin 2 → Nat) = fun _ => 0 := funext fun a => by fin_cases a <;> rfl

/-- The new state array: row n of the result is the cell applied to row n of the message array and row n of the
    state array. -/
def G (c : Dev nD) : S100000x64.Idx → EReal := fun i =>
  gruRow (row2 (a := 100000) (b := 64) (V c main_v70) ⟨(i 0).val, (i 0).isLt⟩) (row2 (a := 100000) (b := 64) (V c main_v56) ⟨(i 0).val, (i 0).isLt⟩) (mat2 (a := 192) (b := 64) (V c main_arg8)) (mat2 (a := 192) (b := 64) (V c main_arg9)) (rowvec (b := 192) (V c main_v71)) (rowvec (b := 192) (V c main_v72)) ⟨(i 1).val, (i 1).isLt⟩

theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Row p of point t's block is row 5000·t + p of the array. -/
def rowOf (t : Fin cfg3.N) (p : Fin 5000) : Fin 100000 :=
  ⟨t.val * 5000 + p.val, by have h : t.val < 20 := N_3 ▸ t.isLt; have := p.isLt; omega⟩

/-- The message window's block at point t reads the message array's rows 5000·t … 5000·t + 4999. -/
theorem blk3_0 (c : Dev nD) (t : Fin cfg3.N) (p : Fin 5000) (k : Fin 64) :
    iblk3 V c 0 t (ix2 p k) = V c main_v70 (ix2 (rowOf t p) k) := by
  obtain ⟨e0, e1, -⟩ := idx_facts t
  show V c main_v70 (((cfg3.win 0).blk t).view.emb (ix2 p k)) = _
  refine congrArg _ ?_
  funext a; apply Fin.ext
  match a with
  | ⟨0, _⟩ => show win3_0.index t (0 : Fin 2) * 5000 + 1 * p.val = t.val * 5000 + p.val; omega
  | ⟨1, _⟩ => show win3_0.index t (1 : Fin 2) * 64 + 1 * k.val = k.val; omega

/-- The state window's block at point t reads the same rows of the state array. -/
theorem blk3_1 (c : Dev nD) (t : Fin cfg3.N) (p : Fin 5000) (k : Fin 64) :
    iblk3 V c 1 t (ix2 p k) = V c main_v56 (ix2 (rowOf t p) k) := by
  obtain ⟨-, -, e0, e1, -⟩ := idx_facts t
  show V c main_v56 (((cfg3.win 1).blk t).view.emb (ix2 p k)) = _
  refine congrArg _ ?_
  funext a; apply Fin.ext
  match a with
  | ⟨0, _⟩ => show win3_1.index t (0 : Fin 2) * 5000 + 1 * p.val = t.val * 5000 + p.val; omega
  | ⟨1, _⟩ => show win3_1.index t (1 : Fin 2) * 64 + 1 * k.val = k.val; omega

/-- A window whose one block is its whole array reads the array. -/
theorem blk3_2 (c : Dev nD) (t : Fin cfg3.N) (y : S192x64.Idx) : iblk3 V c 2 t y = V c main_arg8 y := by
  obtain ⟨-, -, -, -, e0, e1, -⟩ := idx_facts t
  show V c main_arg8 (((cfg3.win 2).blk t).view.emb y) = _
  refine congrArg _ ?_
  funext a; apply Fin.ext
  match a with
  | ⟨0, _⟩ => show win3_2.index t (0 : Fin 2) * 192 + 1 * (y 0).val = (y 0).val; omega
  | ⟨1, _⟩ => show win3_2.index t (1 : Fin 2) * 64 + 1 * (y 1).val = (y 1).val; omega
theorem blk3_3 (c : Dev nD) (t : Fin cfg3.N) (y : S192x64.Idx) : iblk3 V c 3 t y = V c main_arg9 y := by
  obtain ⟨-, -, -, -, -, -, e0, e1, -⟩ := idx_facts t
  show V c main_arg9 (((cfg3.win 3).blk t).view.emb y) = _
  refine congrArg _ ?_
  funext a; apply Fin.ext
  match a with
  | ⟨0, _⟩ => show win3_3.index t (0 : Fin 2) * 192 + 1 * (y 0).val = (y 0).val; omega
  | ⟨1, _⟩ => show win3_3.index t (1 : Fin 2) * 64 + 1 * (y 1).val = (y 1).val; omega
theorem blk3_4 (c : Dev nD) (t : Fin cfg3.N) (y : S1x192.Idx) : iblk3 V c 4 t y = V c main_v71 y := by
  obtain ⟨-, -, -, -, -, -, -, -, e0, e1, -⟩ := idx_facts t
  show V c main_v71 (((cfg3.win 4).blk t).view.emb y) = _
  refine congrArg _ ?_
  funext a; apply Fin.ext
  match a with
  | ⟨0, _⟩ => show win3_4.index t (0 : Fin 2) * 1 + 1 * (y 0).val = (y 0).val; omega
  | ⟨1, _⟩ => show win3_4.index t (1 : Fin 2) * 192 + 1 * (y 1).val = (y 1).val; omega
theorem blk3_5 (c : Dev nD) (t : Fin cfg3.N) (y : S1x192.Idx) : iblk3 V c 5 t y = V c main_v72 y := by
  obtain ⟨-, -, -, -, -, -, -, -, -, -, e0, e1, -⟩ := idx_facts t
  show V c main_v72 (((cfg3.win 5).blk t).view.emb y) = _
  refine congrArg _ ?_
  funext a; apply Fin.ext
  match a with
  | ⟨0, _⟩ => show win3_5.index t (0 : Fin 2) * 1 + 1 * (y 0).val = (y 0).val; omega
  | ⟨1, _⟩ => show win3_5.index t (1 : Fin 2) * 192 + 1 * (y 1).val = (y 1).val; omega

/-- What point t writes back is block t of G: entry (p, q) of the body's result is the cell applied to rows p of the
    two blocks it read, which are rows 5000·t + p of the two arrays. -/
theorem flushed_eq (c : Dev nD) (t : Fin cfg3.N) :
    (dat3 V c).flushed 6 t = ((cfg3.win 6).blk t).view.read (Elt Ideal) (G V c) := by
  show (cfg3.win 6).cut (grid3.coords t) ((dat3 V c).after 6 t) = _
  rw [after3_6]
  unfold out3_6
  rw [View.canon_unit_zero hz]
  simp only [View.ld_unit_zero (S := S5000x64) hz, View.ld_unit_zero (S := S192x64) hz, View.ld_unit_zero (S := S1x192) hz]
  funext (y : S5000x64.Idx)
  obtain ⟨p, q, rfl⟩ : ∃ (p : Fin 5000) (q : Fin 64), y = ix2 p q := ⟨y 0, y 1, eq_ix2 y⟩
  show k3_pay1 (F := Ideal) (iblk3 V c 0 t) (iblk3 V c 1 t) (iblk3 V c 2 t) (iblk3 V c 3 t) (iblk3 V c 4 t) (iblk3 V c 5 t) (ix2 p q)
    = G V c (((cfg3.win 6).blk t).view.emb (ix2 p q))
  refine (Body.gru_pay3 _ _ _ _ _ _ p q).trans ?_
  obtain ⟨-, -, -, -, -, -, -, -, -, -, -, -, e60, e61⟩ := idx_facts t
  have hrow : (⟨((((cfg3.win 6).blk t).view.emb (ix2 p q)) 0).val, ((((cfg3.win 6).blk t).view.emb (ix2 p q)) 0).isLt⟩ : Fin 100000) = rowOf t p :=
    Fin.ext (by show win3_6.index t (0 : Fin 2) * 5000 + 1 * p.val = t.val * 5000 + p.val; omega)
  have hcol : (⟨((((cfg3.win 6).blk t).view.emb (ix2 p q)) 1).val, ((((cfg3.win 6).blk t).view.emb (ix2 p q)) 1).isLt⟩ : Fin 64) = q :=
    Fin.ext (by show win3_6.index t (1 : Fin 2) * 64 + 1 * q.val = q.val; omega)
  unfold G
  rw [hrow, hcol]
  show gruRow (fun k => iblk3 V c 0 t (ix2 p k)) (fun k => iblk3 V c 1 t (ix2 p k)) (fun g k => iblk3 V c 2 t (ix2 g k))
      (fun g k => iblk3 V c 3 t (ix2 g k)) (fun g => iblk3 V c 4 t (ix2 (0 : Fin 1) g)) (fun g => iblk3 V c 5 t (ix2 (0 : Fin 1) g)) q
    = gruRow (fun k => V c main_v70 (ix2 (rowOf t p) k)) (fun k => V c main_v56 (ix2 (rowOf t p) k)) (fun g k => V c main_arg8 (ix2 g k))
      (fun g k => V c main_arg9 (ix2 g k)) (fun g => V c main_v71 (ix2 (0 : Fin 1) g)) (fun g => V c main_v72 (ix2 (0 : Fin 1) g)) q
  simp only [blk3_0 V c t, blk3_1 V c t, blk3_2 V c t, blk3_3 V c t, blk3_4 V c t, blk3_5 V c t]

/-- An index of the array is in point t's block iff each coordinate is in the block's range on its axis. -/
theorem mem_blk (t : Fin cfg3.N) (i : S100000x64.Idx) :
    i ∈ ((cfg3.win 6).blk t).view.set ↔ ∀ a : Fin 2, win3_6.index t a * S5000x64.size a ≤ (i a).val ∧ (i a).val < win3_6.index t a * S5000x64.size a + S5000x64.size a := by
  show i ∈ ((View.whole main_v73).slice (win3_6.rect t)).set ↔ _
  rw [View.set_slice_whole, Rect.mem_set_unit]
  exact Iff.rfl

/-- Row r lies in the block of point r / 5000. -/
theorem cover (i : S100000x64.Idx) : ∃ t : Fin cfg3.N, (cfg3.win 6).flush t = true ∧ i ∈ ((cfg3.win 6).blk t).view.set := by
  have hi0 : (i 0).val < 100000 := (i 0).isLt
  have hi1 : (i 1).val < 64 := (i 1).isLt
  have hN : cfg3.N = 20 := N_3
  have hlt : (i 0).val / 5000 < cfg3.N := by rw [hN]; omega
  obtain ⟨-, -, -, -, -, -, -, -, -, -, -, -, e60, e61⟩ := idx_facts ⟨(i 0).val / 5000, hlt⟩
  refine ⟨⟨(i 0).val / 5000, hlt⟩, flush3_6 _, ?_⟩
  rw [mem_blk]
  intro a
  match a with
  | ⟨0, _⟩ =>
    show win3_6.index ⟨(i 0).val / 5000, hlt⟩ (0 : Fin 2) * 5000 ≤ (i 0).val ∧ (i 0).val < win3_6.index ⟨(i 0).val / 5000, hlt⟩ (0 : Fin 2) * 5000 + 5000
    rw [e60]; show (i 0).val / 5000 * 5000 ≤ (i 0).val ∧ (i 0).val < (i 0).val / 5000 * 5000 + 5000; omega
  | ⟨1, _⟩ =>
    show win3_6.index ⟨(i 0).val / 5000, hlt⟩ (1 : Fin 2) * 64 ≤ (i 1).val ∧ (i 1).val < win3_6.index ⟨(i 0).val / 5000, hlt⟩ (1 : Fin 2) * 64 + 64
    rw [e61]; omega

/-- The array after the region: the cell applied to the message array and the state array, row by row. -/
theorem final (c : Dev nD) : (dat3 V c).arrAt 6 cfg3.N = G V c :=
  (dat3 V c).arrAt_eq_of_cover 6 (G V c) (fun t _ => flushed_eq V c t) (cover)

end Cert.Gnn.Arr3

end
-- ==== Proof.KVal.lean ====
/-
  The idealized kernel program's buffers, boundary by boundary, as the reference's stages of the launch arguments.

  The program is a chain of fifteen segments, stretches of host operations and four tiled regions; W0 is the launch memory
  and W_j the contents of the buffers after segment j.  Going down the chain, every buffer a later segment reads is shown
  to hold the reference program's corresponding stage of the SAME arguments:
    the sources and targets of the edges, cut out of the edge list (W1);
    the projected node features — the first region's array, whose row n is the projection of row n of the input, which is
      what the reference's two products and its maximum with zero compute row by row (W2);
    the edge weights, the degrees and the first messages (W3 – W5);
    the state after each application of the recurrent cell — a region's array, whose row n is the cell applied to row n of
      the messages and row n of the previous state, as in the reference (W6, W8, W10) — and the messages formed from it
      (W7, W9);
    the pooled readout, the two-class head and its log-softmax (W11 – W15).
  A buffer no operation of a segment writes holds after it what it held before (the lemmas keep_…); a region leaves every
  buffer that is not one of its arrays, and every array it only reads, as it found it.  A one-row bias the program makes
  by reshaping a vector holds the vector's entries (rowvec_reshape).  The last fact is the result.
-/
import proofs.«105062_j57750130262285_1_alg».proof.Proof.Gen.KernelIdeal.Frame
import proofs.«105062_j57750130262285_1_alg».proof.Proof.KStretch
import proofs.«105062_j57750130262285_1_alg».proof.Proof.RefRows
import proofs.«105062_j57750130262285_1_alg».proof.Proof.Arr0
import proofs.«105062_j57750130262285_1_alg».proof.Proof.Arr1
import proofs.«105062_j57750130262285_1_alg».proof.Proof.Arr2
import proofs.«105062_j57750130262285_1_alg».proof.Proof.Arr3

set_option maxRecDepth 16384

noncomputable section

namespace Cert.Gnn.KVal

open Idealize.ShloMosaic Idealize.ShloMosaic.TcCoe Idealize.ShloMosaic.StableHlo Idealize.ShloMosaic.ValueIdx Idealize.SL.Sem
open Idealize.ShloMosaic.Pipeline (Dat Cfg Window)
open Cert.KernelIdeal Cert.KernelIdeal.Gen Cert.Gnn
open Cert.ReferenceIdeal.ReadP (val_main_v1 val_main_v3 val_main_v14 val_main_v21 val_main_v22 val_main_v23 val_main_v30 val_main_v44 val_main_v82 val_main_v96 val_main_v134 val_main_v148 val_main_v186 val_main_v187 val_main_v208 val_main_v209 val_main_v213 val_main_v214)

/-- A vector reshaped to one row holds, at (0, g), the vector's entry g. -/
theorem rowvec_reshape {b : ℕ} (x : (⟨1, ![b]⟩ : Shape).Idx → EReal) (h : (⟨1, ![b]⟩ : Shape).ShapeCasts ⟨2, ![1, b]⟩) :
    rowvec (shapeCast ⟨2, ![1, b]⟩ x h) = vec1 x := by
  funext g
  exact shapeCast_apply x h (ix2 (0 : Fin 1) g) (ix1 g) (by
    rw [Shape.rowMajor_val_two, Shape.rowMajor_val_one]
    show g.val = 0 * b + g.val
    omega)

variable (m : (ℓ : Loc nD τ sig) → Buf (Elt Ideal) ℓ) (ρ : Dev nD → PrngReg) (c : Dev nD)

theorem W1_v1 : W1 m ρ c (Proc.devRef .tc main_v1) = val_main_v1 (F := Ideal) (m ((c : Thread nD τ).loc main_arg1)) :=
  KStretch.s0_v1 (W0 m ρ c) (m ((c : Thread nD τ).loc main_arg1))
    (rfl : W0 m ρ c (Proc.devRef .tc main_arg1) = (m ((c : Thread nD τ).loc main_arg1)))

theorem W1_v3 : W1 m ρ c (Proc.devRef .tc main_v3) = val_main_v3 (F := Ideal) (m ((c : Thread nD τ).loc main_arg1)) :=
  KStretch.s0_v3 (W0 m ρ c) (m ((c : Thread nD τ).loc main_arg1))
    (rfl : W0 m ρ c (Proc.devRef .tc main_arg1) = (m ((c : Thread nD τ).loc main_arg1)))

theorem W1_v4 : W1 m ρ c (Proc.devRef .tc main_v4) = shapeCast S1x256 (m ((c : Thread nD τ).loc main_arg5)) shapeCasts_S256_S1x256 :=
  KStretch.s0_v4 (W0 m ρ c) (m ((c : Thread nD τ).loc main_arg5))
    (rfl : W0 m ρ c (Proc.devRef .tc main_arg5) = (m ((c : Thread nD τ).loc main_arg5)))

theorem W1_v5 : W1 m ρ c (Proc.devRef .tc main_v5) = shapeCast S1x64 (m ((c : Thread nD τ).loc main_arg7)) shapeCasts_S64_S1x64 :=
  KStretch.s0_v5 (W0 m ρ c) (m ((c : Thread nD τ).loc main_arg7))
    (rfl : W0 m ρ c (Proc.devRef .tc main_arg7) = (m ((c : Thread nD τ).loc main_arg7)))

theorem keep_arg0_0_1 : W1 m ρ c (Proc.devRef .tc main_arg0) = (m ((c : Thread nD τ).loc main_arg0)) :=
  calc W1 m ρ c (Proc.devRef .tc main_arg0)
    _ = W0 m ρ c (Proc.devRef .tc main_arg0) := by unwritten hostOps0
    _ = (m ((c : Thread nD τ).loc main_arg0)) := rfl

theorem keep_arg4_0_1 : W1 m ρ c (Proc.devRef .tc main_arg4) = (m ((c : Thread nD τ).loc main_arg4)) :=
  calc W1 m ρ c (Proc.devRef .tc main_arg4)
    _ = W0 m ρ c (Proc.devRef .tc main_arg4) := by unwritten hostOps0
    _ = (m ((c : Thread nD τ).loc main_arg4)) := rfl

theorem keep_arg6_0_1 : W1 m ρ c (Proc.devRef .tc main_arg6) = (m ((c : Thread nD τ).loc main_arg6)) :=
  calc W1 m ρ c (Proc.devRef .tc main_arg6)
    _ = W0 m ρ c (Proc.devRef .tc main_arg6) := by unwritten hostOps0
    _ = (m ((c : Thread nD τ).loc main_arg6)) := rfl

theorem W2_v6 : W2 m ρ c (Proc.devRef .tc main_v6) = val_main_v14 (F := Ideal) (m ((c : Thread nD τ).loc main_arg0)) (m ((c : Thread nD τ).loc main_arg4)) (m ((c : Thread nD τ).loc main_arg5)) (m ((c : Thread nD τ).loc main_arg6)) (m ((c : Thread nD τ).loc main_arg7)) := by
  refine (W2_arr m ρ c 5).trans ?_
  rw [Arr0.final (V1 m ρ) c]
  funext i
  obtain ⟨n, q, rfl⟩ : ∃ (n : Fin 100000) (q : Fin 64), i = ix2 n q := ⟨i 0, i 1, eq_ix2 i⟩
  refine Eq.trans ?_ (Ref.proj_ref (m ((c : Thread nD τ).loc main_arg0)) (m ((c : Thread nD τ).loc main_arg4)) (m ((c : Thread nD τ).loc main_arg5)) (m ((c : Thread nD τ).loc main_arg6)) (m ((c : Thread nD τ).loc main_arg7)) n q).symm
  show projRow (row2 (a := 100000) (b := 128) (W1 m ρ c (Proc.devRef .tc main_arg0)) n) (mat2 (a := 256) (b := 128) (W1 m ρ c (Proc.devRef .tc main_arg4))) (rowvec (b := 256) (W1 m ρ c (Proc.devRef .tc main_v4)))
      (mat2 (a := 64) (b := 256) (W1 m ρ c (Proc.devRef .tc main_arg6))) (rowvec (b := 64) (W1 m ρ c (Proc.devRef .tc main_v5))) q
    = projRow (row2 (a := 100000) (b := 128) (m ((c : Thread nD τ).loc main_arg0)) n) (mat2 (a := 256) (b := 128) (m ((c : Thread nD τ).loc main_arg4))) (vec1 (a := 256) (m ((c : Thread nD τ).loc main_arg5)))
      (mat2 (a := 64) (b := 256) (m ((c : Thread nD τ).loc main_arg6))) (vec1 (a := 64) (m ((c : Thread nD τ).loc main_arg7))) q
  rw [(keep_arg0_0_1 m ρ c),
    (keep_arg4_0_1 m ρ c),
    (W1_v4 m ρ c),
    (keep_arg6_0_1 m ρ c),
    (W1_v5 m ρ c), rowvec_reshape, rowvec_reshape]

theorem keep_arg2_0_2 : W2 m ρ c (Proc.devRef .tc main_arg2) = (m ((c : Thread nD τ).loc main_arg2)) :=
  calc W2 m ρ c (Proc.devRef .tc main_arg2)
    _ = W1 m ρ c (Proc.devRef .tc main_arg2) := W2_of_ne m ρ c main_arg2 (by decide)
    _ = W0 m ρ c (Proc.devRef .tc main_arg2) := by unwritten hostOps0
    _ = (m ((c : Thread nD τ).loc main_arg2)) := rfl

theorem keep_arg12_0_2 : W2 m ρ c (Proc.devRef .tc main_arg12) = (m ((c : Thread nD τ).loc main_arg12)) :=
  calc W2 m ρ c (Proc.devRef .tc main_arg12)
    _ = W1 m ρ c (Proc.devRef .tc main_arg12) := W2_of_ne m ρ c main_arg12 (by decide)
    _ = W0 m ρ c (Proc.devRef .tc main_arg12) := by unwritten hostOps0
    _ = (m ((c : Thread nD τ).loc main_arg12)) := rfl

theorem W3_v13 : W3 m ρ c (Proc.devRef .tc main_v13) = val_main_v21 (F := Ideal) (m ((c : Thread nD τ).loc main_arg2)) (m ((c : Thread nD τ).loc main_arg12)) :=
  KStretch.s1_v13 (W2 m ρ c) (m ((c : Thread nD τ).loc main_arg2)) (m ((c : Thread nD τ).loc main_arg12))
    (keep_arg2_0_2 m ρ c)
    (keep_arg12_0_2 m ρ c)

theorem W4_v14 : W4 m ρ c (Proc.devRef .tc main_v14) = val_main_v22 (F := Ideal) (m ((c : Thread nD τ).loc main_arg2)) (m ((c : Thread nD τ).loc main_arg12)) :=
  KStretch.s11_v14 (W3 m ρ c) (m ((c : Thread nD τ).loc main_arg2)) (m ((c : Thread nD τ).loc main_arg12))
    (W3_v13 m ρ c)

theorem W5_v15 : W5 m ρ c (Proc.devRef .tc main_v15) = val_main_v23 (F := Ideal) (m ((c : Thread nD τ).loc main_arg2)) (m ((c : Thread nD τ).loc main_arg12)) :=
  KStretch.s12_v15 (W4 m ρ c) (m ((c : Thread nD τ).loc main_arg2)) (m ((c : Thread nD τ).loc main_arg12))
    (W4_v14 m ρ c)

theorem keep_v3_1_4 : W4 m ρ c (Proc.devRef .tc main_v3) = W1 m ρ c (Proc.devRef .tc main_v3) :=
  calc W4 m ρ c (Proc.devRef .tc main_v3)
    _ = W3 m ρ c (Proc.devRef .tc main_v3) := by unwritten hostOps1_1
    _ = W2 m ρ c (Proc.devRef .tc main_v3) := by unwritten hostOps1
    _ = W1 m ρ c (Proc.devRef .tc main_v3) := W2_of_ne m ρ c main_v3 (by decide)

theorem W5_v22 : W5 m ρ c (Proc.devRef .tc main_v22) = val_main_v30 (F := Ideal) (m ((c : Thread nD τ).loc main_arg1)) :=
  KStretch.s12_v22 (W4 m ρ c) (m ((c : Thread nD τ).loc main_arg1))
    ((keep_v3_1_4 m ρ c).trans (W1_v3 m ρ c))

theorem keep_v1_1_4 : W4 m ρ c (Proc.devRef .tc main_v1) = W1 m ρ c (Proc.devRef .tc main_v1) :=
  calc W4 m ρ c (Proc.devRef .tc main_v1)
    _ = W3 m ρ c (Proc.devRef .tc main_v1) := by unwritten hostOps1_1
    _ = W2 m ρ c (Proc.devRef .tc main_v1) := by unwritten hostOps1
    _ = W1 m ρ c (Proc.devRef .tc main_v1) := W2_of_ne m ρ c main_v1 (by decide)

theorem keep_v6_2_4 : W4 m ρ c (Proc.devRef .tc main_v6) = W2 m ρ c (Proc.devRef .tc main_v6) :=
  calc W4 m ρ c (Proc.devRef .tc main_v6)
    _ = W3 m ρ c (Proc.devRef .tc main_v6) := by unwritten hostOps1_1
    _ = W2 m ρ c (Proc.devRef .tc main_v6) := by unwritten hostOps1

theorem W5_v36 : W5 m ρ c (Proc.devRef .tc main_v36) = val_main_v44 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg12)) :=
  KStretch.s12_v36 (W4 m ρ c) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg12))
    ((keep_v1_1_4 m ρ c).trans (W1_v1 m ρ c))
    ((keep_v3_1_4 m ρ c).trans (W1_v3 m ρ c))
    ((keep_v6_2_4 m ρ c).trans (W2_v6 m ρ c))
    (W4_v14 m ρ c)

theorem keep_arg10_0_4 : W4 m ρ c (Proc.devRef .tc main_arg10) = (m ((c : Thread nD τ).loc main_arg10)) :=
  calc W4 m ρ c (Proc.devRef .tc main_arg10)
    _ = W3 m ρ c (Proc.devRef .tc main_arg10) := by unwritten hostOps1_1
    _ = W2 m ρ c (Proc.devRef .tc main_arg10) := by unwritten hostOps1
    _ = W1 m ρ c (Proc.devRef .tc main_arg10) := W2_of_ne m ρ c main_arg10 (by decide)
    _ = W0 m ρ c (Proc.devRef .tc main_arg10) := by unwritten hostOps0
    _ = (m ((c : Thread nD τ).loc main_arg10)) := rfl

theorem W5_v37 : W5 m ρ c (Proc.devRef .tc main_v37) = shapeCast S1x192 (m ((c : Thread nD τ).loc main_arg10)) shapeCasts_S192_S1x192 :=
  KStretch.s12_v37 (W4 m ρ c) (m ((c : Thread nD τ).loc main_arg10))
    (keep_arg10_0_4 m ρ c)

theorem keep_arg11_0_4 : W4 m ρ c (Proc.devRef .tc main_arg11) = (m ((c : Thread nD τ).loc main_arg11)) :=
  calc W4 m ρ c (Proc.devRef .tc main_arg11)
    _ = W3 m ρ c (Proc.devRef .tc main_arg11) := by unwritten hostOps1_1
    _ = W2 m ρ c (Proc.devRef .tc main_arg11) := by unwritten hostOps1
    _ = W1 m ρ c (Proc.devRef .tc main_arg11) := W2_of_ne m ρ c main_arg11 (by decide)
    _ = W0 m ρ c (Proc.devRef .tc main_arg11) := by unwritten hostOps0
    _ = (m ((c : Thread nD τ).loc main_arg11)) := rfl

theorem W5_v38 : W5 m ρ c (Proc.devRef .tc main_v38) = shapeCast S1x192 (m ((c : Thread nD τ).loc main_arg11)) shapeCasts_S192_S1x192 :=
  KStretch.s12_v38 (W4 m ρ c) (m ((c : Thread nD τ).loc main_arg11))
    (keep_arg11_0_4 m ρ c)

theorem keep_v6_2_5 : W5 m ρ c (Proc.devRef .tc main_v6) = W2 m ρ c (Proc.devRef .tc main_v6) :=
  calc W5 m ρ c (Proc.devRef .tc main_v6)
    _ = W4 m ρ c (Proc.devRef .tc main_v6) := by unwritten hostOps1_2
    _ = W3 m ρ c (Proc.devRef .tc main_v6) := by unwritten hostOps1_1
    _ = W2 m ρ c (Proc.devRef .tc main_v6) := by unwritten hostOps1

theorem keep_arg8_0_5 : W5 m ρ c (Proc.devRef .tc main_arg8) = (m ((c : Thread nD τ).loc main_arg8)) :=
  calc W5 m ρ c (Proc.devRef .tc main_arg8)
    _ = W4 m ρ c (Proc.devRef .tc main_arg8) := by unwritten hostOps1_2
    _ = W3 m ρ c (Proc.devRef .tc main_arg8) := by unwritten hostOps1_1
    _ = W2 m ρ c (Proc.devRef .tc main_arg8) := by unwritten hostOps1
    _ = W1 m ρ c (Proc.devRef .tc main_arg8) := W2_of_ne m ρ c main_arg8 (by decide)
    _ = W0 m ρ c (Proc.devRef .tc main_arg8) := by unwritten hostOps0
    _ = (m ((c : Thread nD τ).loc main_arg8)) := rfl

theorem keep_arg9_0_5 : W5 m ρ c (Proc.devRef .tc main_arg9) = (m ((c : Thread nD τ).loc main_arg9)) :=
  calc W5 m ρ c (Proc.devRef .tc main_arg9)
    _ = W4 m ρ c (Proc.devRef .tc main_arg9) := by unwritten hostOps1_2
    _ = W3 m ρ c (Proc.devRef .tc main_arg9) := by unwritten hostOps1_1
    _ = W2 m ρ c (Proc.devRef .tc main_arg9) := by unwritten hostOps1
    _ = W1 m ρ c (Proc.devRef .tc main_arg9) := W2_of_ne m ρ c main_arg9 (by decide)
    _ = W0 m ρ c (Proc.devRef .tc main_arg9) := by unwritten hostOps0
    _ = (m ((c : Thread nD τ).loc main_arg9)) := rfl

theorem W6_v39 : W6 m ρ c (Proc.devRef .tc main_v39) = val_main_v82 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W6_arr m ρ c 6).trans ?_
  rw [Arr1.final (V5 m ρ) c]
  funext i
  obtain ⟨n, q, rfl⟩ : ∃ (n : Fin 100000) (q : Fin 64), i = ix2 n q := ⟨i 0, i 1, eq_ix2 i⟩
  refine Eq.trans ?_ (Ref.gru_ref1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) n q).symm
  show gruRow (row2 (a := 100000) (b := 64) (W5 m ρ c (Proc.devRef .tc main_v36)) n) (row2 (a := 100000) (b := 64) (W5 m ρ c (Proc.devRef .tc main_v6)) n)
      (mat2 (a := 192) (b := 64) (W5 m ρ c (Proc.devRef .tc main_arg8))) (mat2 (a := 192) (b := 64) (W5 m ρ c (Proc.devRef .tc main_arg9)))
      (rowvec (b := 192) (W5 m ρ c (Proc.devRef .tc main_v37))) (rowvec (b := 192) (W5 m ρ c (Proc.devRef .tc main_v38))) q
    = gruRow (row2 (a := 100000) (b := 64) (val_main_v44 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg12))) n) (row2 (a := 100000) (b := 64) (val_main_v14 (F := Ideal) (m ((c : Thread nD τ).loc main_arg0)) (m ((c : Thread nD τ).loc main_arg4)) (m ((c : Thread nD τ).loc main_arg5)) (m ((c : Thread nD τ).loc main_arg6)) (m ((c : Thread nD τ).loc main_arg7))) n)
      (mat2 (a := 192) (b := 64) (m ((c : Thread nD τ).loc main_arg8))) (mat2 (a := 192) (b := 64) (m ((c : Thread nD τ).loc main_arg9)))
      (vec1 (a := 192) (m ((c : Thread nD τ).loc main_arg10))) (vec1 (a := 192) (m ((c : Thread nD τ).loc main_arg11))) q
  rw [(W5_v36 m ρ c),
    ((keep_v6_2_5 m ρ c).trans (W2_v6 m ρ c)),
    (keep_arg8_0_5 m ρ c),
    (keep_arg9_0_5 m ρ c),
    (W5_v37 m ρ c),
    (W5_v38 m ρ c), rowvec_reshape, rowvec_reshape]

theorem keep_v1_1_6 : W6 m ρ c (Proc.devRef .tc main_v1) = W1 m ρ c (Proc.devRef .tc main_v1) :=
  calc W6 m ρ c (Proc.devRef .tc main_v1)
    _ = W5 m ρ c (Proc.devRef .tc main_v1) := W6_of_ne m ρ c main_v1 (by decide)
    _ = W4 m ρ c (Proc.devRef .tc main_v1) := by unwritten hostOps1_2
    _ = W3 m ρ c (Proc.devRef .tc main_v1) := by unwritten hostOps1_1
    _ = W2 m ρ c (Proc.devRef .tc main_v1) := by unwritten hostOps1
    _ = W1 m ρ c (Proc.devRef .tc main_v1) := W2_of_ne m ρ c main_v1 (by decide)

theorem keep_v3_1_6 : W6 m ρ c (Proc.devRef .tc main_v3) = W1 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := by unwritten hostOps1_2
    _ = W3 m ρ c (Proc.devRef .tc main_v3) := by unwritten hostOps1_1
    _ = W2 m ρ c (Proc.devRef .tc main_v3) := by unwritten hostOps1
    _ = W1 m ρ c (Proc.devRef .tc main_v3) := W2_of_ne m ρ c main_v3 (by decide)

theorem keep_v15_5_6 : W6 m ρ c (Proc.devRef .tc main_v15) = W5 m ρ c (Proc.devRef .tc main_v15) :=
  calc W6 m ρ c (Proc.devRef .tc main_v15)
    _ = W5 m ρ c (Proc.devRef .tc main_v15) := W6_of_ne m ρ c main_v15 (by decide)

theorem keep_v22_5_6 : W6 m ρ c (Proc.devRef .tc main_v22) = W5 m ρ c (Proc.devRef .tc main_v22) :=
  calc W6 m ρ c (Proc.devRef .tc main_v22)
    _ = W5 m ρ c (Proc.devRef .tc main_v22) := W6_of_ne m ρ c main_v22 (by decide)

theorem W7_v53 : W7 m ρ c (Proc.devRef .tc main_v53) = val_main_v96 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  KStretch.s2_v53 (W6 m ρ c) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
    ((keep_v1_1_6 m ρ c).trans (W1_v1 m ρ c))
    ((keep_v3_1_6 m ρ c).trans (W1_v3 m ρ c))
    ((keep_v15_5_6 m ρ c).trans (W5_v15 m ρ c))
    ((keep_v22_5_6 m ρ c).trans (W5_v22 m ρ c))
    (W6_v39 m ρ c)

theorem keep_arg10_0_6 : W6 m ρ c (Proc.devRef .tc main_arg10) = (m ((c : Thread nD τ).loc main_arg10)) :=
  calc W6 m ρ c (Proc.devRef .tc main_arg10)
    _ = W5 m ρ c (Proc.devRef .tc main_arg10) := W6_of_ne m ρ c main_arg10 (by decide)
    _ = W4 m ρ c (Proc.devRef .tc main_arg10) := by unwritten hostOps1_2
    _ = W3 m ρ c (Proc.devRef .tc main_arg10) := by unwritten hostOps1_1
    _ = W2 m ρ c (Proc.devRef .tc main_arg10) := by unwritten hostOps1
    _ = W1 m ρ c (Proc.devRef .tc main_arg10) := W2_of_ne m ρ c main_arg10 (by decide)
    _ = W0 m ρ c (Proc.devRef .tc main_arg10) := by unwritten hostOps0
    _ = (m ((c : Thread nD τ).loc main_arg10)) := rfl

theorem W7_v54 : W7 m ρ c (Proc.devRef .tc main_v54) = shapeCast S1x192 (m ((c : Thread nD τ).loc main_arg10)) shapeCasts_S192_S1x192 :=
  KStretch.s2_v54 (W6 m ρ c) (m ((c : Thread nD τ).loc main_arg10))
    (keep_arg10_0_6 m ρ c)

theorem keep_arg11_0_6 : W6 m ρ c (Proc.devRef .tc main_arg11) = (m ((c : Thread nD τ).loc main_arg11)) :=
  calc W6 m ρ c (Proc.devRef .tc main_arg11)
    _ = W5 m ρ c (Proc.devRef .tc main_arg11) := W6_of_ne m ρ c main_arg11 (by decide)
    _ = W4 m ρ c (Proc.devRef .tc main_arg11) := by unwritten hostOps1_2
    _ = W3 m ρ c (Proc.devRef .tc main_arg11) := by unwritten hostOps1_1
    _ = W2 m ρ c (Proc.devRef .tc main_arg11) := by unwritten hostOps1
    _ = W1 m ρ c (Proc.devRef .tc main_arg11) := W2_of_ne m ρ c main_arg11 (by decide)
    _ = W0 m ρ c (Proc.devRef .tc main_arg11) := by unwritten hostOps0
    _ = (m ((c : Thread nD τ).loc main_arg11)) := rfl

theorem W7_v55 : W7 m ρ c (Proc.devRef .tc main_v55) = shapeCast S1x192 (m ((c : Thread nD τ).loc main_arg11)) shapeCasts_S192_S1x192 :=
  KStretch.s2_v55 (W6 m ρ c) (m ((c : Thread nD τ).loc main_arg11))
    (keep_arg11_0_6 m ρ c)

theorem keep_v39_6_7 : W7 m ρ c (Proc.devRef .tc main_v39) = W6 m ρ c (Proc.devRef .tc main_v39) :=
  calc W7 m ρ c (Proc.devRef .tc main_v39)
    _ = W6 m ρ c (Proc.devRef .tc main_v39) := by unwritten hostOps2

theorem keep_arg8_0_7 : W7 m ρ c (Proc.devRef .tc main_arg8) = (m ((c : Thread nD τ).loc main_arg8)) :=
  calc W7 m ρ c (Proc.devRef .tc main_arg8)
    _ = W6 m ρ c (Proc.devRef .tc main_arg8) := by unwritten hostOps2
    _ = W5 m ρ c (Proc.devRef .tc main_arg8) := (W6_arr m ρ c 2).trans (((dat1 (V5 m ρ) c).arrAt_in 2 rfl _).trans (A_eq1 (V5 m ρ) c 2))
    _ = W4 m ρ c (Proc.devRef .tc main_arg8) := by unwritten hostOps1_2
    _ = W3 m ρ c (Proc.devRef .tc main_arg8) := by unwritten hostOps1_1
    _ = W2 m ρ c (Proc.devRef .tc main_arg8) := by unwritten hostOps1
    _ = W1 m ρ c (Proc.devRef .tc main_arg8) := W2_of_ne m ρ c main_arg8 (by decide)
    _ = W0 m ρ c (Proc.devRef .tc main_arg8) := by unwritten hostOps0
    _ = (m ((c : Thread nD τ).loc main_arg8)) := rfl

theorem keep_arg9_0_7 : W7 m ρ c (Proc.devRef .tc main_arg9) = (m ((c : Thread nD τ).loc main_arg9)) :=
  calc W7 m ρ c (Proc.devRef .tc main_arg9)
    _ = W6 m ρ c (Proc.devRef .tc main_arg9) := by unwritten hostOps2
    _ = W5 m ρ c (Proc.devRef .tc main_arg9) := (W6_arr m ρ c 3).trans (((dat1 (V5 m ρ) c).arrAt_in 3 rfl _).trans (A_eq1 (V5 m ρ) c 3))
    _ = W4 m ρ c (Proc.devRef .tc main_arg9) := by unwritten hostOps1_2
    _ = W3 m ρ c (Proc.devRef .tc main_arg9) := by unwritten hostOps1_1
    _ = W2 m ρ c (Proc.devRef .tc main_arg9) := by unwritten hostOps1
    _ = W1 m ρ c (Proc.devRef .tc main_arg9) := W2_of_ne m ρ c main_arg9 (by decide)
    _ = W0 m ρ c (Proc.devRef .tc main_arg9) := by unwritten hostOps0
    _ = (m ((c : Thread nD τ).loc main_arg9)) := rfl

theorem W8_v56 : W8 m ρ c (Proc.devRef .tc main_v56) = val_main_v134 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W8_arr m ρ c 6).trans ?_
  rw [Arr2.final (V7 m ρ) c]
  funext i
  obtain ⟨n, q, rfl⟩ : ∃ (n : Fin 100000) (q : Fin 64), i = ix2 n q := ⟨i 0, i 1, eq_ix2 i⟩
  refine Eq.trans ?_ (Ref.gru_ref2 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) n q).symm
  show gruRow (row2 (a := 100000) (b := 64) (W7 m ρ c (Proc.devRef .tc main_v53)) n) (row2 (a := 100000) (b := 64) (W7 m ρ c (Proc.devRef .tc main_v39)) n)
      (mat2 (a := 192) (b := 64) (W7 m ρ c (Proc.devRef .tc main_arg8))) (mat2 (a := 192) (b := 64) (W7 m ρ c (Proc.devRef .tc main_arg9)))
      (rowvec (b := 192) (W7 m ρ c (Proc.devRef .tc main_v54))) (rowvec (b := 192) (W7 m ρ c (Proc.devRef .tc main_v55))) q
    = gruRow (row2 (a := 100000) (b := 64) (val_main_v96 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) n) (row2 (a := 100000) (b := 64) (val_main_v82 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) n)
      (mat2 (a := 192) (b := 64) (m ((c : Thread nD τ).loc main_arg8))) (mat2 (a := 192) (b := 64) (m ((c : Thread nD τ).loc main_arg9)))
      (vec1 (a := 192) (m ((c : Thread nD τ).loc main_arg10))) (vec1 (a := 192) (m ((c : Thread nD τ).loc main_arg11))) q
  rw [(W7_v53 m ρ c),
    ((keep_v39_6_7 m ρ c).trans (W6_v39 m ρ c)),
    (keep_arg8_0_7 m ρ c),
    (keep_arg9_0_7 m ρ c),
    (W7_v54 m ρ c),
    (W7_v55 m ρ c), rowvec_reshape, rowvec_reshape]

theorem keep_v1_1_8 : W8 m ρ c (Proc.devRef .tc main_v1) = W1 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := by unwritten hostOps2
    _ = W5 m ρ c (Proc.devRef .tc main_v1) := W6_of_ne m ρ c main_v1 (by decide)
    _ = W4 m ρ c (Proc.devRef .tc main_v1) := by unwritten hostOps1_2
    _ = W3 m ρ c (Proc.devRef .tc main_v1) := by unwritten hostOps1_1
    _ = W2 m ρ c (Proc.devRef .tc main_v1) := by unwritten hostOps1
    _ = W1 m ρ c (Proc.devRef .tc main_v1) := W2_of_ne m ρ c main_v1 (by decide)

theorem keep_v3_1_8 : W8 m ρ c (Proc.devRef .tc main_v3) = W1 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := by unwritten hostOps2
    _ = W5 m ρ c (Proc.devRef .tc main_v3) := W6_of_ne m ρ c main_v3 (by decide)
    _ = W4 m ρ c (Proc.devRef .tc main_v3) := by unwritten hostOps1_2
    _ = W3 m ρ c (Proc.devRef .tc main_v3) := by unwritten hostOps1_1
    _ = W2 m ρ c (Proc.devRef .tc main_v3) := by unwritten hostOps1
    _ = W1 m ρ c (Proc.devRef .tc main_v3) := W2_of_ne m ρ c main_v3 (by decide)

theorem keep_v15_5_8 : W8 m ρ c (Proc.devRef .tc main_v15) = W5 m ρ c (Proc.devRef .tc main_v15) :=
  calc W8 m ρ c (Proc.devRef .tc main_v15)
    _ = W7 m ρ c (Proc.devRef .tc main_v15) := W8_of_ne m ρ c main_v15 (by decide)
    _ = W6 m ρ c (Proc.devRef .tc main_v15) := by unwritten hostOps2
    _ = W5 m ρ c (Proc.devRef .tc main_v15) := W6_of_ne m ρ c main_v15 (by decide)

theorem keep_v22_5_8 : W8 m ρ c (Proc.devRef .tc main_v22) = W5 m ρ c (Proc.devRef .tc main_v22) :=
  calc W8 m ρ c (Proc.devRef .tc main_v22)
    _ = W7 m ρ c (Proc.devRef .tc main_v22) := W8_of_ne m ρ c main_v22 (by decide)
    _ = W6 m ρ c (Proc.devRef .tc main_v22) := by unwritten hostOps2
    _ = W5 m ρ c (Proc.devRef .tc main_v22) := W6_of_ne m ρ c main_v22 (by decide)

theorem W9_v70 : W9 m ρ c (Proc.devRef .tc main_v70) = val_main_v148 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  KStretch.s3_v70 (W8 m ρ c) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
    ((keep_v1_1_8 m ρ c).trans (W1_v1 m ρ c))
    ((keep_v3_1_8 m ρ c).trans (W1_v3 m ρ c))
    ((keep_v15_5_8 m ρ c).trans (W5_v15 m ρ c))
    ((keep_v22_5_8 m ρ c).trans (W5_v22 m ρ c))
    (W8_v56 m ρ c)

theorem keep_arg10_0_8 : W8 m ρ c (Proc.devRef .tc main_arg10) = (m ((c : Thread nD τ).loc main_arg10)) :=
  calc W8 m ρ c (Proc.devRef .tc main_arg10)
    _ = W7 m ρ c (Proc.devRef .tc main_arg10) := W8_of_ne m ρ c main_arg10 (by decide)
    _ = W6 m ρ c (Proc.devRef .tc main_arg10) := by unwritten hostOps2
    _ = W5 m ρ c (Proc.devRef .tc main_arg10) := W6_of_ne m ρ c main_arg10 (by decide)
    _ = W4 m ρ c (Proc.devRef .tc main_arg10) := by unwritten hostOps1_2
    _ = W3 m ρ c (Proc.devRef .tc main_arg10) := by unwritten hostOps1_1
    _ = W2 m ρ c (Proc.devRef .tc main_arg10) := by unwritten hostOps1
    _ = W1 m ρ c (Proc.devRef .tc main_arg10) := W2_of_ne m ρ c main_arg10 (by decide)
    _ = W0 m ρ c (Proc.devRef .tc main_arg10) := by unwritten hostOps0
    _ = (m ((c : Thread nD τ).loc main_arg10)) := rfl

theorem W9_v71 : W9 m ρ c (Proc.devRef .tc main_v71) = shapeCast S1x192 (m ((c : Thread nD τ).loc main_arg10)) shapeCasts_S192_S1x192 :=
  KStretch.s3_v71 (W8 m ρ c) (m ((c : Thread nD τ).loc main_arg10))
    (keep_arg10_0_8 m ρ c)

theorem keep_arg11_0_8 : W8 m ρ c (Proc.devRef .tc main_arg11) = (m ((c : Thread nD τ).loc main_arg11)) :=
  calc W8 m ρ c (Proc.devRef .tc main_arg11)
    _ = W7 m ρ c (Proc.devRef .tc main_arg11) := W8_of_ne m ρ c main_arg11 (by decide)
    _ = W6 m ρ c (Proc.devRef .tc main_arg11) := by unwritten hostOps2
    _ = W5 m ρ c (Proc.devRef .tc main_arg11) := W6_of_ne m ρ c main_arg11 (by decide)
    _ = W4 m ρ c (Proc.devRef .tc main_arg11) := by unwritten hostOps1_2
    _ = W3 m ρ c (Proc.devRef .tc main_arg11) := by unwritten hostOps1_1
    _ = W2 m ρ c (Proc.devRef .tc main_arg11) := by unwritten hostOps1
    _ = W1 m ρ c (Proc.devRef .tc main_arg11) := W2_of_ne m ρ c main_arg11 (by decide)
    _ = W0 m ρ c (Proc.devRef .tc main_arg11) := by unwritten hostOps0
    _ = (m ((c : Thread nD τ).loc main_arg11)) := rfl

theorem W9_v72 : W9 m ρ c (Proc.devRef .tc main_v72) = shapeCast S1x192 (m ((c : Thread nD τ).loc main_arg11)) shapeCasts_S192_S1x192 :=
  KStretch.s3_v72 (W8 m ρ c) (m ((c : Thread nD τ).loc main_arg11))
    (keep_arg11_0_8 m ρ c)

theorem keep_v56_8_9 : W9 m ρ c (Proc.devRef .tc main_v56) = W8 m ρ c (Proc.devRef .tc main_v56) :=
  calc W9 m ρ c (Proc.devRef .tc main_v56)
    _ = W8 m ρ c (Proc.devRef .tc main_v56) := by unwritten hostOps3

theorem keep_arg8_0_9 : W9 m ρ c (Proc.devRef .tc main_arg8) = (m ((c : Thread nD τ).loc main_arg8)) :=
  calc W9 m ρ c (Proc.devRef .tc main_arg8)
    _ = W8 m ρ c (Proc.devRef .tc main_arg8) := by unwritten hostOps3
    _ = W7 m ρ c (Proc.devRef .tc main_arg8) := (W8_arr m ρ c 2).trans (((dat2 (V7 m ρ) c).arrAt_in 2 rfl _).trans (A_eq2 (V7 m ρ) c 2))
    _ = W6 m ρ c (Proc.devRef .tc main_arg8) := by unwritten hostOps2
    _ = W5 m ρ c (Proc.devRef .tc main_arg8) := (W6_arr m ρ c 2).trans (((dat1 (V5 m ρ) c).arrAt_in 2 rfl _).trans (A_eq1 (V5 m ρ) c 2))
    _ = W4 m ρ c (Proc.devRef .tc main_arg8) := by unwritten hostOps1_2
    _ = W3 m ρ c (Proc.devRef .tc main_arg8) := by unwritten hostOps1_1
    _ = W2 m ρ c (Proc.devRef .tc main_arg8) := by unwritten hostOps1
    _ = W1 m ρ c (Proc.devRef .tc main_arg8) := W2_of_ne m ρ c main_arg8 (by decide)
    _ = W0 m ρ c (Proc.devRef .tc main_arg8) := by unwritten hostOps0
    _ = (m ((c : Thread nD τ).loc main_arg8)) := rfl

theorem keep_arg9_0_9 : W9 m ρ c (Proc.devRef .tc main_arg9) = (m ((c : Thread nD τ).loc main_arg9)) :=
  calc W9 m ρ c (Proc.devRef .tc main_arg9)
    _ = W8 m ρ c (Proc.devRef .tc main_arg9) := by unwritten hostOps3
    _ = W7 m ρ c (Proc.devRef .tc main_arg9) := (W8_arr m ρ c 3).trans (((dat2 (V7 m ρ) c).arrAt_in 3 rfl _).trans (A_eq2 (V7 m ρ) c 3))
    _ = W6 m ρ c (Proc.devRef .tc main_arg9) := by unwritten hostOps2
    _ = W5 m ρ c (Proc.devRef .tc main_arg9) := (W6_arr m ρ c 3).trans (((dat1 (V5 m ρ) c).arrAt_in 3 rfl _).trans (A_eq1 (V5 m ρ) c 3))
    _ = W4 m ρ c (Proc.devRef .tc main_arg9) := by unwritten hostOps1_2
    _ = W3 m ρ c (Proc.devRef .tc main_arg9) := by unwritten hostOps1_1
    _ = W2 m ρ c (Proc.devRef .tc main_arg9) := by unwritten hostOps1
    _ = W1 m ρ c (Proc.devRef .tc main_arg9) := W2_of_ne m ρ c main_arg9 (by decide)
    _ = W0 m ρ c (Proc.devRef .tc main_arg9) := by unwritten hostOps0
    _ = (m ((c : Thread nD τ).loc main_arg9)) := rfl

theorem W10_v73 : W10 m ρ c (Proc.devRef .tc main_v73) = val_main_v186 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W10_arr m ρ c 6).trans ?_
  rw [Arr3.final (V9 m ρ) c]
  funext i
  obtain ⟨n, q, rfl⟩ : ∃ (n : Fin 100000) (q : Fin 64), i = ix2 n q := ⟨i 0, i 1, eq_ix2 i⟩
  refine Eq.trans ?_ (Ref.gru_ref3 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) n q).symm
  show gruRow (row2 (a := 100000) (b := 64) (W9 m ρ c (Proc.devRef .tc main_v70)) n) (row2 (a := 100000) (b := 64) (W9 m ρ c (Proc.devRef .tc main_v56)) n)
      (mat2 (a := 192) (b := 64) (W9 m ρ c (Proc.devRef .tc main_arg8))) (mat2 (a := 192) (b := 64) (W9 m ρ c (Proc.devRef .tc main_arg9)))
      (rowvec (b := 192) (W9 m ρ c (Proc.devRef .tc main_v71))) (rowvec (b := 192) (W9 m ρ c (Proc.devRef .tc main_v72))) q
    = gruRow (row2 (a := 100000) (b := 64) (val_main_v148 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) n) (row2 (a := 100000) (b := 64) (val_main_v134 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) n)
      (mat2 (a := 192) (b := 64) (m ((c : Thread nD τ).loc main_arg8))) (mat2 (a := 192) (b := 64) (m ((c : Thread nD τ).loc main_arg9)))
      (vec1 (a := 192) (m ((c : Thread nD τ).loc main_arg10))) (vec1 (a := 192) (m ((c : Thread nD τ).loc main_arg11))) q
  rw [(W9_v70 m ρ c),
    ((keep_v56_8_9 m ρ c).trans (W8_v56 m ρ c)),
    (keep_arg8_0_9 m ρ c),
    (keep_arg9_0_9 m ρ c),
    (W9_v71 m ρ c),
    (W9_v72 m ρ c), rowvec_reshape, rowvec_reshape]

theorem keep_arg17_0_10 : W10 m ρ c (Proc.devRef .tc main_arg17) = (m ((c : Thread nD τ).loc main_arg17)) :=
  calc W10 m ρ c (Proc.devRef .tc main_arg17)
    _ = W9 m ρ c (Proc.devRef .tc main_arg17) := W10_of_ne m ρ c main_arg17 (by decide)
    _ = W8 m ρ c (Proc.devRef .tc main_arg17) := by unwritten hostOps3
    _ = W7 m ρ c (Proc.devRef .tc main_arg17) := W8_of_ne m ρ c main_arg17 (by decide)
    _ = W6 m ρ c (Proc.devRef .tc main_arg17) := by unwritten hostOps2
    _ = W5 m ρ c (Proc.devRef .tc main_arg17) := W6_of_ne m ρ c main_arg17 (by decide)
    _ = W4 m ρ c (Proc.devRef .tc main_arg17) := by unwritten hostOps1_2
    _ = W3 m ρ c (Proc.devRef .tc main_arg17) := by unwritten hostOps1_1
    _ = W2 m ρ c (Proc.devRef .tc main_arg17) := by unwritten hostOps1
    _ = W1 m ρ c (Proc.devRef .tc main_arg17) := W2_of_ne m ρ c main_arg17 (by decide)
    _ = W0 m ρ c (Proc.devRef .tc main_arg17) := by unwritten hostOps0
    _ = (m ((c : Thread nD τ).loc main_arg17)) := rfl

theorem W11_v74 : W11 m ρ c (Proc.devRef .tc main_v74) = val_main_v187 (F := Ideal) (m ((c : Thread nD τ).loc main_arg17)) :=
  KStretch.s4_v74 (W10 m ρ c) (m ((c : Thread nD τ).loc main_arg17))
    (keep_arg17_0_10 m ρ c)

theorem keep_v73_10_11 : W11 m ρ c (Proc.devRef .tc main_v73) = W10 m ρ c (Proc.devRef .tc main_v73) :=
  calc W11 m ρ c (Proc.devRef .tc main_v73)
    _ = W10 m ρ c (Proc.devRef .tc main_v73) := by unwritten hostOps4

theorem keep_arg3_0_11 : W11 m ρ c (Proc.devRef .tc main_arg3) = (m ((c : Thread nD τ).loc main_arg3)) :=
  calc W11 m ρ c (Proc.devRef .tc main_arg3)
    _ = W10 m ρ c (Proc.devRef .tc main_arg3) := by unwritten hostOps4
    _ = W9 m ρ c (Proc.devRef .tc main_arg3) := W10_of_ne m ρ c main_arg3 (by decide)
    _ = W8 m ρ c (Proc.devRef .tc main_arg3) := by unwritten hostOps3
    _ = W7 m ρ c (Proc.devRef .tc main_arg3) := W8_of_ne m ρ c main_arg3 (by decide)
    _ = W6 m ρ c (Proc.devRef .tc main_arg3) := by unwritten hostOps2
    _ = W5 m ρ c (Proc.devRef .tc main_arg3) := W6_of_ne m ρ c main_arg3 (by decide)
    _ = W4 m ρ c (Proc.devRef .tc main_arg3) := by unwritten hostOps1_2
    _ = W3 m ρ c (Proc.devRef .tc main_arg3) := by unwritten hostOps1_1
    _ = W2 m ρ c (Proc.devRef .tc main_arg3) := by unwritten hostOps1
    _ = W1 m ρ c (Proc.devRef .tc main_arg3) := W2_of_ne m ρ c main_arg3 (by decide)
    _ = W0 m ρ c (Proc.devRef .tc main_arg3) := by unwritten hostOps0
    _ = (m ((c : Thread nD τ).loc main_arg3)) := rfl

theorem keep_arg13_0_11 : W11 m ρ c (Proc.devRef .tc main_arg13) = (m ((c : Thread nD τ).loc main_arg13)) :=
  calc W11 m ρ c (Proc.devRef .tc main_arg13)
    _ = W10 m ρ c (Proc.devRef .tc main_arg13) := by unwritten hostOps4
    _ = W9 m ρ c (Proc.devRef .tc main_arg13) := W10_of_ne m ρ c main_arg13 (by decide)
    _ = W8 m ρ c (Proc.devRef .tc main_arg13) := by unwritten hostOps3
    _ = W7 m ρ c (Proc.devRef .tc main_arg13) := W8_of_ne m ρ c main_arg13 (by decide)
    _ = W6 m ρ c (Proc.devRef .tc main_arg13) := by unwritten hostOps2
    _ = W5 m ρ c (Proc.devRef .tc main_arg13) := W6_of_ne m ρ c main_arg13 (by decide)
    _ = W4 m ρ c (Proc.devRef .tc main_arg13) := by unwritten hostOps1_2
    _ = W3 m ρ c (Proc.devRef .tc main_arg13) := by unwritten hostOps1_1
    _ = W2 m ρ c (Proc.devRef .tc main_arg13) := by unwritten hostOps1
    _ = W1 m ρ c (Proc.devRef .tc main_arg13) := W2_of_ne m ρ c main_arg13 (by decide)
    _ = W0 m ρ c (Proc.devRef .tc main_arg13) := by unwritten hostOps0
    _ = (m ((c : Thread nD τ).loc main_arg13)) := rfl

theorem keep_arg14_0_11 : W11 m ρ c (Proc.devRef .tc main_arg14) = (m ((c : Thread nD τ).loc main_arg14)) :=
  calc W11 m ρ c (Proc.devRef .tc main_arg14)
    _ = W10 m ρ c (Proc.devRef .tc main_arg14) := by unwritten hostOps4
    _ = W9 m ρ c (Proc.devRef .tc main_arg14) := W10_of_ne m ρ c main_arg14 (by decide)
    _ = W8 m ρ c (Proc.devRef .tc main_arg14) := by unwritten hostOps3
    _ = W7 m ρ c (Proc.devRef .tc main_arg14) := W8_of_ne m ρ c main_arg14 (by decide)
    _ = W6 m ρ c (Proc.devRef .tc main_arg14) := by unwritten hostOps2
    _ = W5 m ρ c (Proc.devRef .tc main_arg14) := W6_of_ne m ρ c main_arg14 (by decide)
    _ = W4 m ρ c (Proc.devRef .tc main_arg14) := by unwritten hostOps1_2
    _ = W3 m ρ c (Proc.devRef .tc main_arg14) := by unwritten hostOps1_1
    _ = W2 m ρ c (Proc.devRef .tc main_arg14) := by unwritten hostOps1
    _ = W1 m ρ c (Proc.devRef .tc main_arg14) := W2_of_ne m ρ c main_arg14 (by decide)
    _ = W0 m ρ c (Proc.devRef .tc main_arg14) := by unwritten hostOps0
    _ = (m ((c : Thread nD τ).loc main_arg14)) := rfl

theorem W12_v95 : W12 m ρ c (Proc.devRef .tc main_v95) = val_main_v208 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg17)) :=
  KStretch.s41_v95 (W11 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg17))
    (W11_v74 m ρ c)
    ((keep_v73_10_11 m ρ c).trans (W10_v73 m ρ c))
    (keep_arg3_0_11 m ρ c)
    (keep_arg13_0_11 m ρ c)
    (keep_arg14_0_11 m ρ c)

theorem W13_v96 : W13 m ρ c (Proc.devRef .tc main_v96) = val_main_v209 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg17)) :=
  KStretch.s42_v96 (W12 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg17))
    (W12_v95 m ρ c)

theorem keep_arg15_0_13 : W13 m ρ c (Proc.devRef .tc main_arg15) = (m ((c : Thread nD τ).loc main_arg15)) :=
  calc W13 m ρ c (Proc.devRef .tc main_arg15)
    _ = W12 m ρ c (Proc.devRef .tc main_arg15) := by unwritten hostOps4_2
    _ = W11 m ρ c (Proc.devRef .tc main_arg15) := by unwritten hostOps4_1
    _ = W10 m ρ c (Proc.devRef .tc main_arg15) := by unwritten hostOps4
    _ = W9 m ρ c (Proc.devRef .tc main_arg15) := W10_of_ne m ρ c main_arg15 (by decide)
    _ = W8 m ρ c (Proc.devRef .tc main_arg15) := by unwritten hostOps3
    _ = W7 m ρ c (Proc.devRef .tc main_arg15) := W8_of_ne m ρ c main_arg15 (by decide)
    _ = W6 m ρ c (Proc.devRef .tc main_arg15) := by unwritten hostOps2
    _ = W5 m ρ c (Proc.devRef .tc main_arg15) := W6_of_ne m ρ c main_arg15 (by decide)
    _ = W4 m ρ c (Proc.devRef .tc main_arg15) := by unwritten hostOps1_2
    _ = W3 m ρ c (Proc.devRef .tc main_arg15) := by unwritten hostOps1_1
    _ = W2 m ρ c (Proc.devRef .tc main_arg15) := by unwritten hostOps1
    _ = W1 m ρ c (Proc.devRef .tc main_arg15) := W2_of_ne m ρ c main_arg15 (by decide)
    _ = W0 m ρ c (Proc.devRef .tc main_arg15) := by unwritten hostOps0
    _ = (m ((c : Thread nD τ).loc main_arg15)) := rfl

theorem keep_arg16_0_13 : W13 m ρ c (Proc.devRef .tc main_arg16) = (m ((c : Thread nD τ).loc main_arg16)) :=
  calc W13 m ρ c (Proc.devRef .tc main_arg16)
    _ = W12 m ρ c (Proc.devRef .tc main_arg16) := by unwritten hostOps4_2
    _ = W11 m ρ c (Proc.devRef .tc main_arg16) := by unwritten hostOps4_1
    _ = W10 m ρ c (Proc.devRef .tc main_arg16) := by unwritten hostOps4
    _ = W9 m ρ c (Proc.devRef .tc main_arg16) := W10_of_ne m ρ c main_arg16 (by decide)
    _ = W8 m ρ c (Proc.devRef .tc main_arg16) := by unwritten hostOps3
    _ = W7 m ρ c (Proc.devRef .tc main_arg16) := W8_of_ne m ρ c main_arg16 (by decide)
    _ = W6 m ρ c (Proc.devRef .tc main_arg16) := by unwritten hostOps2
    _ = W5 m ρ c (Proc.devRef .tc main_arg16) := W6_of_ne m ρ c main_arg16 (by decide)
    _ = W4 m ρ c (Proc.devRef .tc main_arg16) := by unwritten hostOps1_2
    _ = W3 m ρ c (Proc.devRef .tc main_arg16) := by unwritten hostOps1_1
    _ = W2 m ρ c (Proc.devRef .tc main_arg16) := by unwritten hostOps1
    _ = W1 m ρ c (Proc.devRef .tc main_arg16) := W2_of_ne m ρ c main_arg16 (by decide)
    _ = W0 m ρ c (Proc.devRef .tc main_arg16) := by unwritten hostOps0
    _ = (m ((c : Thread nD τ).loc main_arg16)) := rfl

theorem W14_v100 : W14 m ρ c (Proc.devRef .tc main_v100) = val_main_v213 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) :=
  KStretch.s43_v100 (W13 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))
    (W13_v96 m ρ c)
    (keep_arg15_0_13 m ρ c)
    (keep_arg16_0_13 m ρ c)

theorem W15_v101 : W15 m ρ c (Proc.devRef .tc main_v101) = val_main_v214 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) :=
  KStretch.s44_v101 (W14 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))
    (W14_v100 m ρ c)

/-- The result buffer after the last segment: the reference's last stage of the launch arguments. -/
theorem result : W15 m ρ c (Proc.devRef .tc main_v101) = val_main_v214 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) :=
  W15_v101 m ρ c

end Cert.Gnn.KVal

end
-- ==== Proof.RefRun.lean ====
/-
  The reference program's run, read stretch by stretch.

  The reference is a straight line of host operations, and the buffer contents after the line is the fold of the
  operations' results over the launch contents.  The fold is never written out as one term of the arguments: a buffer that
  several later operations read would be repeated in it once per reader.  Instead the line is cut into consecutive
  stretches; after each stretch every buffer a LATER stretch still reads is shown to hold its stage — the value of that
  operation as a function of the arguments the program was launched with — from the same facts about the stretch before:
  inside one stretch the operations' term over the buffers the stretch finds is read off, the buffers it finds are replaced
  by their stages, and what is left is the stage's own definition.  A buffer no operation of a stretch writes keeps its
  contents through it; the arguments are written by no stretch, so they are as launched at every cut and at the end.
  The cuts: indices and input projection; edge weights (three stretches: the gathered parameter, the softplus, the
  degrees); then aggregation and recurrent cell, three times over; then the pooling head (four stretches).
-/
import proofs.«105062_j57750130262285_1_alg».proof.Proof.RunP
import proofs.«105062_j57750130262285_1_alg».proof.Proof.ReadP
import proofs.«105062_j57750130262285_1_alg».proof.Proof.LibStretch

noncomputable section

namespace Cert.Gnn.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-! ### The stretches -/

set_option maxRecDepth 8192 in
set_option maxHeartbeats 4000000 in
/-- Stretch 1: operations 0 to 16 of the line, writing `main_v0` … `main_v14`. -/
abbrev s1 : List (HloOp τ sig (Elt F)) :=
  [ unary main_arg1 main_v0 ((extractStridedSlice S1x1200000 ![0, 0] · slices_S2x1200000_S1x1200000_0_0) : (⟨S2x1200000, .i32⟩ : BufTy).Contents (Elt F) → (⟨S1x1200000, .i32⟩ : BufTy).Contents (Elt F)),
    reshape main_v0 main_v1 rfl shapeCasts_S1x1200000_S1200000,
    unary main_arg1 main_v2 ((extractStridedSlice S1x1200000 ![1, 0] · slices_S2x1200000_S1x1200000_1_0) : (⟨S2x1200000, .i32⟩ : BufTy).Contents (Elt F) → (⟨S1x1200000, .i32⟩ : BufTy).Contents (Elt F)),
    reshape main_v2 main_v3 rfl shapeCasts_S1x1200000_S1200000,
    unary main_arg4 main_v4 ((transpose S128x256 [1, 0] · transposes_S256x128_S128x256_1_0) : (⟨S256x128, .f32⟩ : BufTy).Contents (Elt F) → (⟨S128x256, .f32⟩ : BufTy).Contents (Elt F)),
    binary main_arg0 main_v4 main_v5 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    unary main_arg5 main_v6 (broadcastInDim S1x256 ![1] bcast_S256_S1x256_1 : (⟨S256, .f32⟩ : BufTy).Contents (Elt F) → (⟨S1x256, .f32⟩ : BufTy).Contents (Elt F)),
    unary main_v6 main_v7 (broadcastInDim S100000x256 ![0, 1] bcast_S1x256_S100000x256_0_1 : (⟨S1x256, .f32⟩ : BufTy).Contents (Elt F) → (⟨S100000x256, .f32⟩ : BufTy).Contents (Elt F)),
    binary main_v5 main_v7 main_v8 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x256, .f32⟩) main_call0_v0) (broadcastInDim S100000x256 ![] bcast_S_S100000x256),
    TRef.binary (TRef.of (T := ⟨S100000x256, .f32⟩) main_v8) (TRef.of (T := ⟨S100000x256, .f32⟩) main_call0_v0) (TRef.of (T := ⟨S100000x256, .f32⟩) main_v9) maximumf,
    unary main_arg6 main_v10 ((transpose S256x64 [1, 0] · transposes_S64x256_S256x64_1_0) : (⟨S64x256, .f32⟩ : BufTy).Contents (Elt F) → (⟨S256x64, .f32⟩ : BufTy).Contents (Elt F)),
    binary main_v9 main_v10 main_v11 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    unary main_arg7 main_v12 (broadcastInDim S1x64 ![1] bcast_S64_S1x64_1 : (⟨S64, .f32⟩ : BufTy).Contents (Elt F) → (⟨S1x64, .f32⟩ : BufTy).Contents (Elt F)),
    unary main_v12 main_v13 (broadcastInDim S100000x64 ![0, 1] bcast_S1x64_S100000x64_0_1 : (⟨S1x64, .f32⟩ : BufTy).Contents (Elt F) → (⟨S100000x64, .f32⟩ : BufTy).Contents (Elt F)),
    binary main_v11 main_v13 main_v14 (addf : (⟨S100000x64, .f32⟩ : BufTy).Contents (Elt F) → (⟨S100000x64, .f32⟩ : BufTy).Contents (Elt F) → (⟨S100000x64, .f32⟩ : BufTy).Contents (Elt F)) ]
/-- The buffers stretch 1 writes. -/
abbrev s1_W : List (Ref sig .tc) := [main_v0, main_v1, main_v2, main_v3, main_v4, main_v5, main_v6, main_v7, main_v8, main_call0_cst, main_call0_v0, main_v9, main_v10, main_v11, main_v12, main_v13, main_v14]
set_option maxRecDepth 8192 in
set_option maxHeartbeats 4000000 in
theorem s1_writes : (s1 : List (HloOp τ sig (Elt F))).Forall fun op => op.writes ⊆ (s1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
set_option maxHeartbeats 4000000 in
/-- Stretch 2: operations 17 to 25 of the line, writing `main_c` … `main_v21`. -/
abbrev s2 : List (HloOp τ sig (Elt F)) :=
  [ nullary main_c (constantI S_ 32 0#32),
    unary main_c main_v15 (broadcastInDim S1200000 ![] bcast_S_S1200000 : (⟨S_, .i32⟩ : BufTy).Contents (Elt F) → (⟨S1200000, .i32⟩ : BufTy).Contents (Elt F)),
    binary main_arg2 main_v15 main_v16 (cmpi .slt : (⟨S1200000, .i32⟩ : BufTy).Contents (Elt F) → (⟨S1200000, .i32⟩ : BufTy).Contents (Elt F) → (⟨S1200000, .i1⟩ : BufTy).Contents (Elt F)),
    nullary main_c_0 (constantI S_ 32 8#32),
    unary main_c_0 main_v17 (broadcastInDim S1200000 ![] bcast_S_S1200000 : (⟨S_, .i32⟩ : BufTy).Contents (Elt F) → (⟨S1200000, .i32⟩ : BufTy).Contents (Elt F)),
    binary main_arg2 main_v17 main_v18 (addi : (⟨S1200000, .i32⟩ : BufTy).Contents (Elt F) → (⟨S1200000, .i32⟩ : BufTy).Contents (Elt F) → (⟨S1200000, .i32⟩ : BufTy).Contents (Elt F)),
    ternary main_v16 main_v18 main_arg2 main_v19 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v19 main_v20 (broadcastInDim S1200000x1 ![0] bcast_S1200000_S1200000x1_0 : (⟨S1200000, .i32⟩ : BufTy).Contents (Elt F) → (⟨S1200000x1, .i32⟩ : BufTy).Contents (Elt F)),
    binary main_arg12 main_v20 main_v21 ((fun x i => Host.gather gather_S8_S1200000x1_S1200000_n_0_n_n_0_1_1 x i) : (⟨S8, .f32⟩ : BufTy).Contents (Elt F) → (⟨S1200000x1, .i32⟩ : BufTy).Contents (Elt F) → (⟨S1200000, .f32⟩ : BufTy).Contents (Elt F)) ]
/-- The buffers stretch 2 writes. -/
abbrev s2_W : List (Ref sig .tc) := [main_c, main_v15, main_v16, main_c_0, main_v17, main_v18, main_v19, main_v20, main_v21]
set_option maxRecDepth 8192 in
set_option maxHeartbeats 4000000 in
theorem s2_writes : (s2 : List (HloOp τ sig (Elt F))).Forall fun op => op.writes ⊆ (s2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
set_option maxHeartbeats 4000000 in
/-- Stretch 3: operations 26 to 40 of the line, writing `main_call1_cst` … `main_v23`. -/
abbrev s3 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S1200000, .f32⟩) main_call1_v0) (broadcastInDim S1200000 ![] bcast_S_S1200000),
    TRef.binary (TRef.of (T := ⟨S1200000, .f32⟩) main_v21) (TRef.of (T := ⟨S1200000, .f32⟩) main_call1_v0) (TRef.of (T := ⟨S1200000, .f32⟩) main_call1_v1) maximumf,
    TRef.unary (TRef.of (T := ⟨S_, .f32⟩) main_call1_cst) (TRef.of (T := ⟨S1200000, .f32⟩) main_call1_v2) (broadcastInDim S1200000 ![] bcast_S_S1200000),
    TRef.binary (TRef.of (T := ⟨S1200000, .f32⟩) main_v21) (TRef.of (T := ⟨S1200000, .f32⟩) main_call1_v2) (TRef.of (T := ⟨S1200000, .f32⟩) main_call1_v3) subf,
    TRef.binary (TRef.of (T := ⟨S1200000, .f32⟩) main_call1_v3) (TRef.of (T := ⟨S1200000, .f32⟩) main_call1_v3) (TRef.of (T := ⟨S1200000, .i1⟩) main_call1_v4) (cmpf .une),
    TRef.unary (TRef.of (T := ⟨S_, .f32⟩) main_call1_cst) (TRef.of (T := ⟨S1200000, .f32⟩) main_call1_v5) (broadcastInDim S1200000 ![] bcast_S_S1200000),
    TRef.binary (TRef.of (T := ⟨S1200000, .f32⟩) main_v21) (TRef.of (T := ⟨S1200000, .f32⟩) main_call1_v5) (TRef.of (T := ⟨S1200000, .f32⟩) main_call1_v6) addf,
    TRef.unary (TRef.of (T := ⟨S1200000, .f32⟩) main_call1_v3) (TRef.of (T := ⟨S1200000, .f32⟩) main_call1_v7) Host.absf,
    TRef.unary (TRef.of (T := ⟨S1200000, .f32⟩) main_call1_v7) (TRef.of (T := ⟨S1200000, .f32⟩) main_call1_v8) Host.negf,
    TRef.unary (TRef.of (T := ⟨S1200000, .f32⟩) main_call1_v8) (TRef.of (T := ⟨S1200000, .f32⟩) main_call1_v9) Host.exp,
    TRef.unary (TRef.of (T := ⟨S1200000, .f32⟩) main_call1_v9) (TRef.of (T := ⟨S1200000, .f32⟩) main_call1_v10) Host.log1p,
    TRef.binary (TRef.of (T := ⟨S1200000, .f32⟩) main_call1_v1) (TRef.of (T := ⟨S1200000, .f32⟩) main_call1_v10) (TRef.of (T := ⟨S1200000, .f32⟩) main_call1_v11) addf,
    TRef.ternary (TRef.of (T := ⟨S1200000, .i1⟩) main_call1_v4) (TRef.of (T := ⟨S1200000, .f32⟩) main_call1_v6) (TRef.of (T := ⟨S1200000, .f32⟩) main_call1_v11) (TRef.of (T := ⟨S1200000, .f32⟩) main_v22) select,
    unary main_v22 main_v23 (broadcastInDim S1200000x1 ![0] bcast_S1200000_S1200000x1_0 : (⟨S1200000, .f32⟩ : BufTy).Contents (Elt F) → (⟨S1200000x1, .f32⟩ : BufTy).Contents (Elt F)) ]
/-- The buffers stretch 3 writes. -/
abbrev s3_W : List (Ref sig .tc) := [main_call1_cst, main_call1_v0, main_call1_v1, main_call1_v2, main_call1_v3, main_call1_v4, main_call1_v5, main_call1_v6, main_call1_v7, main_call1_v8, main_call1_v9, main_call1_v10, main_call1_v11, main_v22, main_v23]
set_option maxRecDepth 8192 in
set_option maxHeartbeats 4000000 in
theorem s3_writes : (s3 : List (HloOp τ sig (Elt F))).Forall fun op => op.writes ⊆ (s3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
set_option maxHeartbeats 4000000 in
/-- Stretch 4: operations 41 to 50 of the line, writing `main_cst` … `main_v30`. -/
abbrev s4 : List (HloOp τ sig (Elt F)) :=
  [ nullary main_cst (constant S_ .f32 0x3F800000#32),
    unary main_cst main_v24 (broadcastInDim S1200000 ![] bcast_S_S1200000 : (⟨S_, .f32⟩ : BufTy).Contents (Elt F) → (⟨S1200000, .f32⟩ : BufTy).Contents (Elt F)),
    nullary main_cst_1 (constant S_ .f32 0x00000000#32),
    unary main_cst_1 main_v25 (broadcastInDim S100000 ![] bcast_S_S100000 : (⟨S_, .f32⟩ : BufTy).Contents (Elt F) → (⟨S100000, .f32⟩ : BufTy).Contents (Elt F)),
    unary main_v3 main_v26 (broadcastInDim S1200000x1 ![0] bcast_S1200000_S1200000x1_0 : (⟨S1200000, .i32⟩ : BufTy).Contents (Elt F) → (⟨S1200000x1, .i32⟩ : BufTy).Contents (Elt F)),
    ternary main_v25 main_v26 main_v24 main_v27 ((fun x i u => Host.scatterAdd scatter_S100000_S1200000x1_S1200000_n_0_0_1 x i u) : (⟨S100000, .f32⟩ : BufTy).Contents (Elt F) → (⟨S1200000x1, .i32⟩ : BufTy).Contents (Elt F) → (⟨S1200000, .f32⟩ : BufTy).Contents (Elt F) → (⟨S100000, .f32⟩ : BufTy).Contents (Elt F)),
    nullary main_cst_2 (constant S_ .f32 0x3F800000#32),
    unary main_cst_2 main_v28 (broadcastInDim S100000 ![] bcast_S_S100000 : (⟨S_, .f32⟩ : BufTy).Contents (Elt F) → (⟨S100000, .f32⟩ : BufTy).Contents (Elt F)),
    binary main_v27 main_v28 main_v29 (maximumf : (⟨S100000, .f32⟩ : BufTy).Contents (Elt F) → (⟨S100000, .f32⟩ : BufTy).Contents (Elt F) → (⟨S100000, .f32⟩ : BufTy).Contents (Elt F)),
    unary main_v29 main_v30 (broadcastInDim S100000x1 ![0] bcast_S100000_S100000x1_0 : (⟨S100000, .f32⟩ : BufTy).Contents (Elt F) → (⟨S100000x1, .f32⟩ : BufTy).Contents (Elt F)) ]
/-- The buffers stretch 4 writes. -/
abbrev s4_W : List (Ref sig .tc) := [main_cst, main_v24, main_cst_1, main_v25, main_v26, main_v27, main_cst_2, main_v28, main_v29, main_v30]
set_option maxRecDepth 8192 in
set_option maxHeartbeats 4000000 in
theorem s4_writes : (s4 : List (HloOp τ sig (Elt F))).Forall fun op => op.writes ⊆ (s4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
set_option maxHeartbeats 4000000 in
/-- Stretch 5: operations 51 to 67 of the line, writing `main_c_3` … `main_v44`. -/
abbrev s5 : List (HloOp τ sig (Elt F)) :=
  [ nullary main_c_3 (constantI S_ 32 0#32),
    unary main_c_3 main_v31 (broadcastInDim S1200000 ![] bcast_S_S1200000 : (⟨S_, .i32⟩ : BufTy).Contents (Elt F) → (⟨S1200000, .i32⟩ : BufTy).Contents (Elt F)),
    binary main_v1 main_v31 main_v32 (cmpi .slt : (⟨S1200000, .i32⟩ : BufTy).Contents (Elt F) → (⟨S1200000, .i32⟩ : BufTy).Contents (Elt F) → (⟨S1200000, .i1⟩ : BufTy).Contents (Elt F)),
    nullary main_c_4 (constantI S_ 32 100000#32),
    unary main_c_4 main_v33 (broadcastInDim S1200000 ![] bcast_S_S1200000 : (⟨S_, .i32⟩ : BufTy).Contents (Elt F) → (⟨S1200000, .i32⟩ : BufTy).Contents (Elt F)),
    binary main_v1 main_v33 main_v34 (addi : (⟨S1200000, .i32⟩ : BufTy).Contents (Elt F) → (⟨S1200000, .i32⟩ : BufTy).Contents (Elt F) → (⟨S1200000, .i32⟩ : BufTy).Contents (Elt F)),
    ternary main_v32 main_v34 main_v1 main_v35 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v35 main_v36 (broadcastInDim S1200000x1 ![0] bcast_S1200000_S1200000x1_0 : (⟨S1200000, .i32⟩ : BufTy).Contents (Elt F) → (⟨S1200000x1, .i32⟩ : BufTy).Contents (Elt F)),
    binary main_v14 main_v36 main_v37 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    unary main_v23 main_v38 (broadcastInDim S1200000x64 ![0, 1] bcast_S1200000x1_S1200000x64_0_1 : (⟨S1200000x1, .f32⟩ : BufTy).Contents (Elt F) → (⟨S1200000x64, .f32⟩ : BufTy).Contents (Elt F)),
    binary main_v38 main_v37 main_v39 (mulf : (⟨S1200000x64, .f32⟩ : BufTy).Contents (Elt F) → (⟨S1200000x64, .f32⟩ : BufTy).Contents (Elt F) → (⟨S1200000x64, .f32⟩ : BufTy).Contents (Elt F)),
    nullary main_cst_5 (constant S_ .f32 0x00000000#32),
    unary main_cst_5 main_v40 (broadcastInDim S100000x64 ![] bcast_S_S100000x64 : (⟨S_, .f32⟩ : BufTy).Contents (Elt F) → (⟨S100000x64, .f32⟩ : BufTy).Contents (Elt F)),
    unary main_v3 main_v41 (broadcastInDim S1200000x1 ![0] bcast_S1200000_S1200000x1_0 : (⟨S1200000, .i32⟩ : BufTy).Contents (Elt F) → (⟨S1200000x1, .i32⟩ : BufTy).Contents (Elt F)),
    ternary main_v40 main_v41 main_v39 main_v42 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    unary main_v30 main_v43 (broadcastInDim S100000x64 ![0, 1] bcast_S100000x1_S100000x64_0_1 : (⟨S100000x1, .f32⟩ : BufTy).Contents (Elt F) → (⟨S100000x64, .f32⟩ : BufTy).Contents (Elt F)),
    binary main_v42 main_v43 main_v44 (Host.divf : (⟨S100000x64, .f32⟩ : BufTy).Contents (Elt F) → (⟨S100000x64, .f32⟩ : BufTy).Contents (Elt F) → (⟨S100000x64, .f32⟩ : BufTy).Contents (Elt F)) ]
/-- The buffers stretch 5 writes. -/
abbrev s5_W : List (Ref sig .tc) := [main_c_3, main_v31, main_v32, main_c_4, main_v33, main_v34, main_v35, main_v36, main_v37, main_v38, main_v39, main_cst_5, main_v40, main_v41, main_v42, main_v43, main_v44]
set_option maxRecDepth 8192 in
set_option maxHeartbeats 4000000 in
theorem s5_writes : (s5 : List (HloOp τ sig (Elt F))).Forall fun op => op.writes ⊆ (s5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
set_option maxHeartbeats 4000000 in
/-- Stretch 6: operations 68 to 110 of the line, writing `main_v45` … `main_v82`. -/
abbrev s6 : List (HloOp τ sig (Elt F)) :=
  [ unary main_arg8 main_v45 ((transpose S64x192 [1, 0] · transposes_S192x64_S64x192_1_0) : (⟨S192x64, .f32⟩ : BufTy).Contents (Elt F) → (⟨S64x192, .f32⟩ : BufTy).Contents (Elt F)),
    binary main_v44 main_v45 main_v46 ((fun l r => Host.dotGeneral dot_S100000x64_S64x192_S100000x192_1_0_0_1_n_n none l r) : (⟨S100000x64, .f32⟩ : BufTy).Contents (Elt F) → (⟨S64x192, .f32⟩ : BufTy).Contents (Elt F) → (⟨S100000x192, .f32⟩ : BufTy).Contents (Elt F)),
    unary main_arg10 main_v47 (broadcastInDim S1x192 ![1] bcast_S192_S1x192_1 : (⟨S192, .f32⟩ : BufTy).Contents (Elt F) → (⟨S1x192, .f32⟩ : BufTy).Contents (Elt F)),
    unary main_v47 main_v48 (broadcastInDim S100000x192 ![0, 1] bcast_S1x192_S100000x192_0_1 : (⟨S1x192, .f32⟩ : BufTy).Contents (Elt F) → (⟨S100000x192, .f32⟩ : BufTy).Contents (Elt F)),
    binary main_v46 main_v48 main_v49 (addf : (⟨S100000x192, .f32⟩ : BufTy).Contents (Elt F) → (⟨S100000x192, .f32⟩ : BufTy).Contents (Elt F) → (⟨S100000x192, .f32⟩ : BufTy).Contents (Elt F)),
    unary main_arg9 main_v50 ((transpose S64x192 [1, 0] · transposes_S192x64_S64x192_1_0) : (⟨S192x64, .f32⟩ : BufTy).Contents (Elt F) → (⟨S64x192, .f32⟩ : BufTy).Contents (Elt F)),
    binary main_v14 main_v50 main_v51 ((fun l r => Host.dotGeneral dot_S100000x64_S64x192_S100000x192_1_0_0_1_n_n none l r) : (⟨S100000x64, .f32⟩ : BufTy).Contents (Elt F) → (⟨S64x192, .f32⟩ : BufTy).Contents (Elt F) → (⟨S100000x192, .f32⟩ : BufTy).Contents (Elt F)),
    unary main_arg11 main_v52 (broadcastInDim S1x192 ![1] bcast_S192_S1x192_1 : (⟨S192, .f32⟩ : BufTy).Contents (Elt F) → (⟨S1x192, .f32⟩ : BufTy).Contents (Elt F)),
    unary main_v52 main_v53 (broadcastInDim S100000x192 ![0, 1] bcast_S1x192_S100000x192_0_1 : (⟨S1x192, .f32⟩ : BufTy).Contents (Elt F) → (⟨S100000x192, .f32⟩ : BufTy).Contents (Elt F)),
    binary main_v51 main_v53 main_v54 (addf : (⟨S100000x192, .f32⟩ : BufTy).Contents (Elt F) → (⟨S100000x192, .f32⟩ : BufTy).Contents (Elt F) → (⟨S100000x192, .f32⟩ : BufTy).Contents (Elt F)),
    unary main_v49 main_v55 ((extractStridedSlice S100000x64 ![0, 0] · slices_S100000x192_S100000x64_0_0) : (⟨S100000x192, .f32⟩ : BufTy).Contents (Elt F) → (⟨S100000x64, .f32⟩ : BufTy).Contents (Elt F)),
    unary main_v49 main_v56 ((extractStridedSlice S100000x64 ![0, 64] · slices_S100000x192_S100000x64_0_64) : (⟨S100000x192, .f32⟩ : BufTy).Contents (Elt F) → (⟨S100000x64, .f32⟩ : BufTy).Contents (Elt F)),
    unary main_v49 main_v57 ((extractStridedSlice S100000x64 ![0, 128] · slices_S100000x192_S100000x64_0_128) : (⟨S100000x192, .f32⟩ : BufTy).Contents (Elt F) → (⟨S100000x64, .f32⟩ : BufTy).Contents (Elt F)),
    unary main_v54 main_v58 ((extractStridedSlice S100000x64 ![0, 0] · slices_S100000x192_S100000x64_0_0) : (⟨S100000x192, .f32⟩ : BufTy).Contents (Elt F) → (⟨S100000x64, .f32⟩ : BufTy).Contents (Elt F)),
    unary main_v54 main_v59 ((extractStridedSlice S100000x64 ![0, 64] · slices_S100000x192_S100000x64_0_64) : (⟨S100000x192, .f32⟩ : BufTy).Contents (Elt F) → (⟨S100000x64, .f32⟩ : BufTy).Contents (Elt F)),
    unary main_v54 main_v60 ((extractStridedSlice S100000x64 ![0, 128] · slices_S100000x192_S100000x64_0_128) : (⟨S100000x192, .f32⟩ : BufTy).Contents (Elt F) → (⟨S100000x64, .f32⟩ : BufTy).Contents (Elt F)),
    binary main_v55 main_v58 main_v61 (addf : (⟨S100000x64, .f32⟩ : BufTy).Contents (Elt F) → (⟨S100000x64, .f32⟩ : BufTy).Contents (Elt F) → (⟨S100000x64, .f32⟩ : BufTy).Contents (Elt F)),
    unary main_v61 main_v62 (Host.negf : (⟨S100000x64, .f32⟩ : BufTy).Contents (Elt F) → (⟨S100000x64, .f32⟩ : BufTy).Contents (Elt F)),
    unary main_v62 main_v63 (Host.exp : (⟨S100000x64, .f32⟩ : BufTy).Contents (Elt F) → (⟨S100000x64, .f32⟩ : BufTy).Contents (Elt F)),
    nullary main_cst_6 (constant S_ .f32 0x3F800000#32),
    unary main_cst_6 main_v64 (broadcastInDim S100000x64 ![] bcast_S_S100000x64 : (⟨S_, .f32⟩ : BufTy).Contents (Elt F) → (⟨S100000x64, .f32⟩ : BufTy).Contents (Elt F)),
    binary main_v64 main_v63 main_v65 (addf : (⟨S100000x64, .f32⟩ : BufTy).Contents (Elt F) → (⟨S100000x64, .f32⟩ : BufTy).Contents (Elt F) → (⟨S100000x64, .f32⟩ : BufTy).Contents (Elt F)),
    nullary main_cst_7 (constant S_ .f32 0x3F800000#32),
    unary main_cst_7 main_v66 (broadcastInDim S100000x64 ![] bcast_S_S100000x64 : (⟨S_, .f32⟩ : BufTy).Contents (Elt F) → (⟨S100000x64, .f32⟩ : BufTy).Contents (Elt F)),
    binary main_v66 main_v65 main_v67 (Host.divf : (⟨S100000x64, .f32⟩ : BufTy).Contents (Elt F) → (⟨S100000x64, .f32⟩ : BufTy).Contents (Elt F) → (⟨S100000x64, .f32⟩ : BufTy).Contents (Elt F)),
    binary main_v56 main_v59 main_v68 (addf : (⟨S100000x64, .f32⟩ : BufTy).Contents (Elt F) → (⟨S100000x64, .f32⟩ : BufTy).Contents (Elt F) → (⟨S100000x64, .f32⟩ : BufTy).Contents (Elt F)),
    unary main_v68 main_v69 (Host.negf : (⟨S100000x64, .f32⟩ : BufTy).Contents (Elt F) → (⟨S100000x64, .f32⟩ : BufTy).Contents (Elt F)),
    unary main_v69 main_v70 (Host.exp : (⟨S100000x64, .f32⟩ : BufTy).Contents (Elt F) → (⟨S100000x64, .f32⟩ : BufTy).Contents (Elt F)),
    nullary main_cst_8 (constant S_ .f32 0x3F800000#32),
    unary main_cst_8 main_v71 (broadcastInDim S100000x64 ![] bcast_S_S100000x64 : (⟨S_, .f32⟩ : BufTy).Contents (Elt F) → (⟨S100000x64, .f32⟩ : BufTy).Contents (Elt F)),
    binary main_v71 main_v70 main_v72 (addf : (⟨S100000x64, .f32⟩ : BufTy).Contents (Elt F) → (⟨S100000x64, .f32⟩ : BufTy).Contents (Elt F) → (⟨S100000x64, .f32⟩ : BufTy).Contents (Elt F)),
    nullary main_cst_9 (constant S_ .f32 0x3F800000#32),
    unary main_cst_9 main_v73 (broadcastInDim S100000x64 ![] bcast_S_S100000x64 : (⟨S_, .f32⟩ : BufTy).Contents (Elt F) → (⟨S100000x64, .f32⟩ : BufTy).Contents (Elt F)),
    binary main_v73 main_v72 main_v74 (Host.divf : (⟨S100000x64, .f32⟩ : BufTy).Contents (Elt F) → (⟨S100000x64, .f32⟩ : BufTy).Contents (Elt F) → (⟨S100000x64, .f32⟩ : BufTy).Contents (Elt F)),
    binary main_v67 main_v60 main_v75 (mulf : (⟨S100000x64, .f32⟩ : BufTy).Contents (Elt F) → (⟨S100000x64, .f32⟩ : BufTy).Contents (Elt F) → (⟨S100000x64, .f32⟩ : BufTy).Contents (Elt F)),
    binary main_v57 main_v75 main_v76 (addf : (⟨S100000x64, .f32⟩ : BufTy).Contents (Elt F) → (⟨S100000x64, .f32⟩ : BufTy).Contents (Elt F) → (⟨S100000x64, .f32⟩ : BufTy).Contents (Elt F)),
    unary main_v76 main_v77 (Host.tanh : (⟨S100000x64, .f32⟩ : BufTy).Contents (Elt F) → (⟨S100000x64, .f32⟩ : BufTy).Contents (Elt F)),
    nullary main_cst_10 (constant S_ .f32 0x3F800000#32),
    unary main_cst_10 main_v78 (broadcastInDim S100000x64 ![] bcast_S_S100000x64 : (⟨S_, .f32⟩ : BufTy).Contents (Elt F) → (⟨S100000x64, .f32⟩ : BufTy).Contents (Elt F)),
    binary main_v78 main_v74 main_v79 (subf : (⟨S100000x64, .f32⟩ : BufTy).Contents (Elt F) → (⟨S100000x64, .f32⟩ : BufTy).Contents (Elt F) → (⟨S100000x64, .f32⟩ : BufTy).Contents (Elt F)),
    binary main_v79 main_v77 main_v80 (mulf : (⟨S100000x64, .f32⟩ : BufTy).Contents (Elt F) → (⟨S100000x64, .f32⟩ : BufTy).Contents (Elt F) → (⟨S100000x64, .f32⟩ : BufTy).Contents (Elt F)),
    binary main_v74 main_v14 main_v81 (mulf : (⟨S100000x64, .f32⟩ : BufTy).Contents (Elt F) → (⟨S100000x64, .f32⟩ : BufTy).Contents (Elt F) → (⟨S100000x64, .f32⟩ : BufTy).Contents (Elt F)),
    binary main_v80 main_v81 main_v82 (addf : (⟨S100000x64, .f32⟩ : BufTy).Contents (Elt F) → (⟨S100000x64, .f32⟩ : BufTy).Contents (Elt F) → (⟨S100000x64, .f32⟩ : BufTy).Contents (Elt F)) ]
/-- The buffers stretch 6 writes. -/
abbrev s6_W : List (Ref sig .tc) := [main_v45, main_v46, main_v47, main_v48, main_v49, main_v50, main_v51, main_v52, main_v53, main_v54, main_v55, main_v56, main_v57, main_v58, main_v59, main_v60, main_v61, main_v62, main_v63, main_cst_6, main_v64, main_v65, main_cst_7, main_v66, main_v67, main_v68, main_v69, main_v70, main_cst_8, main_v71, main_v72, main_cst_9, main_v73, main_v74, main_v75, main_v76, main_v77, main_cst_10, main_v78, main_v79, main_v80, main_v81, main_v82]
set_option maxRecDepth 8192 in
set_option maxHeartbeats 4000000 in
theorem s6_writes : (s6 : List (HloOp τ sig (Elt F))).Forall fun op => op.writes ⊆ (s6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
set_option maxHeartbeats 4000000 in
/-- Stretch 7: operations 111 to 127 of the line, writing `main_c_11` … `main_v96`. -/
abbrev s7 : List (HloOp τ sig (Elt F)) :=
  [ nullary main_c_11 (constantI S_ 32 0#32),
    unary main_c_11 main_v83 (broadcastInDim S1200000 ![] bcast_S_S1200000 : (⟨S_, .i32⟩ : BufTy).Contents (Elt F) → (⟨S1200000, .i32⟩ : BufTy).Contents (Elt F)),
    binary main_v1 main_v83 main_v84 (cmpi .slt : (⟨S1200000, .i32⟩ : BufTy).Contents (Elt F) → (⟨S1200000, .i32⟩ : BufTy).Contents (Elt F) → (⟨S1200000, .i1⟩ : BufTy).Contents (Elt F)),
    nullary main_c_12 (constantI S_ 32 100000#32),
    unary main_c_12 main_v85 (broadcastInDim S1200000 ![] bcast_S_S1200000 : (⟨S_, .i32⟩ : BufTy).Contents (Elt F) → (⟨S1200000, .i32⟩ : BufTy).Contents (Elt F)),
    binary main_v1 main_v85 main_v86 (addi : (⟨S1200000, .i32⟩ : BufTy).Contents (Elt F) → (⟨S1200000, .i32⟩ : BufTy).Contents (Elt F) → (⟨S1200000, .i32⟩ : BufTy).Contents (Elt F)),
    ternary main_v84 main_v86 main_v1 main_v87 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v87 main_v88 (broadcastInDim S1200000x1 ![0] bcast_S1200000_S1200000x1_0 : (⟨S1200000, .i32⟩ : BufTy).Contents (Elt F) → (⟨S1200000x1, .i32⟩ : BufTy).Contents (Elt F)),
    binary main_v82 main_v88 main_v89 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    unary main_v23 main_v90 (broadcastInDim S1200000x64 ![0, 1] bcast_S1200000x1_S1200000x64_0_1 : (⟨S1200000x1, .f32⟩ : BufTy).Contents (Elt F) → (⟨S1200000x64, .f32⟩ : BufTy).Contents (Elt F)),
    binary main_v90 main_v89 main_v91 (mulf : (⟨S1200000x64, .f32⟩ : BufTy).Contents (Elt F) → (⟨S1200000x64, .f32⟩ : BufTy).Contents (Elt F) → (⟨S1200000x64, .f32⟩ : BufTy).Contents (Elt F)),
    nullary main_cst_13 (constant S_ .f32 0x00000000#32),
    unary main_cst_13 main_v92 (broadcastInDim S100000x64 ![] bcast_S_S100000x64 : (⟨S_, .f32⟩ : BufTy).Contents (Elt F) → (⟨S100000x64, .f32⟩ : BufTy).Contents (Elt F)),
    unary main_v3 main_v93 (broadcastInDim S1200000x1 ![0] bcast_S1200000_S1200000x1_0 : (⟨S1200000, .i32⟩ : BufTy).Contents (Elt F) → (⟨S1200000x1, .i32⟩ : BufTy).Contents (Elt F)),
    ternary main_v92 main_v93 main_v91 main_v94 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    unary main_v30 main_v95 (broadcastInDim S100000x64 ![0, 1] bcast_S100000x1_S100000x64_0_1 : (⟨S100000x1, .f32⟩ : BufTy).Contents (Elt F) → (⟨S100000x64, .f32⟩ : BufTy).Contents (Elt F)),
    binary main_v94 main_v95 main_v96 (Host.divf : (⟨S100000x64, .f32⟩ : BufTy).Contents (Elt F) → (⟨S100000x64, .f32⟩ : BufTy).Contents (Elt F) → (⟨S100000x64, .f32⟩ : BufTy).Contents (Elt F)) ]
/-- The buffers stretch 7 writes. -/
abbrev s7_W : List (Ref sig .tc) := [main_c_11, main_v83, main_v84, main_c_12, main_v85, main_v86, main_v87, main_v88, main_v89, main_v90, main_v91, main_cst_13, main_v92, main_v93, main_v94, main_v95, main_v96]
set_option maxRecDepth 8192 in
set_option maxHeartbeats 4000000 in
theorem s7_writes : (s7 : List (HloOp τ sig (Elt F))).Forall fun op => op.writes ⊆ (s7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
set_option maxHeartbeats 4000000 in
/-- Stretch 8: operations 128 to 170 of the line, writing `main_v97` … `main_v134`. -/
abbrev s8 : List (HloOp τ sig (Elt F)) :=
  [ unary main_arg8 main_v97 ((transpose S64x192 [1, 0] · transposes_S192x64_S64x192_1_0) : (⟨S192x64, .f32⟩ : BufTy).Contents (Elt F) → (⟨S64x192, .f32⟩ : BufTy).Contents (Elt F)),
    binary main_v96 main_v97 main_v98 ((fun l r => Host.dotGeneral dot_S100000x64_S64x192_S100000x192_1_0_0_1_n_n none l r) : (⟨S100000x64, .f32⟩ : BufTy).Contents (Elt F) → (⟨S64x192, .f32⟩ : BufTy).Contents (Elt F) → (⟨S100000x192, .f32⟩ : BufTy).Contents (Elt F)),
    unary main_arg10 main_v99 (broadcastInDim S1x192 ![1] bcast_S192_S1x192_1 : (⟨S192, .f32⟩ : BufTy).Contents (Elt F) → (⟨S1x192, .f32⟩ : BufTy).Contents (Elt F)),
    unary main_v99 main_v100 (broadcastInDim S100000x192 ![0, 1] bcast_S1x192_S100000x192_0_1 : (⟨S1x192, .f32⟩ : BufTy).Contents (Elt F) → (⟨S100000x192, .f32⟩ : BufTy).Contents (Elt F)),
    binary main_v98 main_v100 main_v101 (addf : (⟨S100000x192, .f32⟩ : BufTy).Contents (Elt F) → (⟨S100000x192, .f32⟩ : BufTy).Contents (Elt F) → (⟨S100000x192, .f32⟩ : BufTy).Contents (Elt F)),
    unary main_arg9 main_v102 ((transpose S64x192 [1, 0] · transposes_S192x64_S64x192_1_0) : (⟨S192x64, .f32⟩ : BufTy).Contents (Elt F) → (⟨S64x192, .f32⟩ : BufTy).Contents (Elt F)),
    binary main_v82 main_v102 main_v103 ((fun l r => Host.dotGeneral dot_S100000x64_S64x192_S100000x192_1_0_0_1_n_n none l r) : (⟨S100000x64, .f32⟩ : BufTy).Contents (Elt F) → (⟨S64x192, .f32⟩ : BufTy).Contents (Elt F) → (⟨S100000x192, .f32⟩ : BufTy).Contents (Elt F)),
    unary main_arg11 main_v104 (broadcastInDim S1x192 ![1] bcast_S192_S1x192_1 : (⟨S192, .f32⟩ : BufTy).Contents (Elt F) → (⟨S1x192, .f32⟩ : BufTy).Contents (Elt F)),
    unary main_v104 main_v105 (broadcastInDim S100000x192 ![0, 1] bcast_S1x192_S100000x192_0_1 : (⟨S1x192, .f32⟩ : BufTy).Contents (Elt F) → (⟨S100000x192, .f32⟩ : BufTy).Contents (Elt F)),
    binary main_v103 main_v105 main_v106 (addf : (⟨S100000x192, .f32⟩ : BufTy).Contents (Elt F) → (⟨S100000x192, .f32⟩ : BufTy).Contents (Elt F) → (⟨S100000x192, .f32⟩ : BufTy).Contents (Elt F)),
    unary main_v101 main_v107 ((extractStridedSlice S100000x64 ![0, 0] · slices_S100000x192_S100000x64_0_0) : (⟨S100000x192, .f32⟩ : BufTy).Contents (Elt F) → (⟨S100000x64, .f32⟩ : BufTy).Contents (Elt F)),
    unary main_v101 main_v108 ((extractStridedSlice S100000x64 ![0, 64] · slices_S100000x192_S100000x64_0_64) : (⟨S100000x192, .f32⟩ : BufTy).Contents (Elt F) → (⟨S100000x64, .f32⟩ : BufTy).Contents (Elt F)),
    unary main_v101 main_v109 ((extractStridedSlice S100000x64 ![0, 128] · slices_S100000x192_S100000x64_0_128) : (⟨S100000x192, .f32⟩ : BufTy).Contents (Elt F) → (⟨S100000x64, .f32⟩ : BufTy).Contents (Elt F)),
    unary main_v106 main_v110 ((extractStridedSlice S100000x64 ![0, 0] · slices_S100000x192_S100000x64_0_0) : (⟨S100000x192, .f32⟩ : BufTy).Contents (Elt F) → (⟨S100000x64, .f32⟩ : BufTy).Contents (Elt F)),
    unary main_v106 main_v111 ((extractStridedSlice S100000x64 ![0, 64] · slices_S100000x192_S100000x64_0_64) : (⟨S100000x192, .f32⟩ : BufTy).Contents (Elt F) → (⟨S100000x64, .f32⟩ : BufTy).Contents (Elt F)),
    unary main_v106 main_v112 ((extractStridedSlice S100000x64 ![0, 128] · slices_S100000x192_S100000x64_0_128) : (⟨S100000x192, .f32⟩ : BufTy).Contents (Elt F) → (⟨S100000x64, .f32⟩ : BufTy).Contents (Elt F)),
    binary main_v107 main_v110 main_v113 (addf : (⟨S100000x64, .f32⟩ : BufTy).Contents (Elt F) → (⟨S100000x64, .f32⟩ : BufTy).Contents (Elt F) → (⟨S100000x64, .f32⟩ : BufTy).Contents (Elt F)),
    unary main_v113 main_v114 (Host.negf : (⟨S100000x64, .f32⟩ : BufTy).Contents (Elt F) → (⟨S100000x64, .f32⟩ : BufTy).Contents (Elt F)),
    unary main_v114 main_v115 (Host.exp : (⟨S100000x64, .f32⟩ : BufTy).Contents (Elt F) → (⟨S100000x64, .f32⟩ : BufTy).Contents (Elt F)),
    nullary main_cst_14 (constant S_ .f32 0x3F800000#32),
    unary main_cst_14 main_v116 (broadcastInDim S100000x64 ![] bcast_S_S100000x64 : (⟨S_, .f32⟩ : BufTy).Contents (Elt F) → (⟨S100000x64, .f32⟩ : BufTy).Contents (Elt F)),
    binary main_v116 main_v115 main_v117 (addf : (⟨S100000x64, .f32⟩ : BufTy).Contents (Elt F) → (⟨S100000x64, .f32⟩ : BufTy).Contents (Elt F) → (⟨S100000x64, .f32⟩ : BufTy).Contents (Elt F)),
    nullary main_cst_15 (constant S_ .f32 0x3F800000#32),
    unary main_cst_15 main_v118 (broadcastInDim S100000x64 ![] bcast_S_S100000x64 : (⟨S_, .f32⟩ : BufTy).Contents (Elt F) → (⟨S100000x64, .f32⟩ : BufTy).Contents (Elt F)),
    binary main_v118 main_v117 main_v119 (Host.divf : (⟨S100000x64, .f32⟩ : BufTy).Contents (Elt F) → (⟨S100000x64, .f32⟩ : BufTy).Contents (Elt F) → (⟨S100000x64, .f32⟩ : BufTy).Contents (Elt F)),
    binary main_v108 main_v111 main_v120 (addf : (⟨S100000x64, .f32⟩ : BufTy).Contents (Elt F) → (⟨S100000x64, .f32⟩ : BufTy).Contents (Elt F) → (⟨S100000x64, .f32⟩ : BufTy).Contents (Elt F)),
    unary main_v120 main_v121 (Host.negf : (⟨S100000x64, .f32⟩ : BufTy).Contents (Elt F) → (⟨S100000x64, .f32⟩ : BufTy).Contents (Elt F)),
    unary main_v121 main_v122 (Host.exp : (⟨S100000x64, .f32⟩ : BufTy).Contents (Elt F) → (⟨S100000x64, .f32⟩ : BufTy).Contents (Elt F)),
    nullary main_cst_16 (constant S_ .f32 0x3F800000#32),
    unary main_cst_16 main_v123 (broadcastInDim S100000x64 ![] bcast_S_S100000x64 : (⟨S_, .f32⟩ : BufTy).Contents (Elt F) → (⟨S100000x64, .f32⟩ : BufTy).Contents (Elt F)),
    binary main_v123 main_v122 main_v124 (addf : (⟨S100000x64, .f32⟩ : BufTy).Contents (Elt F) → (⟨S100000x64, .f32⟩ : BufTy).Contents (Elt F) → (⟨S100000x64, .f32⟩ : BufTy).Contents (Elt F)),
    nullary main_cst_17 (constant S_ .f32 0x3F800000#32),
    unary main_cst_17 main_v125 (broadcastInDim S100000x64 ![] bcast_S_S100000x64 : (⟨S_, .f32⟩ : BufTy).Contents (Elt F) → (⟨S100000x64, .f32⟩ : BufTy).Contents (Elt F)),
    binary main_v125 main_v124 main_v126 (Host.divf : (⟨S100000x64, .f32⟩ : BufTy).Contents (Elt F) → (⟨S100000x64, .f32⟩ : BufTy).Contents (Elt F) → (⟨S100000x64, .f32⟩ : BufTy).Contents (Elt F)),
    binary main_v119 main_v112 main_v127 (mulf : (⟨S100000x64, .f32⟩ : BufTy).Contents (Elt F) → (⟨S100000x64, .f32⟩ : BufTy).Contents (Elt F) → (⟨S100000x64, .f32⟩ : BufTy).Contents (Elt F)),
    binary main_v109 main_v127 main_v128 (addf : (⟨S100000x64, .f32⟩ : BufTy).Contents (Elt F) → (⟨S100000x64, .f32⟩ : BufTy).Contents (Elt F) → (⟨S100000x64, .f32⟩ : BufTy).Contents (Elt F)),
    unary main_v128 main_v129 (Host.tanh : (⟨S100000x64, .f32⟩ : BufTy).Contents (Elt F) → (⟨S100000x64, .f32⟩ : BufTy).Contents (Elt F)),
    nullary main_cst_18 (constant S_ .f32 0x3F800000#32),
    unary main_cst_18 main_v130 (broadcastInDim S100000x64 ![] bcast_S_S100000x64 : (⟨S_, .f32⟩ : BufTy).Contents (Elt F) → (⟨S100000x64, .f32⟩ : BufTy).Contents (Elt F)),
    binary main_v130 main_v126 main_v131 (subf : (⟨S100000x64, .f32⟩ : BufTy).Contents (Elt F) → (⟨S100000x64, .f32⟩ : BufTy).Contents (Elt F) → (⟨S100000x64, .f32⟩ : BufTy).Contents (Elt F)),
    binary main_v131 main_v129 main_v132 (mulf : (⟨S100000x64, .f32⟩ : BufTy).Contents (Elt F) → (⟨S100000x64, .f32⟩ : BufTy).Contents (Elt F) → (⟨S100000x64, .f32⟩ : BufTy).Contents (Elt F)),
    binary main_v126 main_v82 main_v133 (mulf : (⟨S100000x64, .f32⟩ : BufTy).Contents (Elt F) → (⟨S100000x64, .f32⟩ : BufTy).Contents (Elt F) → (⟨S100000x64, .f32⟩ : BufTy).Contents (Elt F)),
    binary main_v132 main_v133 main_v134 (addf : (⟨S100000x64, .f32⟩ : BufTy).Contents (Elt F) → (⟨S100000x64, .f32⟩ : BufTy).Contents (Elt F) → (⟨S100000x64, .f32⟩ : BufTy).Contents (Elt F)) ]
/-- The buffers stretch 8 writes. -/
abbrev s8_W : List (Ref sig .tc) := [main_v97, main_v98, main_v99, main_v100, main_v101, main_v102, main_v103, main_v104, main_v105, main_v106, main_v107, main_v108, main_v109, main_v110, main_v111, main_v112, main_v113, main_v114, main_v115, main_cst_14, main_v116, main_v117, main_cst_15, main_v118, main_v119, main_v120, main_v121, main_v122, main_cst_16, main_v123, main_v124, main_cst_17, main_v125, main_v126, main_v127, main_v128, main_v129, main_cst_18, main_v130, main_v131, main_v132, main_v133, main_v134]
set_option maxRecDepth 8192 in
set_option maxHeartbeats 4000000 in
theorem s8_writes : (s8 : List (HloOp τ sig (Elt F))).Forall fun op => op.writes ⊆ (s8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
set_option maxHeartbeats 4000000 in
/-- Stretch 9: operations 171 to 187 of the line, writing `main_c_19` … `main_v148`. -/
abbrev s9 : List (HloOp τ sig (Elt F)) :=
  [ nullary main_c_19 (constantI S_ 32 0#32),
    unary main_c_19 main_v135 (broadcastInDim S1200000 ![] bcast_S_S1200000 : (⟨S_, .i32⟩ : BufTy).Contents (Elt F) → (⟨S1200000, .i32⟩ : BufTy).Contents (Elt F)),
    binary main_v1 main_v135 main_v136 (cmpi .slt : (⟨S1200000, .i32⟩ : BufTy).Contents (Elt F) → (⟨S1200000, .i32⟩ : BufTy).Contents (Elt F) → (⟨S1200000, .i1⟩ : BufTy).Contents (Elt F)),
    nullary main_c_20 (constantI S_ 32 100000#32),
    unary main_c_20 main_v137 (broadcastInDim S1200000 ![] bcast_S_S1200000 : (⟨S_, .i32⟩ : BufTy).Contents (Elt F) → (⟨S1200000, .i32⟩ : BufTy).Contents (Elt F)),
    binary main_v1 main_v137 main_v138 (addi : (⟨S1200000, .i32⟩ : BufTy).Contents (Elt F) → (⟨S1200000, .i32⟩ : BufTy).Contents (Elt F) → (⟨S1200000, .i32⟩ : BufTy).Contents (Elt F)),
    ternary main_v136 main_v138 main_v1 main_v139 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v139 main_v140 (broadcastInDim S1200000x1 ![0] bcast_S1200000_S1200000x1_0 : (⟨S1200000, .i32⟩ : BufTy).Contents (Elt F) → (⟨S1200000x1, .i32⟩ : BufTy).Contents (Elt F)),
    binary main_v134 main_v140 main_v141 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    unary main_v23 main_v142 (broadcastInDim S1200000x64 ![0, 1] bcast_S1200000x1_S1200000x64_0_1 : (⟨S1200000x1, .f32⟩ : BufTy).Contents (Elt F) → (⟨S1200000x64, .f32⟩ : BufTy).Contents (Elt F)),
    binary main_v142 main_v141 main_v143 (mulf : (⟨S1200000x64, .f32⟩ : BufTy).Contents (Elt F) → (⟨S1200000x64, .f32⟩ : BufTy).Contents (Elt F) → (⟨S1200000x64, .f32⟩ : BufTy).Contents (Elt F)),
    nullary main_cst_21 (constant S_ .f32 0x00000000#32),
    unary main_cst_21 main_v144 (broadcastInDim S100000x64 ![] bcast_S_S100000x64 : (⟨S_, .f32⟩ : BufTy).Contents (Elt F) → (⟨S100000x64, .f32⟩ : BufTy).Contents (Elt F)),
    unary main_v3 main_v145 (broadcastInDim S1200000x1 ![0] bcast_S1200000_S1200000x1_0 : (⟨S1200000, .i32⟩ : BufTy).Contents (Elt F) → (⟨S1200000x1, .i32⟩ : BufTy).Contents (Elt F)),
    ternary main_v144 main_v145 main_v143 main_v146 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    unary main_v30 main_v147 (broadcastInDim S100000x64 ![0, 1] bcast_S100000x1_S100000x64_0_1 : (⟨S100000x1, .f32⟩ : BufTy).Contents (Elt F) → (⟨S100000x64, .f32⟩ : BufTy).Contents (Elt F)),
    binary main_v146 main_v147 main_v148 (Host.divf : (⟨S100000x64, .f32⟩ : BufTy).Contents (Elt F) → (⟨S100000x64, .f32⟩ : BufTy).Contents (Elt F) → (⟨S100000x64, .f32⟩ : BufTy).Contents (Elt F)) ]
/-- The buffers stretch 9 writes. -/
abbrev s9_W : List (Ref sig .tc) := [main_c_19, main_v135, main_v136, main_c_20, main_v137, main_v138, main_v139, main_v140, main_v141, main_v142, main_v143, main_cst_21, main_v144, main_v145, main_v146, main_v147, main_v148]
set_option maxRecDepth 8192 in
set_option maxHeartbeats 4000000 in
theorem s9_writes : (s9 : List (HloOp τ sig (Elt F))).Forall fun op => op.writes ⊆ (s9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
set_option maxHeartbeats 4000000 in
/-- Stretch 10: operations 188 to 230 of the line, writing `main_v149` … `main_v186`. -/
abbrev s10 : List (HloOp τ sig (Elt F)) :=
  [ unary main_arg8 main_v149 ((transpose S64x192 [1, 0] · transposes_S192x64_S64x192_1_0) : (⟨S192x64, .f32⟩ : BufTy).Contents (Elt F) → (⟨S64x192, .f32⟩ : BufTy).Contents (Elt F)),
    binary main_v148 main_v149 main_v150 ((fun l r => Host.dotGeneral dot_S100000x64_S64x192_S100000x192_1_0_0_1_n_n none l r) : (⟨S100000x64, .f32⟩ : BufTy).Contents (Elt F) → (⟨S64x192, .f32⟩ : BufTy).Contents (Elt F) → (⟨S100000x192, .f32⟩ : BufTy).Contents (Elt F)),
    unary main_arg10 main_v151 (broadcastInDim S1x192 ![1] bcast_S192_S1x192_1 : (⟨S192, .f32⟩ : BufTy).Contents (Elt F) → (⟨S1x192, .f32⟩ : BufTy).Contents (Elt F)),
    unary main_v151 main_v152 (broadcastInDim S100000x192 ![0, 1] bcast_S1x192_S100000x192_0_1 : (⟨S1x192, .f32⟩ : BufTy).Contents (Elt F) → (⟨S100000x192, .f32⟩ : BufTy).Contents (Elt F)),
    binary main_v150 main_v152 main_v153 (addf : (⟨S100000x192, .f32⟩ : BufTy).Contents (Elt F) → (⟨S100000x192, .f32⟩ : BufTy).Contents (Elt F) → (⟨S100000x192, .f32⟩ : BufTy).Contents (Elt F)),
    unary main_arg9 main_v154 ((transpose S64x192 [1, 0] · transposes_S192x64_S64x192_1_0) : (⟨S192x64, .f32⟩ : BufTy).Contents (Elt F) → (⟨S64x192, .f32⟩ : BufTy).Contents (Elt F)),
    binary main_v134 main_v154 main_v155 ((fun l r => Host.dotGeneral dot_S100000x64_S64x192_S100000x192_1_0_0_1_n_n none l r) : (⟨S100000x64, .f32⟩ : BufTy).Contents (Elt F) → (⟨S64x192, .f32⟩ : BufTy).Contents (Elt F) → (⟨S100000x192, .f32⟩ : BufTy).Contents (Elt F)),
    unary main_arg11 main_v156 (broadcastInDim S1x192 ![1] bcast_S192_S1x192_1 : (⟨S192, .f32⟩ : BufTy).Contents (Elt F) → (⟨S1x192, .f32⟩ : BufTy).Contents (Elt F)),
    unary main_v156 main_v157 (broadcastInDim S100000x192 ![0, 1] bcast_S1x192_S100000x192_0_1 : (⟨S1x192, .f32⟩ : BufTy).Contents (Elt F) → (⟨S100000x192, .f32⟩ : BufTy).Contents (Elt F)),
    binary main_v155 main_v157 main_v158 (addf : (⟨S100000x192, .f32⟩ : BufTy).Contents (Elt F) → (⟨S100000x192, .f32⟩ : BufTy).Contents (Elt F) → (⟨S100000x192, .f32⟩ : BufTy).Contents (Elt F)),
    unary main_v153 main_v159 ((extractStridedSlice S100000x64 ![0, 0] · slices_S100000x192_S100000x64_0_0) : (⟨S100000x192, .f32⟩ : BufTy).Contents (Elt F) → (⟨S100000x64, .f32⟩ : BufTy).Contents (Elt F)),
    unary main_v153 main_v160 ((extractStridedSlice S100000x64 ![0, 64] · slices_S100000x192_S100000x64_0_64) : (⟨S100000x192, .f32⟩ : BufTy).Contents (Elt F) → (⟨S100000x64, .f32⟩ : BufTy).Contents (Elt F)),
    unary main_v153 main_v161 ((extractStridedSlice S100000x64 ![0, 128] · slices_S100000x192_S100000x64_0_128) : (⟨S100000x192, .f32⟩ : BufTy).Contents (Elt F) → (⟨S100000x64, .f32⟩ : BufTy).Contents (Elt F)),
    unary main_v158 main_v162 ((extractStridedSlice S100000x64 ![0, 0] · slices_S100000x192_S100000x64_0_0) : (⟨S100000x192, .f32⟩ : BufTy).Contents (Elt F) → (⟨S100000x64, .f32⟩ : BufTy).Contents (Elt F)),
    unary main_v158 main_v163 ((extractStridedSlice S100000x64 ![0, 64] · slices_S100000x192_S100000x64_0_64) : (⟨S100000x192, .f32⟩ : BufTy).Contents (Elt F) → (⟨S100000x64, .f32⟩ : BufTy).Contents (Elt F)),
    unary main_v158 main_v164 ((extractStridedSlice S100000x64 ![0, 128] · slices_S100000x192_S100000x64_0_128) : (⟨S100000x192, .f32⟩ : BufTy).Contents (Elt F) → (⟨S100000x64, .f32⟩ : BufTy).Contents (Elt F)),
    binary main_v159 main_v162 main_v165 (addf : (⟨S100000x64, .f32⟩ : BufTy).Contents (Elt F) → (⟨S100000x64, .f32⟩ : BufTy).Contents (Elt F) → (⟨S100000x64, .f32⟩ : BufTy).Contents (Elt F)),
    unary main_v165 main_v166 (Host.negf : (⟨S100000x64, .f32⟩ : BufTy).Contents (Elt F) → (⟨S100000x64, .f32⟩ : BufTy).Contents (Elt F)),
    unary main_v166 main_v167 (Host.exp : (⟨S100000x64, .f32⟩ : BufTy).Contents (Elt F) → (⟨S100000x64, .f32⟩ : BufTy).Contents (Elt F)),
    nullary main_cst_22 (constant S_ .f32 0x3F800000#32),
    unary main_cst_22 main_v168 (broadcastInDim S100000x64 ![] bcast_S_S100000x64 : (⟨S_, .f32⟩ : BufTy).Contents (Elt F) → (⟨S100000x64, .f32⟩ : BufTy).Contents (Elt F)),
    binary main_v168 main_v167 main_v169 (addf : (⟨S100000x64, .f32⟩ : BufTy).Contents (Elt F) → (⟨S100000x64, .f32⟩ : BufTy).Contents (Elt F) → (⟨S100000x64, .f32⟩ : BufTy).Contents (Elt F)),
    nullary main_cst_23 (constant S_ .f32 0x3F800000#32),
    unary main_cst_23 main_v170 (broadcastInDim S100000x64 ![] bcast_S_S100000x64 : (⟨S_, .f32⟩ : BufTy).Contents (Elt F) → (⟨S100000x64, .f32⟩ : BufTy).Contents (Elt F)),
    binary main_v170 main_v169 main_v171 (Host.divf : (⟨S100000x64, .f32⟩ : BufTy).Contents (Elt F) → (⟨S100000x64, .f32⟩ : BufTy).Contents (Elt F) → (⟨S100000x64, .f32⟩ : BufTy).Contents (Elt F)),
    binary main_v160 main_v163 main_v172 (addf : (⟨S100000x64, .f32⟩ : BufTy).Contents (Elt F) → (⟨S100000x64, .f32⟩ : BufTy).Contents (Elt F) → (⟨S100000x64, .f32⟩ : BufTy).Contents (Elt F)),
    unary main_v172 main_v173 (Host.negf : (⟨S100000x64, .f32⟩ : BufTy).Contents (Elt F) → (⟨S100000x64, .f32⟩ : BufTy).Contents (Elt F)),
    unary main_v173 main_v174 (Host.exp : (⟨S100000x64, .f32⟩ : BufTy).Contents (Elt F) → (⟨S100000x64, .f32⟩ : BufTy).Contents (Elt F)),
    nullary main_cst_24 (constant S_ .f32 0x3F800000#32),
    unary main_cst_24 main_v175 (broadcastInDim S100000x64 ![] bcast_S_S100000x64 : (⟨S_, .f32⟩ : BufTy).Contents (Elt F) → (⟨S100000x64, .f32⟩ : BufTy).Contents (Elt F)),
    binary main_v175 main_v174 main_v176 (addf : (⟨S100000x64, .f32⟩ : BufTy).Contents (Elt F) → (⟨S100000x64, .f32⟩ : BufTy).Contents (Elt F) → (⟨S100000x64, .f32⟩ : BufTy).Contents (Elt F)),
    nullary main_cst_25 (constant S_ .f32 0x3F800000#32),
    unary main_cst_25 main_v177 (broadcastInDim S100000x64 ![] bcast_S_S100000x64 : (⟨S_, .f32⟩ : BufTy).Contents (Elt F) → (⟨S100000x64, .f32⟩ : BufTy).Contents (Elt F)),
    binary main_v177 main_v176 main_v178 (Host.divf : (⟨S100000x64, .f32⟩ : BufTy).Contents (Elt F) → (⟨S100000x64, .f32⟩ : BufTy).Contents (Elt F) → (⟨S100000x64, .f32⟩ : BufTy).Contents (Elt F)),
    binary main_v171 main_v164 main_v179 (mulf : (⟨S100000x64, .f32⟩ : BufTy).Contents (Elt F) → (⟨S100000x64, .f32⟩ : BufTy).Contents (Elt F) → (⟨S100000x64, .f32⟩ : BufTy).Contents (Elt F)),
    binary main_v161 main_v179 main_v180 (addf : (⟨S100000x64, .f32⟩ : BufTy).Contents (Elt F) → (⟨S100000x64, .f32⟩ : BufTy).Contents (Elt F) → (⟨S100000x64, .f32⟩ : BufTy).Contents (Elt F)),
    unary main_v180 main_v181 (Host.tanh : (⟨S100000x64, .f32⟩ : BufTy).Contents (Elt F) → (⟨S100000x64, .f32⟩ : BufTy).Contents (Elt F)),
    nullary main_cst_26 (constant S_ .f32 0x3F800000#32),
    unary main_cst_26 main_v182 (broadcastInDim S100000x64 ![] bcast_S_S100000x64 : (⟨S_, .f32⟩ : BufTy).Contents (Elt F) → (⟨S100000x64, .f32⟩ : BufTy).Contents (Elt F)),
    binary main_v182 main_v178 main_v183 (subf : (⟨S100000x64, .f32⟩ : BufTy).Contents (Elt F) → (⟨S100000x64, .f32⟩ : BufTy).Contents (Elt F) → (⟨S100000x64, .f32⟩ : BufTy).Contents (Elt F)),
    binary main_v183 main_v181 main_v184 (mulf : (⟨S100000x64, .f32⟩ : BufTy).Contents (Elt F) → (⟨S100000x64, .f32⟩ : BufTy).Contents (Elt F) → (⟨S100000x64, .f32⟩ : BufTy).Contents (Elt F)),
    binary main_v178 main_v134 main_v185 (mulf : (⟨S100000x64, .f32⟩ : BufTy).Contents (Elt F) → (⟨S100000x64, .f32⟩ : BufTy).Contents (Elt F) → (⟨S100000x64, .f32⟩ : BufTy).Contents (Elt F)),
    binary main_v184 main_v185 main_v186 (addf : (⟨S100000x64, .f32⟩ : BufTy).Contents (Elt F) → (⟨S100000x64, .f32⟩ : BufTy).Contents (Elt F) → (⟨S100000x64, .f32⟩ : BufTy).Contents (Elt F)) ]
/-- The buffers stretch 10 writes. -/
abbrev s10_W : List (Ref sig .tc) := [main_v149, main_v150, main_v151, main_v152, main_v153, main_v154, main_v155, main_v156, main_v157, main_v158, main_v159, main_v160, main_v161, main_v162, main_v163, main_v164, main_v165, main_v166, main_v167, main_cst_22, main_v168, main_v169, main_cst_23, main_v170, main_v171, main_v172, main_v173, main_v174, main_cst_24, main_v175, main_v176, main_cst_25, main_v177, main_v178, main_v179, main_v180, main_v181, main_cst_26, main_v182, main_v183, main_v184, main_v185, main_v186]
set_option maxRecDepth 8192 in
set_option maxHeartbeats 4000000 in
theorem s10_writes : (s10 : List (HloOp τ sig (Elt F))).Forall fun op => op.writes ⊆ (s10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
set_option maxHeartbeats 4000000 in
/-- Stretch 11: operations 231 to 241 of the line, writing `main_call2_cst` … `main_v187`. -/
abbrev s11 : List (HloOp τ sig (Elt F)) :=
  [ TRef.nullary (TRef.of (T := ⟨S_, .f32⟩) main_call2_cst) (constant S_ .f32 0x00000000#32),
    TRef.binary (TRef.of (T := ⟨S_, .f32⟩) main_arg17) (TRef.of (T := ⟨S_, .f32⟩) main_call2_cst) (TRef.of (T := ⟨S_, .f32⟩) main_call2_v0) maximumf,
    TRef.binary (TRef.of (T := ⟨S_, .f32⟩) main_arg17) (TRef.of (T := ⟨S_, .f32⟩) main_call2_cst) (TRef.of (T := ⟨S_, .f32⟩) main_call2_v1) subf,
    TRef.binary (TRef.of (T := ⟨S_, .f32⟩) main_call2_v1) (TRef.of (T := ⟨S_, .f32⟩) main_call2_v1) (TRef.of (T := ⟨S_, .i1⟩) main_call2_v2) (cmpf .une),
    TRef.binary (TRef.of (T := ⟨S_, .f32⟩) main_arg17) (TRef.of (T := ⟨S_, .f32⟩) main_call2_cst) (TRef.of (T := ⟨S_, .f32⟩) main_call2_v3) addf,
    TRef.unary (TRef.of (T := ⟨S_, .f32⟩) main_call2_v1) (TRef.of (T := ⟨S_, .f32⟩) main_call2_v4) Host.absf,
    TRef.unary (TRef.of (T := ⟨S_, .f32⟩) main_call2_v4) (TRef.of (T := ⟨S_, .f32⟩) main_call2_v5) Host.negf,
    TRef.unary (TRef.of (T := ⟨S_, .f32⟩) main_call2_v5) (TRef.of (T := ⟨S_, .f32⟩) main_call2_v6) Host.exp,
    TRef.unary (TRef.of (T := ⟨S_, .f32⟩) main_call2_v6) (TRef.of (T := ⟨S_, .f32⟩) main_call2_v7) Host.log1p,
    TRef.binary (TRef.of (T := ⟨S_, .f32⟩) main_call2_v0) (TRef.of (T := ⟨S_, .f32⟩) main_call2_v7) (TRef.of (T := ⟨S_, .f32⟩) main_call2_v8) addf,
    TRef.ternary (TRef.of (T := ⟨S_, .i1⟩) main_call2_v2) (TRef.of (T := ⟨S_, .f32⟩) main_call2_v3) (TRef.of (T := ⟨S_, .f32⟩) main_call2_v8) (TRef.of (T := ⟨S_, .f32⟩) main_v187) select ]
/-- The buffers stretch 11 writes. -/
abbrev s11_W : List (Ref sig .tc) := [main_call2_cst, main_call2_v0, main_call2_v1, main_call2_v2, main_call2_v3, main_call2_v4, main_call2_v5, main_call2_v6, main_call2_v7, main_call2_v8, main_v187]
set_option maxRecDepth 8192 in
set_option maxHeartbeats 4000000 in
theorem s11_writes : (s11 : List (HloOp τ sig (Elt F))).Forall fun op => op.writes ⊆ (s11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
set_option maxHeartbeats 4000000 in
/-- Stretch 12: operations 242 to 268 of the line, writing `main_cst_27` … `main_v208`. -/
abbrev s12 : List (HloOp τ sig (Elt F)) :=
  [ nullary main_cst_27 (constant S_ .f32 0x3F800000#32),
    unary main_cst_27 main_v188 (broadcastInDim S100000x1 ![] bcast_S_S100000x1 : (⟨S_, .f32⟩ : BufTy).Contents (Elt F) → (⟨S100000x1, .f32⟩ : BufTy).Contents (Elt F)),
    nullary main_cst_28 (constant S_ .f32 0x3F800000#32),
    binary main_cst_28 main_v187 main_v189 (addf : (⟨S_, .f32⟩ : BufTy).Contents (Elt F) → (⟨S_, .f32⟩ : BufTy).Contents (Elt F) → (⟨S_, .f32⟩ : BufTy).Contents (Elt F)),
    nullary main_c_29 (constantI S_ 32 0#32),
    unary main_c_29 main_v190 (broadcastInDim S1000 ![] bcast_S_S1000 : (⟨S_, .i32⟩ : BufTy).Contents (Elt F) → (⟨S1000, .i32⟩ : BufTy).Contents (Elt F)),
    binary main_arg3 main_v190 main_v191 (cmpi .slt : (⟨S1000, .i32⟩ : BufTy).Contents (Elt F) → (⟨S1000, .i32⟩ : BufTy).Contents (Elt F) → (⟨S1000, .i1⟩ : BufTy).Contents (Elt F)),
    nullary main_c_30 (constantI S_ 32 100000#32),
    unary main_c_30 main_v192 (broadcastInDim S1000 ![] bcast_S_S1000 : (⟨S_, .i32⟩ : BufTy).Contents (Elt F) → (⟨S1000, .i32⟩ : BufTy).Contents (Elt F)),
    binary main_arg3 main_v192 main_v193 (addi : (⟨S1000, .i32⟩ : BufTy).Contents (Elt F) → (⟨S1000, .i32⟩ : BufTy).Contents (Elt F) → (⟨S1000, .i32⟩ : BufTy).Contents (Elt F)),
    ternary main_v191 main_v193 main_arg3 main_v194 (select : (⟨S1000, .i1⟩ : BufTy).Contents (Elt F) → (⟨S1000, .i32⟩ : BufTy).Contents (Elt F) → (⟨S1000, .i32⟩ : BufTy).Contents (Elt F) → (⟨S1000, .i32⟩ : BufTy).Contents (Elt F)),
    unary main_v194 main_v195 (broadcastInDim S1000x1 ![0] bcast_S1000_S1000x1_0 : (⟨S1000, .i32⟩ : BufTy).Contents (Elt F) → (⟨S1000x1, .i32⟩ : BufTy).Contents (Elt F)),
    unary main_v189 main_v196 (broadcastInDim S1000x1 ![] bcast_S_S1000x1 : (⟨S_, .f32⟩ : BufTy).Contents (Elt F) → (⟨S1000x1, .f32⟩ : BufTy).Contents (Elt F)),
    ternary main_v188 main_v195 main_v196 main_v197 ((fun x i u => Host.scatter scatter_S100000x1_S1000x1_S1000x1_1_0_0_1 (fun _ b => b) x i u) : (⟨S100000x1, .f32⟩ : BufTy).Contents (Elt F) → (⟨S1000x1, .i32⟩ : BufTy).Contents (Elt F) → (⟨S1000x1, .f32⟩ : BufTy).Contents (Elt F) → (⟨S100000x1, .f32⟩ : BufTy).Contents (Elt F)),
    unary main_v197 main_v198 (broadcastInDim S100000x64 ![0, 1] bcast_S100000x1_S100000x64_0_1 : (⟨S100000x1, .f32⟩ : BufTy).Contents (Elt F) → (⟨S100000x64, .f32⟩ : BufTy).Contents (Elt F)),
    binary main_v198 main_v186 main_v199 (mulf : (⟨S100000x64, .f32⟩ : BufTy).Contents (Elt F) → (⟨S100000x64, .f32⟩ : BufTy).Contents (Elt F) → (⟨S100000x64, .f32⟩ : BufTy).Contents (Elt F)),
    nullary main_cst_31 (constant S_ .f32 0x00000000#32),
    binary main_v199 main_cst_31 main_v200 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    unary main_v200 main_v201 (broadcastInDim S1x64 ![1] bcast_S64_S1x64_1 : (⟨S64, .f32⟩ : BufTy).Contents (Elt F) → (⟨S1x64, .f32⟩ : BufTy).Contents (Elt F)),
    nullary main_cst_32 (constant S_ .f32 0x00000000#32),
    binary main_v197 main_cst_32 main_v202 ((fun x v => Host.reduceAdd x v reducesTo_S100000x1_S_d0_1 h_S_) : (⟨S100000x1, .f32⟩ : BufTy).Contents (Elt F) → (⟨S_, .f32⟩ : BufTy).Contents (Elt F) → (⟨S_, .f32⟩ : BufTy).Contents (Elt F)),
    unary main_v202 main_v203 (broadcastInDim S1x64 ![] bcast_S_S1x64 : (⟨S_, .f32⟩ : BufTy).Contents (Elt F) → (⟨S1x64, .f32⟩ : BufTy).Contents (Elt F)),
    binary main_v201 main_v203 main_v204 (Host.divf : (⟨S1x64, .f32⟩ : BufTy).Contents (Elt F) → (⟨S1x64, .f32⟩ : BufTy).Contents (Elt F) → (⟨S1x64, .f32⟩ : BufTy).Contents (Elt F)),
    unary main_arg13 main_v205 ((transpose S64x256 [1, 0] · transposes_S256x64_S64x256_1_0) : (⟨S256x64, .f32⟩ : BufTy).Contents (Elt F) → (⟨S64x256, .f32⟩ : BufTy).Contents (Elt F)),
    binary main_v204 main_v205 main_v206 ((fun l r => Host.dotGeneral dot_S1x64_S64x256_S1x256_1_0_0_1_n_n none l r) : (⟨S1x64, .f32⟩ : BufTy).Contents (Elt F) → (⟨S64x256, .f32⟩ : BufTy).Contents (Elt F) → (⟨S1x256, .f32⟩ : BufTy).Contents (Elt F)),
    unary main_arg14 main_v207 (broadcastInDim S1x256 ![1] bcast_S256_S1x256_1 : (⟨S256, .f32⟩ : BufTy).Contents (Elt F) → (⟨S1x256, .f32⟩ : BufTy).Contents (Elt F)),
    binary main_v206 main_v207 main_v208 (addf : (⟨S1x256, .f32⟩ : BufTy).Contents (Elt F) → (⟨S1x256, .f32⟩ : BufTy).Contents (Elt F) → (⟨S1x256, .f32⟩ : BufTy).Contents (Elt F)) ]
/-- The buffers stretch 12 writes. -/
abbrev s12_W : List (Ref sig .tc) := [main_cst_27, main_v188, main_cst_28, main_v189, main_c_29, main_v190, main_v191, main_c_30, main_v192, main_v193, main_v194, main_v195, main_v196, main_v197, main_v198, main_v199, main_cst_31, main_v200, main_v201, main_cst_32, main_v202, main_v203, main_v204, main_v205, main_v206, main_v207, main_v208]
set_option maxRecDepth 8192 in
set_option maxHeartbeats 4000000 in
theorem s12_writes : (s12 : List (HloOp τ sig (Elt F))).Forall fun op => op.writes ⊆ (s12_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
set_option maxHeartbeats 4000000 in
/-- Stretch 13: operations 269 to 275 of the line, writing `main_call3_cst` … `main_v213`. -/
abbrev s13 : List (HloOp τ sig (Elt F)) :=
  [ TRef.nullary (TRef.of (T := ⟨S_, .f32⟩) main_call3_cst) (constant S_ .f32 0x00000000#32),
    TRef.unary (TRef.of (T := ⟨S_, .f32⟩) main_call3_cst) (TRef.of (T := ⟨S1x256, .f32⟩) main_call3_v0) (broadcastInDim S1x256 ![] bcast_S_S1x256),
    TRef.binary (TRef.of (T := ⟨S1x256, .f32⟩) main_v208) (TRef.of (T := ⟨S1x256, .f32⟩) main_call3_v0) (TRef.of (T := ⟨S1x256, .f32⟩) main_v209) maximumf,
    unary main_arg15 main_v210 ((transpose S256x2 [1, 0] · transposes_S2x256_S256x2_1_0) : (⟨S2x256, .f32⟩ : BufTy).Contents (Elt F) → (⟨S256x2, .f32⟩ : BufTy).Contents (Elt F)),
    binary main_v209 main_v210 main_v211 ((fun l r => Host.dotGeneral dot_S1x256_S256x2_S1x2_1_0_0_1_n_n none l r) : (⟨S1x256, .f32⟩ : BufTy).Contents (Elt F) → (⟨S256x2, .f32⟩ : BufTy).Contents (Elt F) → (⟨S1x2, .f32⟩ : BufTy).Contents (Elt F)),
    unary main_arg16 main_v212 (broadcastInDim S1x2 ![1] bcast_S2_S1x2_1 : (⟨S2, .f32⟩ : BufTy).Contents (Elt F) → (⟨S1x2, .f32⟩ : BufTy).Contents (Elt F)),
    binary main_v211 main_v212 main_v213 (addf : (⟨S1x2, .f32⟩ : BufTy).Contents (Elt F) → (⟨S1x2, .f32⟩ : BufTy).Contents (Elt F) → (⟨S1x2, .f32⟩ : BufTy).Contents (Elt F)) ]
/-- The buffers stretch 13 writes. -/
abbrev s13_W : List (Ref sig .tc) := [main_call3_cst, main_call3_v0, main_v209, main_v210, main_v211, main_v212, main_v213]
set_option maxRecDepth 8192 in
set_option maxHeartbeats 4000000 in
theorem s13_writes : (s13 : List (HloOp τ sig (Elt F))).Forall fun op => op.writes ⊆ (s13_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
set_option maxHeartbeats 4000000 in
/-- Stretch 14: operations 276 to 290 of the line, writing `main_call4_cst` … `main_v214`. -/
abbrev s14 : List (HloOp τ sig (Elt F)) :=
  [ TRef.nullary (TRef.of (T := ⟨S_, .f32⟩) main_call4_cst) (constant S_ .f32 0xFF800000#32),
    TRef.binary (TRef.of (T := ⟨S1x2, .f32⟩) main_v213) (TRef.of (T := ⟨S_, .f32⟩) main_call4_cst) (TRef.of (T := ⟨S1, .f32⟩) main_call4_v0) (fun x v => Host.reduce FloatOps.maximumf x v reducesTo_S1x2_S1_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S1, .f32⟩) main_call4_v1) (broadcastInDim S1 ![] bcast_S_S1),
    TRef.binary (TRef.of (T := ⟨S1, .f32⟩) main_call4_v1) (TRef.of (T := ⟨S1, .f32⟩) main_call4_v0) (TRef.of (T := ⟨S1, .f32⟩) main_call4_v2) maximumf,
    TRef.unary (TRef.of (T := ⟨S1, .f32⟩) main_call4_v2) (TRef.of (T := ⟨S1x1, .f32⟩) main_call4_v3) (broadcastInDim S1x1 ![0] bcast_S1_S1x1_0),
    TRef.unary (TRef.of (T := ⟨S1x1, .f32⟩) main_call4_v3) (TRef.of (T := ⟨S1x2, .f32⟩) main_call4_v4) (broadcastInDim S1x2 ![0, 1] bcast_S1x1_S1x2_0_1),
    TRef.binary (TRef.of (T := ⟨S1x2, .f32⟩) main_v213) (TRef.of (T := ⟨S1x2, .f32⟩) main_call4_v4) (TRef.of (T := ⟨S1x2, .f32⟩) main_call4_v5) subf,
    TRef.unary (TRef.of (T := ⟨S1x2, .f32⟩) main_call4_v5) (TRef.of (T := ⟨S1x2, .f32⟩) main_call4_v6) Host.exp,
    TRef.nullary (TRef.of (T := ⟨S_, .f32⟩) main_call4_cst_1) (constant S_ .f32 0x00000000#32),
    TRef.binary (TRef.of (T := ⟨S1x2, .f32⟩) main_call4_v6) (TRef.of (T := ⟨S_, .f32⟩) main_call4_cst_1) (TRef.of (T := ⟨S1, .f32⟩) main_call4_v7) (fun x v => Host.reduceAdd x v reducesTo_S1x2_S1_d1 h_S_),
    TRef.unary (TRef.of (T := ⟨S1, .f32⟩) main_call4_v7) (TRef.of (T := ⟨S1x1, .f32⟩) main_call4_v8) (broadcastInDim S1x1 ![0] bcast_S1_S1x1_0),
    TRef.unary (TRef.of (T := ⟨S1x1, .f32⟩) main_call4_v8) (TRef.of (T := ⟨S1x1, .f32⟩) main_call4_v9) Host.log,
    TRef.unary (TRef.of (T := ⟨S1x1, .f32⟩) main_call4_v9) (TRef.of (T := ⟨S1x2, .f32⟩) main_call4_v10) (broadcastInDim S1x2 ![0, 1] bcast_S1x1_S1x2_0_1),
    TRef.binary (TRef.of (T := ⟨S1x2, .f32⟩) main_call4_v5) (TRef.of (T := ⟨S1x2, .f32⟩) main_call4_v10) (TRef.of (T := ⟨S1x2, .f32⟩) main_v214) subf ]
/-- The buffers stretch 14 writes. -/
abbrev s14_W : List (Ref sig .tc) := [main_call4_cst, main_call4_v0, main_call4_cst_0, main_call4_v1, main_call4_v2, main_call4_v3, main_call4_v4, main_call4_v5, main_call4_v6, main_call4_cst_1, main_call4_v7, main_call4_v8, main_call4_v9, main_call4_v10, main_v214]
set_option maxRecDepth 8192 in
set_option maxHeartbeats 4000000 in
theorem s14_writes : (s14 : List (HloOp τ sig (Elt F))).Forall fun op => op.writes ⊆ (s14_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The whole line is the stretches one after the other. -/
theorem ops_eq : (ValueP.ops : List (HloOp τ sig (Elt F))) = s1 ++ (s2 ++ (s3 ++ (s4 ++ (s5 ++ (s6 ++ (s7 ++ (s8 ++ (s9 ++ (s10 ++ (s11 ++ (s12 ++ (s13 ++ (s14))))))))))))) := rfl

/-! ### The contents after each stretch -/

/-- The contents the line is entered with. -/
def val0 (V0 : Valuation τ sig (Elt F)) : Valuation τ sig (Elt F) := V0
theorem val0_args (V0 : Valuation τ sig (Elt F)) (r : Ref sig .tc) : val0 V0 (no_index (Proc.devRef .tc r)) = V0 (Proc.devRef .tc r) := rfl

/-- The contents after the first 1 stretch. -/
def val1 (V0 : Valuation τ sig (Elt F)) : Valuation τ sig (Elt F) := after s1 (val0 V0)
/-- A buffer stretch 1 does not write keeps its contents through it. -/
theorem val1_keep (V0 : Valuation τ sig (Elt F)) (r : Ref sig .tc) (h : r ∉ s1_W) :
    val1 V0 (Proc.devRef .tc r) = val0 V0 (Proc.devRef .tc r) :=
  after_of_writes_sub s1 _ s1_writes h
/-- A buffer none of the first 1 stretch writes is as the line found it. -/
theorem val1_args (V0 : Valuation τ sig (Elt F)) (r : Ref sig .tc) (h1 : r ∉ s1_W) :
    val1 V0 (no_index (Proc.devRef .tc r)) = V0 (Proc.devRef .tc r) :=
  (val1_keep V0 r h1).trans (val0_args V0 r)
set_option maxRecDepth 8192 in
set_option maxHeartbeats 1700000 in
theorem val1_main_v1 (V0 : Valuation τ sig (Elt F)) :
    val1 V0 (no_index (Proc.devRef .tc main_v1)) = val_main_v1 (F := F) (V0 (Proc.devRef .tc main_arg1)) := by
  unfold val1
  simp only [s1]
  after_results_simp
  try simp (disch := decide) only [val0_args]
  all_goals rfl
set_option maxRecDepth 8192 in
set_option maxHeartbeats 1700000 in
theorem val1_main_v3 (V0 : Valuation τ sig (Elt F)) :
    val1 V0 (no_index (Proc.devRef .tc main_v3)) = val_main_v3 (F := F) (V0 (Proc.devRef .tc main_arg1)) := by
  unfold val1
  simp only [s1]
  after_results_simp
  try simp (disch := decide) only [val0_args]
  all_goals rfl
set_option maxRecDepth 8192 in
set_option maxHeartbeats 1700000 in
theorem val1_main_v14 (V0 : Valuation τ sig (Elt F)) :
    val1 V0 (no_index (Proc.devRef .tc main_v14)) = val_main_v14 (F := F) (V0 (Proc.devRef .tc main_arg0)) (V0 (Proc.devRef .tc main_arg4)) (V0 (Proc.devRef .tc main_arg5)) (V0 (Proc.devRef .tc main_arg6)) (V0 (Proc.devRef .tc main_arg7)) := by
  unfold val1
  simp only [s1]
  after_results_simp
  try simp (disch := decide) only [val0_args]
  all_goals rfl

/-- The contents after the first 2 stretches. -/
def val2 (V0 : Valuation τ sig (Elt F)) : Valuation τ sig (Elt F) := after s2 (val1 V0)
/-- A buffer stretch 2 does not write keeps its contents through it. -/
theorem val2_keep (V0 : Valuation τ sig (Elt F)) (r : Ref sig .tc) (h : r ∉ s2_W) :
    val2 V0 (Proc.devRef .tc r) = val1 V0 (Proc.devRef .tc r) :=
  after_of_writes_sub s2 _ s2_writes h
/-- A buffer none of the first 2 stretches writes is as the line found it. -/
theorem val2_args (V0 : Valuation τ sig (Elt F)) (r : Ref sig .tc) (h1 : r ∉ s1_W) (h2 : r ∉ s2_W) :
    val2 V0 (no_index (Proc.devRef .tc r)) = V0 (Proc.devRef .tc r) :=
  (val2_keep V0 r h2).trans (val1_args V0 r h1)
theorem val2_main_v1 (V0 : Valuation τ sig (Elt F)) :
    val2 V0 (no_index (Proc.devRef .tc main_v1)) = val_main_v1 (F := F) (V0 (Proc.devRef .tc main_arg1)) :=
  (val2_keep V0 main_v1 (by decide)).trans (val1_main_v1 V0)
theorem val2_main_v3 (V0 : Valuation τ sig (Elt F)) :
    val2 V0 (no_index (Proc.devRef .tc main_v3)) = val_main_v3 (F := F) (V0 (Proc.devRef .tc main_arg1)) :=
  (val2_keep V0 main_v3 (by decide)).trans (val1_main_v3 V0)
theorem val2_main_v14 (V0 : Valuation τ sig (Elt F)) :
    val2 V0 (no_index (Proc.devRef .tc main_v14)) = val_main_v14 (F := F) (V0 (Proc.devRef .tc main_arg0)) (V0 (Proc.devRef .tc main_arg4)) (V0 (Proc.devRef .tc main_arg5)) (V0 (Proc.devRef .tc main_arg6)) (V0 (Proc.devRef .tc main_arg7)) :=
  (val2_keep V0 main_v14 (by decide)).trans (val1_main_v14 V0)
set_option maxRecDepth 8192 in
set_option maxHeartbeats 900000 in
theorem val2_main_v21 (V0 : Valuation τ sig (Elt F)) :
    val2 V0 (no_index (Proc.devRef .tc main_v21)) = val_main_v21 (F := F) (V0 (Proc.devRef .tc main_arg2)) (V0 (Proc.devRef .tc main_arg12)) := by
  unfold val2
  simp only [s2]
  after_results_simp
  try simp (disch := decide) only [val1_args]
  all_goals rfl

/-- The contents after the first 3 stretches. -/
def val3 (V0 : Valuation τ sig (Elt F)) : Valuation τ sig (Elt F) := after s3 (val2 V0)
/-- A buffer stretch 3 does not write keeps its contents through it. -/
theorem val3_keep (V0 : Valuation τ sig (Elt F)) (r : Ref sig .tc) (h : r ∉ s3_W) :
    val3 V0 (Proc.devRef .tc r) = val2 V0 (Proc.devRef .tc r) :=
  after_of_writes_sub s3 _ s3_writes h
/-- A buffer none of the first 3 stretches writes is as the line found it. -/
theorem val3_args (V0 : Valuation τ sig (Elt F)) (r : Ref sig .tc) (h1 : r ∉ s1_W) (h2 : r ∉ s2_W) (h3 : r ∉ s3_W) :
    val3 V0 (no_index (Proc.devRef .tc r)) = V0 (Proc.devRef .tc r) :=
  (val3_keep V0 r h3).trans (val2_args V0 r h1 h2)
theorem val3_main_v1 (V0 : Valuation τ sig (Elt F)) :
    val3 V0 (no_index (Proc.devRef .tc main_v1)) = val_main_v1 (F := F) (V0 (Proc.devRef .tc main_arg1)) :=
  (val3_keep V0 main_v1 (by decide)).trans (val2_main_v1 V0)
theorem val3_main_v3 (V0 : Valuation τ sig (Elt F)) :
    val3 V0 (no_index (Proc.devRef .tc main_v3)) = val_main_v3 (F := F) (V0 (Proc.devRef .tc main_arg1)) :=
  (val3_keep V0 main_v3 (by decide)).trans (val2_main_v3 V0)
theorem val3_main_v14 (V0 : Valuation τ sig (Elt F)) :
    val3 V0 (no_index (Proc.devRef .tc main_v14)) = val_main_v14 (F := F) (V0 (Proc.devRef .tc main_arg0)) (V0 (Proc.devRef .tc main_arg4)) (V0 (Proc.devRef .tc main_arg5)) (V0 (Proc.devRef .tc main_arg6)) (V0 (Proc.devRef .tc main_arg7)) :=
  (val3_keep V0 main_v14 (by decide)).trans (val2_main_v14 V0)
set_option maxRecDepth 8192 in
set_option maxHeartbeats 1500000 in
theorem val3_main_v23 (V0 : Valuation τ sig (Elt F)) :
    val3 V0 (no_index (Proc.devRef .tc main_v23)) = val_main_v23 (F := F) (V0 (Proc.devRef .tc main_arg2)) (V0 (Proc.devRef .tc main_arg12)) := by
  unfold val3
  simp only [s3]
  after_results_simp
  try simp (disch := decide) only [val2_main_v21, val2_args]
  all_goals rfl

/-- The contents after the first 4 stretches. -/
def val4 (V0 : Valuation τ sig (Elt F)) : Valuation τ sig (Elt F) := after s4 (val3 V0)
/-- A buffer stretch 4 does not write keeps its contents through it. -/
theorem val4_keep (V0 : Valuation τ sig (Elt F)) (r : Ref sig .tc) (h : r ∉ s4_W) :
    val4 V0 (Proc.devRef .tc r) = val3 V0 (Proc.devRef .tc r) :=
  after_of_writes_sub s4 _ s4_writes h
/-- A buffer none of the first 4 stretches writes is as the line found it. -/
theorem val4_args (V0 : Valuation τ sig (Elt F)) (r : Ref sig .tc) (h1 : r ∉ s1_W) (h2 : r ∉ s2_W) (h3 : r ∉ s3_W) (h4 : r ∉ s4_W) :
    val4 V0 (no_index (Proc.devRef .tc r)) = V0 (Proc.devRef .tc r) :=
  (val4_keep V0 r h4).trans (val3_args V0 r h1 h2 h3)
theorem val4_main_v1 (V0 : Valuation τ sig (Elt F)) :
    val4 V0 (no_index (Proc.devRef .tc main_v1)) = val_main_v1 (F := F) (V0 (Proc.devRef .tc main_arg1)) :=
  (val4_keep V0 main_v1 (by decide)).trans (val3_main_v1 V0)
theorem val4_main_v3 (V0 : Valuation τ sig (Elt F)) :
    val4 V0 (no_index (Proc.devRef .tc main_v3)) = val_main_v3 (F := F) (V0 (Proc.devRef .tc main_arg1)) :=
  (val4_keep V0 main_v3 (by decide)).trans (val3_main_v3 V0)
theorem val4_main_v14 (V0 : Valuation τ sig (Elt F)) :
    val4 V0 (no_index (Proc.devRef .tc main_v14)) = val_main_v14 (F := F) (V0 (Proc.devRef .tc main_arg0)) (V0 (Proc.devRef .tc main_arg4)) (V0 (Proc.devRef .tc main_arg5)) (V0 (Proc.devRef .tc main_arg6)) (V0 (Proc.devRef .tc main_arg7)) :=
  (val4_keep V0 main_v14 (by decide)).trans (val3_main_v14 V0)
theorem val4_main_v23 (V0 : Valuation τ sig (Elt F)) :
    val4 V0 (no_index (Proc.devRef .tc main_v23)) = val_main_v23 (F := F) (V0 (Proc.devRef .tc main_arg2)) (V0 (Proc.devRef .tc main_arg12)) :=
  (val4_keep V0 main_v23 (by decide)).trans (val3_main_v23 V0)
set_option maxRecDepth 8192 in
set_option maxHeartbeats 1000000 in
theorem val4_main_v30 (V0 : Valuation τ sig (Elt F)) :
    val4 V0 (no_index (Proc.devRef .tc main_v30)) = val_main_v30 (F := F) (V0 (Proc.devRef .tc main_arg1)) := by
  unfold val4
  simp only [s4]
  after_results_simp
  try simp (disch := decide) only [val3_main_v3, val3_args]
  all_goals rfl

/-- The contents after the first 5 stretches. -/
def val5 (V0 : Valuation τ sig (Elt F)) : Valuation τ sig (Elt F) := after s5 (val4 V0)
/-- A buffer stretch 5 does not write keeps its contents through it. -/
theorem val5_keep (V0 : Valuation τ sig (Elt F)) (r : Ref sig .tc) (h : r ∉ s5_W) :
    val5 V0 (Proc.devRef .tc r) = val4 V0 (Proc.devRef .tc r) :=
  after_of_writes_sub s5 _ s5_writes h
/-- A buffer none of the first 5 stretches writes is as the line found it. -/
theorem val5_args (V0 : Valuation τ sig (Elt F)) (r : Ref sig .tc) (h1 : r ∉ s1_W) (h2 : r ∉ s2_W) (h3 : r ∉ s3_W) (h4 : r ∉ s4_W) (h5 : r ∉ s5_W) :
    val5 V0 (no_index (Proc.devRef .tc r)) = V0 (Proc.devRef .tc r) :=
  (val5_keep V0 r h5).trans (val4_args V0 r h1 h2 h3 h4)
theorem val5_main_v1 (V0 : Valuation τ sig (Elt F)) :
    val5 V0 (no_index (Proc.devRef .tc main_v1)) = val_main_v1 (F := F) (V0 (Proc.devRef .tc main_arg1)) :=
  (val5_keep V0 main_v1 (by decide)).trans (val4_main_v1 V0)
theorem val5_main_v3 (V0 : Valuation τ sig (Elt F)) :
    val5 V0 (no_index (Proc.devRef .tc main_v3)) = val_main_v3 (F := F) (V0 (Proc.devRef .tc main_arg1)) :=
  (val5_keep V0 main_v3 (by decide)).trans (val4_main_v3 V0)
theorem val5_main_v14 (V0 : Valuation τ sig (Elt F)) :
    val5 V0 (no_index (Proc.devRef .tc main_v14)) = val_main_v14 (F := F) (V0 (Proc.devRef .tc main_arg0)) (V0 (Proc.devRef .tc main_arg4)) (V0 (Proc.devRef .tc main_arg5)) (V0 (Proc.devRef .tc main_arg6)) (V0 (Proc.devRef .tc main_arg7)) :=
  (val5_keep V0 main_v14 (by decide)).trans (val4_main_v14 V0)
theorem val5_main_v23 (V0 : Valuation τ sig (Elt F)) :
    val5 V0 (no_index (Proc.devRef .tc main_v23)) = val_main_v23 (F := F) (V0 (Proc.devRef .tc main_arg2)) (V0 (Proc.devRef .tc main_arg12)) :=
  (val5_keep V0 main_v23 (by decide)).trans (val4_main_v23 V0)
theorem val5_main_v30 (V0 : Valuation τ sig (Elt F)) :
    val5 V0 (no_index (Proc.devRef .tc main_v30)) = val_main_v30 (F := F) (V0 (Proc.devRef .tc main_arg1)) :=
  (val5_keep V0 main_v30 (by decide)).trans (val4_main_v30 V0)
set_option maxRecDepth 8192 in
set_option maxHeartbeats 1700000 in
theorem val5_main_v44 (V0 : Valuation τ sig (Elt F)) :
    val5 V0 (no_index (Proc.devRef .tc main_v44)) = val_main_v44 (F := F) (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg12)) := by
  unfold val5
  simp only [s5]
  after_results_simp
  try simp (disch := decide) only [val4_main_v30, val4_main_v1, val4_main_v14, val4_main_v23, val4_main_v3, val4_args]
  all_goals rfl

/-- The contents after the first 6 stretches. -/
def val6 (V0 : Valuation τ sig (Elt F)) : Valuation τ sig (Elt F) := after s6 (val5 V0)
/-- A buffer stretch 6 does not write keeps its contents through it. -/
theorem val6_keep (V0 : Valuation τ sig (Elt F)) (r : Ref sig .tc) (h : r ∉ s6_W) :
    val6 V0 (Proc.devRef .tc r) = val5 V0 (Proc.devRef .tc r) :=
  after_of_writes_sub s6 _ s6_writes h
/-- A buffer none of the first 6 stretches writes is as the line found it. -/
theorem val6_args (V0 : Valuation τ sig (Elt F)) (r : Ref sig .tc) (h1 : r ∉ s1_W) (h2 : r ∉ s2_W) (h3 : r ∉ s3_W) (h4 : r ∉ s4_W) (h5 : r ∉ s5_W) (h6 : r ∉ s6_W) :
    val6 V0 (no_index (Proc.devRef .tc r)) = V0 (Proc.devRef .tc r) :=
  (val6_keep V0 r h6).trans (val5_args V0 r h1 h2 h3 h4 h5)
theorem val6_main_v1 (V0 : Valuation τ sig (Elt F)) :
    val6 V0 (no_index (Proc.devRef .tc main_v1)) = val_main_v1 (F := F) (V0 (Proc.devRef .tc main_arg1)) :=
  (val6_keep V0 main_v1 (by decide)).trans (val5_main_v1 V0)
theorem val6_main_v3 (V0 : Valuation τ sig (Elt F)) :
    val6 V0 (no_index (Proc.devRef .tc main_v3)) = val_main_v3 (F := F) (V0 (Proc.devRef .tc main_arg1)) :=
  (val6_keep V0 main_v3 (by decide)).trans (val5_main_v3 V0)
theorem val6_main_v23 (V0 : Valuation τ sig (Elt F)) :
    val6 V0 (no_index (Proc.devRef .tc main_v23)) = val_main_v23 (F := F) (V0 (Proc.devRef .tc main_arg2)) (V0 (Proc.devRef .tc main_arg12)) :=
  (val6_keep V0 main_v23 (by decide)).trans (val5_main_v23 V0)
theorem val6_main_v30 (V0 : Valuation τ sig (Elt F)) :
    val6 V0 (no_index (Proc.devRef .tc main_v30)) = val_main_v30 (F := F) (V0 (Proc.devRef .tc main_arg1)) :=
  (val6_keep V0 main_v30 (by decide)).trans (val5_main_v30 V0)
set_option maxRecDepth 8192 in
set_option maxHeartbeats 4000000 in
theorem val6_main_v82 (V0 : Valuation τ sig (Elt F)) :
    val6 V0 (no_index (Proc.devRef .tc main_v82)) = val_main_v82 (F := F) (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) := by
  unfold val6
  simp only [s6]
  after_results_simp
  try simp (disch := decide) only [val5_main_v14, val5_main_v44, val5_args]
  all_goals rfl

/-- The contents after the first 7 stretches. -/
def val7 (V0 : Valuation τ sig (Elt F)) : Valuation τ sig (Elt F) := after s7 (val6 V0)
/-- A buffer stretch 7 does not write keeps its contents through it. -/
theorem val7_keep (V0 : Valuation τ sig (Elt F)) (r : Ref sig .tc) (h : r ∉ s7_W) :
    val7 V0 (Proc.devRef .tc r) = val6 V0 (Proc.devRef .tc r) :=
  after_of_writes_sub s7 _ s7_writes h
/-- A buffer none of the first 7 stretches writes is as the line found it. -/
theorem val7_args (V0 : Valuation τ sig (Elt F)) (r : Ref sig .tc) (h1 : r ∉ s1_W) (h2 : r ∉ s2_W) (h3 : r ∉ s3_W) (h4 : r ∉ s4_W) (h5 : r ∉ s5_W) (h6 : r ∉ s6_W) (h7 : r ∉ s7_W) :
    val7 V0 (no_index (Proc.devRef .tc r)) = V0 (Proc.devRef .tc r) :=
  (val7_keep V0 r h7).trans (val6_args V0 r h1 h2 h3 h4 h5 h6)
theorem val7_main_v1 (V0 : Valuation τ sig (Elt F)) :
    val7 V0 (no_index (Proc.devRef .tc main_v1)) = val_main_v1 (F := F) (V0 (Proc.devRef .tc main_arg1)) :=
  (val7_keep V0 main_v1 (by decide)).trans (val6_main_v1 V0)
theorem val7_main_v3 (V0 : Valuation τ sig (Elt F)) :
    val7 V0 (no_index (Proc.devRef .tc main_v3)) = val_main_v3 (F := F) (V0 (Proc.devRef .tc main_arg1)) :=
  (val7_keep V0 main_v3 (by decide)).trans (val6_main_v3 V0)
theorem val7_main_v23 (V0 : Valuation τ sig (Elt F)) :
    val7 V0 (no_index (Proc.devRef .tc main_v23)) = val_main_v23 (F := F) (V0 (Proc.devRef .tc main_arg2)) (V0 (Proc.devRef .tc main_arg12)) :=
  (val7_keep V0 main_v23 (by decide)).trans (val6_main_v23 V0)
theorem val7_main_v30 (V0 : Valuation τ sig (Elt F)) :
    val7 V0 (no_index (Proc.devRef .tc main_v30)) = val_main_v30 (F := F) (V0 (Proc.devRef .tc main_arg1)) :=
  (val7_keep V0 main_v30 (by decide)).trans (val6_main_v30 V0)
theorem val7_main_v82 (V0 : Valuation τ sig (Elt F)) :
    val7 V0 (no_index (Proc.devRef .tc main_v82)) = val_main_v82 (F := F) (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) :=
  (val7_keep V0 main_v82 (by decide)).trans (val6_main_v82 V0)
set_option maxRecDepth 8192 in
set_option maxHeartbeats 1700000 in
theorem val7_main_v96 (V0 : Valuation τ sig (Elt F)) :
    val7 V0 (no_index (Proc.devRef .tc main_v96)) = val_main_v96 (F := F) (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) := by
  unfold val7
  simp only [s7]
  after_results_simp
  try simp (disch := decide) only [val6_main_v30, val6_main_v1, val6_main_v82, val6_main_v23, val6_main_v3, val6_args]
  all_goals rfl

/-- The contents after the first 8 stretches. -/
def val8 (V0 : Valuation τ sig (Elt F)) : Valuation τ sig (Elt F) := after s8 (val7 V0)
/-- A buffer stretch 8 does not write keeps its contents through it. -/
theorem val8_keep (V0 : Valuation τ sig (Elt F)) (r : Ref sig .tc) (h : r ∉ s8_W) :
    val8 V0 (Proc.devRef .tc r) = val7 V0 (Proc.devRef .tc r) :=
  after_of_writes_sub s8 _ s8_writes h
/-- A buffer none of the first 8 stretches writes is as the line found it. -/
theorem val8_args (V0 : Valuation τ sig (Elt F)) (r : Ref sig .tc) (h1 : r ∉ s1_W) (h2 : r ∉ s2_W) (h3 : r ∉ s3_W) (h4 : r ∉ s4_W) (h5 : r ∉ s5_W) (h6 : r ∉ s6_W) (h7 : r ∉ s7_W) (h8 : r ∉ s8_W) :
    val8 V0 (no_index (Proc.devRef .tc r)) = V0 (Proc.devRef .tc r) :=
  (val8_keep V0 r h8).trans (val7_args V0 r h1 h2 h3 h4 h5 h6 h7)
theorem val8_main_v1 (V0 : Valuation τ sig (Elt F)) :
    val8 V0 (no_index (Proc.devRef .tc main_v1)) = val_main_v1 (F := F) (V0 (Proc.devRef .tc main_arg1)) :=
  (val8_keep V0 main_v1 (by decide)).trans (val7_main_v1 V0)
theorem val8_main_v3 (V0 : Valuation τ sig (Elt F)) :
    val8 V0 (no_index (Proc.devRef .tc main_v3)) = val_main_v3 (F := F) (V0 (Proc.devRef .tc main_arg1)) :=
  (val8_keep V0 main_v3 (by decide)).trans (val7_main_v3 V0)
theorem val8_main_v23 (V0 : Valuation τ sig (Elt F)) :
    val8 V0 (no_index (Proc.devRef .tc main_v23)) = val_main_v23 (F := F) (V0 (Proc.devRef .tc main_arg2)) (V0 (Proc.devRef .tc main_arg12)) :=
  (val8_keep V0 main_v23 (by decide)).trans (val7_main_v23 V0)
theorem val8_main_v30 (V0 : Valuation τ sig (Elt F)) :
    val8 V0 (no_index (Proc.devRef .tc main_v30)) = val_main_v30 (F := F) (V0 (Proc.devRef .tc main_arg1)) :=
  (val8_keep V0 main_v30 (by decide)).trans (val7_main_v30 V0)
set_option maxRecDepth 8192 in
set_option maxHeartbeats 4000000 in
theorem val8_main_v134 (V0 : Valuation τ sig (Elt F)) :
    val8 V0 (no_index (Proc.devRef .tc main_v134)) = val_main_v134 (F := F) (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) := by
  unfold val8
  simp only [s8]
  after_results_simp
  try simp (disch := decide) only [val7_main_v82, val7_main_v96, val7_args]
  all_goals rfl

/-- The contents after the first 9 stretches. -/
def val9 (V0 : Valuation τ sig (Elt F)) : Valuation τ sig (Elt F) := after s9 (val8 V0)
/-- A buffer stretch 9 does not write keeps its contents through it. -/
theorem val9_keep (V0 : Valuation τ sig (Elt F)) (r : Ref sig .tc) (h : r ∉ s9_W) :
    val9 V0 (Proc.devRef .tc r) = val8 V0 (Proc.devRef .tc r) :=
  after_of_writes_sub s9 _ s9_writes h
/-- A buffer none of the first 9 stretches writes is as the line found it. -/
theorem val9_args (V0 : Valuation τ sig (Elt F)) (r : Ref sig .tc) (h1 : r ∉ s1_W) (h2 : r ∉ s2_W) (h3 : r ∉ s3_W) (h4 : r ∉ s4_W) (h5 : r ∉ s5_W) (h6 : r ∉ s6_W) (h7 : r ∉ s7_W) (h8 : r ∉ s8_W) (h9 : r ∉ s9_W) :
    val9 V0 (no_index (Proc.devRef .tc r)) = V0 (Proc.devRef .tc r) :=
  (val9_keep V0 r h9).trans (val8_args V0 r h1 h2 h3 h4 h5 h6 h7 h8)
theorem val9_main_v134 (V0 : Valuation τ sig (Elt F)) :
    val9 V0 (no_index (Proc.devRef .tc main_v134)) = val_main_v134 (F := F) (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) :=
  (val9_keep V0 main_v134 (by decide)).trans (val8_main_v134 V0)
set_option maxRecDepth 8192 in
set_option maxHeartbeats 1700000 in
theorem val9_main_v148 (V0 : Valuation τ sig (Elt F)) :
    val9 V0 (no_index (Proc.devRef .tc main_v148)) = val_main_v148 (F := F) (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) := by
  unfold val9
  simp only [s9]
  after_results_simp
  try simp (disch := decide) only [val8_main_v30, val8_main_v1, val8_main_v134, val8_main_v23, val8_main_v3, val8_args]
  all_goals rfl

/-- The contents after the first 10 stretches. -/
def val10 (V0 : Valuation τ sig (Elt F)) : Valuation τ sig (Elt F) := after s10 (val9 V0)
/-- A buffer stretch 10 does not write keeps its contents through it. -/
theorem val10_keep (V0 : Valuation τ sig (Elt F)) (r : Ref sig .tc) (h : r ∉ s10_W) :
    val10 V0 (Proc.devRef .tc r) = val9 V0 (Proc.devRef .tc r) :=
  after_of_writes_sub s10 _ s10_writes h
/-- A buffer none of the first 10 stretches writes is as the line found it. -/
theorem val10_args (V0 : Valuation τ sig (Elt F)) (r : Ref sig .tc) (h1 : r ∉ s1_W) (h2 : r ∉ s2_W) (h3 : r ∉ s3_W) (h4 : r ∉ s4_W) (h5 : r ∉ s5_W) (h6 : r ∉ s6_W) (h7 : r ∉ s7_W) (h8 : r ∉ s8_W) (h9 : r ∉ s9_W) (h10 : r ∉ s10_W) :
    val10 V0 (no_index (Proc.devRef .tc r)) = V0 (Proc.devRef .tc r) :=
  (val10_keep V0 r h10).trans (val9_args V0 r h1 h2 h3 h4 h5 h6 h7 h8 h9)
set_option maxRecDepth 8192 in
set_option maxHeartbeats 4000000 in
theorem val10_main_v186 (V0 : Valuation τ sig (Elt F)) :
    val10 V0 (no_index (Proc.devRef .tc main_v186)) = val_main_v186 (F := F) (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) := by
  unfold val10
  simp only [s10]
  after_results_simp
  try simp (disch := decide) only [val9_main_v134, val9_main_v148, val9_args]
  all_goals rfl

/-- The contents after the first 11 stretches. -/
def val11 (V0 : Valuation τ sig (Elt F)) : Valuation τ sig (Elt F) := after s11 (val10 V0)
/-- A buffer stretch 11 does not write keeps its contents through it. -/
theorem val11_keep (V0 : Valuation τ sig (Elt F)) (r : Ref sig .tc) (h : r ∉ s11_W) :
    val11 V0 (Proc.devRef .tc r) = val10 V0 (Proc.devRef .tc r) :=
  after_of_writes_sub s11 _ s11_writes h
/-- A buffer none of the first 11 stretches writes is as the line found it. -/
theorem val11_args (V0 : Valuation τ sig (Elt F)) (r : Ref sig .tc) (h1 : r ∉ s1_W) (h2 : r ∉ s2_W) (h3 : r ∉ s3_W) (h4 : r ∉ s4_W) (h5 : r ∉ s5_W) (h6 : r ∉ s6_W) (h7 : r ∉ s7_W) (h8 : r ∉ s8_W) (h9 : r ∉ s9_W) (h10 : r ∉ s10_W) (h11 : r ∉ s11_W) :
    val11 V0 (no_index (Proc.devRef .tc r)) = V0 (Proc.devRef .tc r) :=
  (val11_keep V0 r h11).trans (val10_args V0 r h1 h2 h3 h4 h5 h6 h7 h8 h9 h10)
theorem val11_main_v186 (V0 : Valuation τ sig (Elt F)) :
    val11 V0 (no_index (Proc.devRef .tc main_v186)) = val_main_v186 (F := F) (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) :=
  (val11_keep V0 main_v186 (by decide)).trans (val10_main_v186 V0)
set_option maxRecDepth 8192 in
set_option maxHeartbeats 1100000 in
theorem val11_main_v187 (V0 : Valuation τ sig (Elt F)) :
    val11 V0 (no_index (Proc.devRef .tc main_v187)) = val_main_v187 (F := F) (V0 (Proc.devRef .tc main_arg17)) := by
  unfold val11
  simp only [s11]
  after_results_simp
  try simp (disch := decide) only [val10_args]
  all_goals rfl

/-- The contents after the first 12 stretches. -/
def val12 (V0 : Valuation τ sig (Elt F)) : Valuation τ sig (Elt F) := after s12 (val11 V0)
/-- A buffer stretch 12 does not write keeps its contents through it. -/
theorem val12_keep (V0 : Valuation τ sig (Elt F)) (r : Ref sig .tc) (h : r ∉ s12_W) :
    val12 V0 (Proc.devRef .tc r) = val11 V0 (Proc.devRef .tc r) :=
  after_of_writes_sub s12 _ s12_writes h
/-- A buffer none of the first 12 stretches writes is as the line found it. -/
theorem val12_args (V0 : Valuation τ sig (Elt F)) (r : Ref sig .tc) (h1 : r ∉ s1_W) (h2 : r ∉ s2_W) (h3 : r ∉ s3_W) (h4 : r ∉ s4_W) (h5 : r ∉ s5_W) (h6 : r ∉ s6_W) (h7 : r ∉ s7_W) (h8 : r ∉ s8_W) (h9 : r ∉ s9_W) (h10 : r ∉ s10_W) (h11 : r ∉ s11_W) (h12 : r ∉ s12_W) :
    val12 V0 (no_index (Proc.devRef .tc r)) = V0 (Proc.devRef .tc r) :=
  (val12_keep V0 r h12).trans (val11_args V0 r h1 h2 h3 h4 h5 h6 h7 h8 h9 h10 h11)
set_option maxRecDepth 8192 in
set_option maxHeartbeats 2700000 in
theorem val12_main_v208 (V0 : Valuation τ sig (Elt F)) :
    val12 V0 (no_index (Proc.devRef .tc main_v208)) = val_main_v208 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg17)) := by
  unfold val12
  simp only [s12]
  after_results_simp
  try simp (disch := decide) only [val11_main_v187, val11_main_v186, val11_args]
  all_goals rfl

/-- The contents after the first 13 stretches. -/
def val13 (V0 : Valuation τ sig (Elt F)) : Valuation τ sig (Elt F) := after s13 (val12 V0)
/-- A buffer stretch 13 does not write keeps its contents through it. -/
theorem val13_keep (V0 : Valuation τ sig (Elt F)) (r : Ref sig .tc) (h : r ∉ s13_W) :
    val13 V0 (Proc.devRef .tc r) = val12 V0 (Proc.devRef .tc r) :=
  after_of_writes_sub s13 _ s13_writes h
/-- A buffer none of the first 13 stretches writes is as the line found it. -/
theorem val13_args (V0 : Valuation τ sig (Elt F)) (r : Ref sig .tc) (h1 : r ∉ s1_W) (h2 : r ∉ s2_W) (h3 : r ∉ s3_W) (h4 : r ∉ s4_W) (h5 : r ∉ s5_W) (h6 : r ∉ s6_W) (h7 : r ∉ s7_W) (h8 : r ∉ s8_W) (h9 : r ∉ s9_W) (h10 : r ∉ s10_W) (h11 : r ∉ s11_W) (h12 : r ∉ s12_W) (h13 : r ∉ s13_W) :
    val13 V0 (no_index (Proc.devRef .tc r)) = V0 (Proc.devRef .tc r) :=
  (val13_keep V0 r h13).trans (val12_args V0 r h1 h2 h3 h4 h5 h6 h7 h8 h9 h10 h11 h12)
set_option maxRecDepth 8192 in
set_option maxHeartbeats 700000 in
theorem val13_main_v213 (V0 : Valuation τ sig (Elt F)) :
    val13 V0 (no_index (Proc.devRef .tc main_v213)) = val_main_v213 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) := by
  unfold val13
  simp only [s13]
  after_results_simp
  try simp (disch := decide) only [val12_main_v208, val12_args]
  all_goals rfl

/-- The contents after the first 14 stretches. -/
def val14 (V0 : Valuation τ sig (Elt F)) : Valuation τ sig (Elt F) := after s14 (val13 V0)
/-- A buffer stretch 14 does not write keeps its contents through it. -/
theorem val14_keep (V0 : Valuation τ sig (Elt F)) (r : Ref sig .tc) (h : r ∉ s14_W) :
    val14 V0 (Proc.devRef .tc r) = val13 V0 (Proc.devRef .tc r) :=
  after_of_writes_sub s14 _ s14_writes h
/-- A buffer none of the first 14 stretches writes is as the line found it. -/
theorem val14_args (V0 : Valuation τ sig (Elt F)) (r : Ref sig .tc) (h1 : r ∉ s1_W) (h2 : r ∉ s2_W) (h3 : r ∉ s3_W) (h4 : r ∉ s4_W) (h5 : r ∉ s5_W) (h6 : r ∉ s6_W) (h7 : r ∉ s7_W) (h8 : r ∉ s8_W) (h9 : r ∉ s9_W) (h10 : r ∉ s10_W) (h11 : r ∉ s11_W) (h12 : r ∉ s12_W) (h13 : r ∉ s13_W) (h14 : r ∉ s14_W) :
    val14 V0 (no_index (Proc.devRef .tc r)) = V0 (Proc.devRef .tc r) :=
  (val14_keep V0 r h14).trans (val13_args V0 r h1 h2 h3 h4 h5 h6 h7 h8 h9 h10 h11 h12 h13)
set_option maxRecDepth 8192 in
set_option maxHeartbeats 1500000 in
theorem val14_main_v214 (V0 : Valuation τ sig (Elt F)) :
    val14 V0 (no_index (Proc.devRef .tc main_v214)) = val_main_v214 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) := by
  unfold val14
  simp only [s14]
  after_results_simp
  try simp (disch := decide) only [val13_main_v213, val13_args]
  all_goals rfl

/-! ### The run -/

/-- The contents after the whole line are the contents after the last stretch. -/
theorem after_ops (V0 : Valuation τ sig (Elt F)) : after (ValueP.ops : List (HloOp τ sig (Elt F))) V0 = val14 V0 := by
  rw [ops_eq]
  simp only [Cert.Stretch.after_append]
  rfl

/-- On every device, from any memory with zero counters, every weakly fair execution of the reference terminates with its
    result at the last stage of the launch arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v214) = ReadP.val_main_v214 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_v214).trans (by rw [after_ops]; exact val14_main_v214 (launchContents m c)),
      (h c main_arg0).trans (by rw [after_ops]; exact val14_args (launchContents m c) main_arg0 (by decide) (by decide) (by decide) (by decide) (by decide) (by decide) (by decide) (by decide) (by decide) (by decide) (by decide) (by decide) (by decide) (by decide)),
      (h c main_arg1).trans (by rw [after_ops]; exact val14_args (launchContents m c) main_arg1 (by decide) (by decide) (by decide) (by decide) (by decide) (by decide) (by decide) (by decide) (by decide) (by decide) (by decide) (by decide) (by decide) (by decide)),
      (h c main_arg2).trans (by rw [after_ops]; exact val14_args (launchContents m c) main_arg2 (by decide) (by decide) (by decide) (by decide) (by decide) (by decide) (by decide) (by decide) (by decide) (by decide) (by decide) (by decide) (by decide) (by decide)),
      (h c main_arg3).trans (by rw [after_ops]; exact val14_args (launchContents m c) main_arg3 (by decide) (by decide) (by decide) (by decide) (by decide) (by decide) (by decide) (by decide) (by decide) (by decide) (by decide) (by decide) (by decide) (by decide)),
      (h c main_arg4).trans (by rw [after_ops]; exact val14_args (launchContents m c) main_arg4 (by decide) (by decide) (by decide) (by decide) (by decide) (by decide) (by decide) (by decide) (by decide) (by decide) (by decide) (by decide) (by decide) (by decide)),
      (h c main_arg5).trans (by rw [after_ops]; exact val14_args (launchContents m c) main_arg5 (by decide) (by decide) (by decide) (by decide) (by decide) (by decide) (by decide) (by decide) (by decide) (by decide) (by decide) (by decide) (by decide) (by decide)),
      (h c main_arg6).trans (by rw [after_ops]; exact val14_args (launchContents m c) main_arg6 (by decide) (by decide) (by decide) (by decide) (by decide) (by decide) (by decide) (by decide) (by decide) (by decide) (by decide) (by decide) (by decide) (by decide)),
      (h c main_arg7).trans (by rw [after_ops]; exact val14_args (launchContents m c) main_arg7 (by decide) (by decide) (by decide) (by decide) (by decide) (by decide) (by decide) (by decide) (by decide) (by decide) (by decide) (by decide) (by decide) (by decide)),
      (h c main_arg8).trans (by rw [after_ops]; exact val14_args (launchContents m c) main_arg8 (by decide) (by decide) (by decide) (by decide) (by decide) (by decide) (by decide) (by decide) (by decide) (by decide) (by decide) (by decide) (by decide) (by decide)),
      (h c main_arg9).trans (by rw [after_ops]; exact val14_args (launchContents m c) main_arg9 (by decide) (by decide) (by decide) (by decide) (by decide) (by decide) (by decide) (by decide) (by decide) (by decide) (by decide) (by decide) (by decide) (by decide)),
      (h c main_arg10).trans (by rw [after_ops]; exact val14_args (launchContents m c) main_arg10 (by decide) (by decide) (by decide) (by decide) (by decide) (by decide) (by decide) (by decide) (by decide) (by decide) (by decide) (by decide) (by decide) (by decide)),
      (h c main_arg11).trans (by rw [after_ops]; exact val14_args (launchContents m c) main_arg11 (by decide) (by decide) (by decide) (by decide) (by decide) (by decide) (by decide) (by decide) (by decide) (by decide) (by decide) (by decide) (by decide) (by decide)),
      (h c main_arg12).trans (by rw [after_ops]; exact val14_args (launchContents m c) main_arg12 (by decide) (by decide) (by decide) (by decide) (by decide) (by decide) (by decide) (by decide) (by decide) (by decide) (by decide) (by decide) (by decide) (by decide)),
      (h c main_arg13).trans (by rw [after_ops]; exact val14_args (launchContents m c) main_arg13 (by decide) (by decide) (by decide) (by decide) (by decide) (by decide) (by decide) (by decide) (by decide) (by decide) (by decide) (by decide) (by decide) (by decide)),
      (h c main_arg14).trans (by rw [after_ops]; exact val14_args (launchContents m c) main_arg14 (by decide) (by decide) (by decide) (by decide) (by decide) (by decide) (by decide) (by decide) (by decide) (by decide) (by decide) (by decide) (by decide) (by decide)),
      (h c main_arg15).trans (by rw [after_ops]; exact val14_args (launchContents m c) main_arg15 (by decide) (by decide) (by decide) (by decide) (by decide) (by decide) (by decide) (by decide) (by decide) (by decide) (by decide) (by decide) (by decide) (by decide)),
      (h c main_arg16).trans (by rw [after_ops]; exact val14_args (launchContents m c) main_arg16 (by decide) (by decide) (by decide) (by decide) (by decide) (by decide) (by decide) (by decide) (by decide) (by decide) (by decide) (by decide) (by decide) (by decide)),
      (h c main_arg17).trans (by rw [after_ops]; exact val14_args (launchContents m c) main_arg17 (by decide) (by decide) (by decide) (by decide) (by decide) (by decide) (by decide) (by decide) (by decide) (by decide) (by decide) (by decide) (by decide) (by decide))⟩)
    (ValueP.run_after (F := Ideal) m ρ)

end Cert.Gnn.RefRun

end
-- ==== Proof.lean ====
/-
  The certificate of a three-layer graph network: a tiled kernel program against a plain array program.

  Both programs compute, for 100000 nodes and 1200000 typed edges: an input projection of the node features
  (x·W1ᵀ + b1, maximum with zero, ·W2ᵀ + b2); three rounds of message passing, in each of which every node receives the
  mean over its incoming edges of its neighbours' states weighted by a softplus of a per-type edge weight, and updates its
  state by a recurrent cell (two affine images of width 3·64 cut into reset, update and candidate bands); an
  importance-weighted mean of the final states; and a two-layer head with a log-softmax.  The kernel program runs the
  projection and the three cell updates as tiled regions over blocks of 5000 nodes, with products of operands cut to a
  narrower float format accumulated into zero; everything else is the same host operations in both programs.

  On the extended reals a change of float format is the identity, a product accumulated into zero is the plain product,
  and the logistic function is by definition one over one plus the exponential of the negative — which is how the
  reference spells it.  So the two programs are one function, and the proof needs no property of the inputs:
    * each region's array is ONE function of the arrays it finds, row n of the result depending on rows n only
      (Arr0 – Arr3, over the stored values read at an entry in BodyRows);
    * the reference's dense stages, read at an entry, are the same row functions (RefRows);
    * going down the kernel program's segments, every buffer holds the reference's corresponding stage of the same
      arguments (KStretch for a stretch of host operations over any contents, KVal for the chain), so its result buffer
      ends at the reference's last stage (KRun names that buffer in the run);
    * the reference's run ends with its result at that same stage (RefRun).
  The three frames are the generated frame certificates of the two kernel programs and the reference's run with the
  result forgotten; the idealization rewrote no operation, so there is nothing to preserve.
-/
import proofs.«105062_j57750130262285_1_alg».proof.Defs
import proofs.«105062_j57750130262285_1_alg».proof.Proof.Gen.Kernel
import proofs.«105062_j57750130262285_1_alg».proof.Proof.Gen.Kernel.Skeleton
import proofs.«105062_j57750130262285_1_alg».proof.Proof.Gen.Kernel.Launch
import proofs.«105062_j57750130262285_1_alg».proof.Proof.Gen.Kernel.Points
import proofs.«105062_j57750130262285_1_alg».proof.Proof.Gen.Kernel.Frame
import proofs.«105062_j57750130262285_1_alg».proof.Proof.Gen.KernelIdeal
import proofs.«105062_j57750130262285_1_alg».proof.Proof.Gen.KernelIdeal.Skeleton
import proofs.«105062_j57750130262285_1_alg».proof.Proof.Gen.KernelIdeal.Launch
import proofs.«105062_j57750130262285_1_alg».proof.Proof.Gen.KernelIdeal.Points
import proofs.«105062_j57750130262285_1_alg».proof.Proof.Gen.KernelIdeal.Frame
import proofs.«105062_j57750130262285_1_alg».proof.Proof.Gen.ReferenceIdeal
import proofs.«105062_j57750130262285_1_alg».proof.Proof.Gen.Pre_finite_inputs
import proofs.«105062_j57750130262285_1_alg».proof.Proof.KRun
import proofs.«105062_j57750130262285_1_alg».proof.Proof.KVal
import proofs.«105062_j57750130262285_1_alg».proof.Proof.RefRun
import Idealize.ShloMosaic.Adequacy
import Idealize.ShloMosaic.Init

set_option maxRecDepth 16384

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · -- the reference's run with its result forgotten
    intro m ρ _
    exact (θ_run Cert.ReferenceIdeal.defs _ _).mono (fun _ h c => (h c).2) (Cert.Gnn.RefRun.run m ρ)
  · -- both programs end at the reference's last stage of the arguments they agree on
    intro m ρ m' ρ' _ hagree
    refine ⟨fun c => Cert.ReferenceIdeal.ReadP.val_main_v214 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17)), ?_, ?_⟩
    · exact (θ_run Cert.KernelIdeal.defs _ _).mono
        (fun _ h c => ⟨(h c).1.trans (Cert.Gnn.KVal.result m ρ c), (h c).2⟩)
        (Cert.KernelIdeal.RunNamed.run_named m ρ)
    · refine (θ_run Cert.ReferenceIdeal.defs _ _).mono (fun _ h c => ⟨(h c).1.trans ?_, (h c).2⟩)
        (Cert.Gnn.RefRun.run m' ρ')
      obtain ⟨e0, e1, e2, e3, e4, e5, e6, e7, e8, e9, e10, e11, e12, e13, e14, e15, e16, e17⟩ := hagree c
      rw [e0, e1, e2, e3, e4, e5, e6, e7, e8, e9, e10, e11, e12, e13, e14, e15, e16, e17]⟩

end Cert.Proof

end
